-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S512x1000x128 : Shape := ⟨3, ![512, 1000, 128]⟩
abbrev S1000 : Shape := ⟨1, ![1000]⟩
abbrev S1000x128 : Shape := ⟨2, ![1000, 128]⟩
abbrev S_ : Shape := ⟨0, ![]⟩

class Facts : Prop where
  bcast_S_S512x1000x128 : S_.BroadcastsInDim S512x1000x128 (![] : Fin 0 → Fin S512x1000x128.rank)
  reducesTo_S512x1000x128_S_d0_1_2 : S512x1000x128.ReducesTo [0, 1, 2] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg1 : IVec S1000 32) (main_v13 : IVec S_ 1) (main_v15 : IVec S1000 1) (main_c_5 : IVec S_ 32) : IVec S_ 1 :=
  let main_v16 : IVec S1000 32 := broadcastInDim S1000 ![] bcast_S_S1000 main_c_5
  let main_v17 : IVec S1000 1 := cmpi .sle main_arg1 main_v16
  let main_v18 : IVec S1000 1 := andi main_v15 main_v17
  let main_c_6 : IVec S_ 1 := constantI S_ 1 1#1
  let main_v19 : IVec S_ 1 := (fun x v => Host.reduce IntOp.andi x v reducesTo_S1000_S_d0 h_S_) main_v18 main_c_6
  let main_v20 : IVec S_ 1 := andi main_v13 main_v19
  main_v20

def fn {F : FTy → Type} [FloatOps F] (main_arg0 : FVec F S512x1000x128 .f32) (main_arg1 : IVec S1000 32) (main_arg2 : FVec F S1000x128 .f32) (main_arg3 : FVec F S1000 .f32) : IVec S_ 1 :=
  let main_v0 : FVec F S512x1000x128 .f32 := Host.absf main_arg0
  let main_cst : FVec F S_ .f32 := constant S_ .f32 0x7F800000#32
  let main_v1 : FVec F S512x1000x128 .f32 := broadcastInDim S512x1000x128 ![] bcast_S_S512x1000x128 main_cst
  let main_v2 : IVec S512x1000x128 1 := cmpf .olt main_v0 main_v1
  let main_c : IVec S_ 1 := constantI S_ 1 1#1
  let main_v3 : IVec S_ 1 := (fun x v => Host.reduce IntOp.andi x v reducesTo_S512x1000x128_S_d0_1_2 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1000 .f32 := Host.absf main_arg3
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S1000 32 := broadcastInDim S1000 ![] bcast_S_S1000 main_c_4
  let main_v15 : IVec S1000 1 := cmpi .sge main_arg1 main_v14
  let main_c_5 : IVec S_ 32 := constantI S_ 32 999#32
  fn_part1 (F := F) main_arg1 main_v13 main_v15 main_c_5
-- ==== Kernel.lean ====
abbrev S512x1000x128 : Shape := ⟨3, ![512, 1000, 128]⟩
abbrev S1000 : Shape := ⟨1, ![1000]⟩
abbrev S1000x128 : Shape := ⟨2, ![1000, 128]⟩
abbrev S40 : Shape := ⟨1, ![40]⟩
abbrev S40x128 : Shape := ⟨2, ![40, 128]⟩
abbrev S_ : Shape := ⟨0, ![]⟩
abbrev S1x1000 : Shape := ⟨2, ![1, 1000]⟩
abbrev S512x1000 : Shape := ⟨2, ![512, 1000]⟩
abbrev S32x1000x128 : Shape := ⟨3, ![32, 1000, 128]⟩
abbrev S32x1000 : Shape := ⟨2, ![32, 1000]⟩
abbrev S1x1000x128 : Shape := ⟨3, ![1, 1000, 128]⟩
abbrev S32x128x1000 : Shape := ⟨3, ![32, 128, 1000]⟩

abbrev nBuf : Table → Nat
  | .hbm => 8
  | .local .tc .vmem => 6
  | .local .scVector .vmem => 3
  | _ => 0

abbrev bufTy : (tb : Table) → Fin (nBuf tb) → BufTy
  | .hbm, ⟨0, _⟩ => ⟨S512x1000x128, .f32⟩
  | .hbm, ⟨1, _⟩ => ⟨S1000, .i32⟩
  | .hbm, ⟨2, _⟩ => ⟨S1000x128, .f32⟩
  | .hbm, ⟨3, _⟩ => ⟨S1000, .f32⟩
  | .hbm, ⟨4, _⟩ => ⟨S1000x128, .f32⟩
  | .hbm, ⟨5, _⟩ => ⟨S1000, .f32⟩
  | .hbm, ⟨6, _⟩ => ⟨S1x1000, .f32⟩
  | .hbm, ⟨7, _⟩ => ⟨S512x1000, .f32⟩
  | .local .tc .vmem, ⟨0, _⟩ => ⟨S1000x128, .f32⟩
  | .local .tc .vmem, ⟨1, _⟩ => ⟨S1x1000, .f32⟩
  | .local .tc .vmem, ⟨2, _⟩ => ⟨S32x1000x128, .f32⟩
  | .local .tc .vmem, ⟨3, _⟩ => ⟨S32x1000x128, .f32⟩
  | .local .tc .vmem, ⟨4, _⟩ => ⟨S32x1000, .f32⟩
  | .local .tc .vmem, ⟨5, _⟩ => ⟨S32x1000, .f32⟩
  | .local .scVector .vmem, ⟨0, _⟩ => ⟨S40, .i32⟩
  | .local .scVector .vmem, ⟨1, _⟩ => ⟨S40x128, .f32⟩
  | .local .scVector .vmem, ⟨2, _⟩ => ⟨S40, .f32⟩
  | _, _ => ⟨S512x1000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_arg2_scv : Ref sig .scVector := ⟨.hbm, 2, rfl⟩
abbrev main_arg3_scv : Ref sig .scVector := ⟨.hbm, 3, rfl⟩
abbrev main_arg1_scv : Ref sig .scVector := ⟨.hbm, 1, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v3 : BitVec 1 := Scalar.cmpi .slt v1 c25_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_5 : BitVec 32 := 0#32
  ![v2.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000x128_S1000x128_0_0 : ∀ a, (![0, 0] : Fin 2 → Nat) a + S1000x128.size a ≤ S1000x128.size a
  gathers_S1000x128_S40x128 : S1000x128.Gathers 0 S40x128
  inb_S1000_S1000_0 : ∀ a, (![0] : Fin 1 → Nat) a + S1000.size a ≤ S1000.size a
  gathers_S1000_S40 : S1000.Gathers 0 S40
  shapeCasts_S1000_S1x1000 : S1000.ShapeCasts S1x1000
  inb_S32x1000x128_S32x1000x128_0_0_0 : ∀ a, (![0, 0, 0] : Fin 3 → Nat) a + S32x1000x128.size a ≤ S32x1000x128.size a
  h_S32x1000x128 : 0 < S32x1000x128.numel
  h_S1000x128 : 0 < S1000x128.numel
  shapeCasts_S1000x128_S1000x128 : S1000x128.ShapeCasts S1000x128
  shapeCasts_S1000x128_S1x1000x128 : S1000x128.ShapeCasts S1x1000x128
  broadcasts_S1x1000x128_S32x1000x128 : S1x1000x128.Broadcasts S32x1000x128
  transposes_S32x1000x128_p0_2_1_S32x128x1000 : S32x1000x128.Transposes [0, 2, 1] S32x128x1000
  reduces_S32x128x1000_S32x1000 : S32x128x1000.Reduces [1] S32x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S32x1000 : S1x1000.Broadcasts S32x1000
  inb_S32x1000_S32x1000_0_0 : ∀ a, (![0, 0] : Fin 2 → Nat) a + S32x1000.size a ≤ S32x1000.size a
  h_S32x1000 : 0 < S32x1000.numel
  hcc0_scratch3 : 0 + S_.numel ≤ 11
  hcc0_scratch4 : 1 + S_.numel ≤ 11
  hcc0_scratch5 : 2 + S_.numel ≤ 11
  hcc0_scoped0 : 3 + S_.numel ≤ 11
  hcc0_scoped1 : 4 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S40.size a ≤ S1000.size a
  k0_off2_inb : ∀ i : grid0.Coords, ∀ (k0_h1 : k0_cond1 i = 1#1), ∀ a, (k0_off2 i) a + S40x128.size a ≤ S1000x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S1000x128.size a
  hwx1_0 : ∀ i : grid1.Coords, EltTy.bits .f32 = 32 ∨ (Rect.block (s := S1000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1000.size a ≤ S1x1000.size a
  hwx1_1 : ∀ i : grid1.Coords, EltTy.bits .f32 = 32 ∨ (Rect.block (s := S1x1000) S1x1000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1000x128.size a ≤ S512x1000x128.size a
  hwx1_2 : ∀ i : grid1.Coords, EltTy.bits .f32 = 32 ∨ (Rect.block (s := S512x1000x128) S32x1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1000.size a ≤ S512x1000.size a
  hwx1_3 : ∀ i : grid1.Coords, EltTy.bits .f32 = 32 ∨ (Rect.block (s := S512x1000) S32x1000.size (cc1_transform_3 i) (hinb1_3 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0
abbrev cc0_scoped1 : DmaSems sig S_ := SemArray.consecutive 4 S_ hcc0_scoped1

abbrev win1_0 : Pipeline.Window sig grid1 :=
  Pipeline.Window.ofSpec (Memref.whole main_v0_0) S1000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S32x1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S32x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x1000x128 : Shape := ⟨3, ![512, 1000, 128]⟩
abbrev S1000 : Shape := ⟨1, ![1000]⟩
abbrev S1000x128 : Shape := ⟨2, ![1000, 128]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1x1000x128 : Shape := ⟨3, ![1, 1000, 128]⟩
abbrev S512x1000 : Shape := ⟨2, ![512, 1000]⟩
abbrev S1x1000 : Shape := ⟨2, ![1, 1000]⟩

abbrev nBuf : Space → Nat
  | .hbm => 57
  | .vmem => 0
  | .smem => 0
  | _ => 0

abbrev bufTy : (tb : Table) → Fin (tcTables nBuf tb) → BufTy
  | .hbm, ⟨0, _⟩ => ⟨S512x1000x128, .f32⟩
  | .hbm, ⟨1, _⟩ => ⟨S1000, .i32⟩
  | .hbm, ⟨2, _⟩ => ⟨S1000x128, .f32⟩
  | .hbm, ⟨3, _⟩ => ⟨S1000, .f32⟩
  | .hbm, ⟨4, _⟩ => ⟨S_, .i32⟩
  | .hbm, ⟨5, _⟩ => ⟨S1000, .i32⟩
  | .hbm, ⟨6, _⟩ => ⟨S1000, .i1⟩
  | .hbm, ⟨7, _⟩ => ⟨S_, .i32⟩
  | .hbm, ⟨8, _⟩ => ⟨S1000, .i32⟩
  | .hbm, ⟨9, _⟩ => ⟨S1000, .i32⟩
  | .hbm, ⟨10, _⟩ => ⟨S1000, .i32⟩
  | .hbm, ⟨11, _⟩ => ⟨S1000x1, .i32⟩
  | .hbm, ⟨12, _⟩ => ⟨S1, .i32⟩
  | .hbm, ⟨13, _⟩ => ⟨S_, .i32⟩
  | .hbm, ⟨14, _⟩ => ⟨S1000x1, .i32⟩
  | .hbm, ⟨15, _⟩ => ⟨S1000x1, .i1⟩
  | .hbm, ⟨16, _⟩ => ⟨S1x1, .i32⟩
  | .hbm, ⟨17, _⟩ => ⟨S1000x1, .i32⟩
  | .hbm, ⟨18, _⟩ => ⟨S1000x1, .i1⟩
  | .hbm, ⟨19, _⟩ => ⟨S1000x1, .i1⟩
  | .hbm, ⟨20, _⟩ => ⟨S_, .i1⟩
  | .hbm, ⟨21, _⟩ => ⟨S1000, .i1⟩
  | .hbm, ⟨22, _⟩ => ⟨S1000x128, .f32⟩
  | .hbm, ⟨23, _⟩ => ⟨S1000x128, .i1⟩
  | .hbm, ⟨24, _⟩ => ⟨S_, .f32⟩
  | .hbm, ⟨25, _⟩ => ⟨S1000x128, .f32⟩
  | .hbm, ⟨26, _⟩ => ⟨S1000x128, .f32⟩
  | .hbm, ⟨27, _⟩ => ⟨S_, .i32⟩
  | .hbm, ⟨28, _⟩ => ⟨S1000, .i32⟩
  | .hbm, ⟨29, _⟩ => ⟨S1000, .i1⟩
  | .hbm, ⟨30, _⟩ => ⟨S_, .i32⟩
  | .hbm, ⟨31, _⟩ => ⟨S1000, .i32⟩
  | .hbm, ⟨32, _⟩ => ⟨S1000, .i32⟩
  | .hbm, ⟨33, _⟩ => ⟨S1000, .i32⟩
  | .hbm, ⟨34, _⟩ => ⟨S1000x1, .i32⟩
  | .hbm, ⟨35, _⟩ => ⟨S1, .i32⟩
  | .hbm, ⟨36, _⟩ => ⟨S_, .i32⟩
  | .hbm, ⟨37, _⟩ => ⟨S1000x1, .i32⟩
  | .hbm, ⟨38, _⟩ => ⟨S1000x1, .i1⟩
  | .hbm, ⟨39, _⟩ => ⟨S1x1, .i32⟩
  | .hbm, ⟨40, _⟩ => ⟨S1000x1, .i32⟩
  | .hbm, ⟨41, _⟩ => ⟨S1000x1, .i1⟩
  | .hbm, ⟨42, _⟩ => ⟨S1000x1, .i1⟩
  | .hbm, ⟨43, _⟩ => ⟨S_, .i1⟩
  | .hbm, ⟨44, _⟩ => ⟨S1000, .i1⟩
  | .hbm, ⟨45, _⟩ => ⟨S1000, .f32⟩
  | .hbm, ⟨46, _⟩ => ⟨S_, .f32⟩
  | .hbm, ⟨47, _⟩ => ⟨S1000, .f32⟩
  | .hbm, ⟨48, _⟩ => ⟨S1000, .f32⟩
  | .hbm, ⟨49, _⟩ => ⟨S1x1000x128, .f32⟩
  | .hbm, ⟨50, _⟩ => ⟨S512x1000x128, .f32⟩
  | .hbm, ⟨51, _⟩ => ⟨S512x1000x128, .f32⟩
  | .hbm, ⟨52, _⟩ => ⟨S_, .f32⟩
  | .hbm, ⟨53, _⟩ => ⟨S512x1000, .f32⟩
  | .hbm, ⟨54, _⟩ => ⟨S1x1000, .f32⟩
  | .hbm, ⟨55, _⟩ => ⟨S512x1000, .f32⟩
  | .hbm, ⟨56, _⟩ => ⟨S512x1000, .f32⟩
  | _, _ => ⟨S512x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_cst : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x128_0 : S1000.BroadcastsInDim S1000x128 (![0] : Fin 1 → Fin S1000x128.rank)
  bcast_S_S1000x128 : S_.BroadcastsInDim S1000x128 (![] : Fin 0 → Fin S1000x128.rank)
  bcast_S1000x128_S1x1000x128_1_2 : S1000x128.BroadcastsInDim S1x1000x128 (![1, 2] : Fin 2 → Fin S1x1000x128.rank)
  bcast_S1x1000x128_S512x1000x128_0_1_2 : S1x1000x128.BroadcastsInDim S512x1000x128 (![0, 1, 2] : Fin 3 → Fin S512x1000x128.rank)
  reducesTo_S512x1000x128_S512x1000_d2 : S512x1000x128.ReducesTo [2] S512x1000
  bcast_S1000_S1x1000_1 : S1000.BroadcastsInDim S1x1000 (![1] : Fin 1 → Fin S1x1000.rank)
  bcast_S1x1000_S512x1000_0_1 : S1x1000.BroadcastsInDim S512x1000 (![0, 1] : Fin 2 → Fin S512x1000.rank)
  gather_S1000x128_S1000x1_S1000x128_1_0_n_n_0_1_1128_wf : GatherDims.WF S1000x128 S1000x1 S1000x128 [1] [0] [] [0] [] 1 ![1, 128]
  gather_S1000_S1000x1_S1000_n_0_n_n_0_1_1_wf : GatherDims.WF S1000 S1000x1 S1000 [] [0] [] [0] [] 1 ![1]

variable [Facts₀]

def gather_S1000x128_S1000x1_S1000x128_1_0_n_n_0_1_1128 : GatherDims S1000x128 S1000x1 S1000x128 where
  offsetDims := [1]
  collapsedSliceDims := [0]
  operandBatchingDims := []
  startIndicesBatchingDims := []
  startIndexMap := [0]
  indexVectorDim := 1
  sliceSizes := ![1, 128]
  wf := gather_S1000x128_S1000x1_S1000x128_1_0_n_n_0_1_1128_wf
def gather_S1000_S1000x1_S1000_n_0_n_n_0_1_1 : GatherDims S1000 S1000x1 S1000 where
  offsetDims := []
  collapsedSliceDims := [0]
  operandBatchingDims := []
  startIndicesBatchingDims := []
  startIndexMap := [0]
  indexVectorDim := 1
  sliceSizes := ![1]
  wf := gather_S1000_S1000x1_S1000_n_0_n_n_0_1_1_wf

class Facts : Prop extends Facts₀ where

variable [Facts]
-- ==== Proof.PreFacts.lean ====
/-
  The precondition's integer conjunct, decoded. The precondition is the conjunction of four statements: every
  entry of the three float arrays is finite, and every index word ix[g], read as a signed 32-bit number, lies in
  [0, 999]. The last statement is printed as the reduction by `and`, over all 1000 positions, of the pointwise
  conjunction of the two comparisons 0 ≤ ix[g] and ix[g] ≤ 999; a reduction by `and` that comes out 1 met a 1 at
  every position, and a comparison that is 1 is the order relation between the signed readings.
-/
import proofs.«206728_g1443109012240_cont_week2b_750_35_alg».proof.Pre_input_domain
import proofs.«206728_g1443109012240_cont_week2b_750_35_alg».proof.Proof.Gen.Pre_input_domain
import Idealize.ShloMosaic.Lib.ReduceAll
import Idealize.ShloMosaic.Lib.ValueIdx

noncomputable section

namespace Cert.PreFacts

open Idealize.ShloMosaic

/-- The rank-0 shape has one index. -/
instance : Subsingleton Cert.Pre_input_domain.S_.Idx := ⟨fun a b => funext fun d => d.elim0⟩

/-- Under the precondition every index word lies in [0, 999], signed. -/
theorem idx_range {F : FTy → Type} [FloatOps F] (a0 : FVec F Cert.Pre_input_domain.S512x1000x128 .f32)
    (a1 : IVec Cert.Pre_input_domain.S1000 32) (a2 : FVec F Cert.Pre_input_domain.S1000x128 .f32)
    (a3 : FVec F Cert.Pre_input_domain.S1000 .f32)
    (h : Cert.Pre_input_domain.fn (F := F) a0 a1 a2 a3 = fun _ => 1#1) :
    ∀ x, 0 ≤ (a1 x).toInt ∧ (a1 x).toInt ≤ 999 := by
  intro x
  have e := congrFun h ValueIdx.ix0
  dsimp only [Cert.Pre_input_domain.fn, Cert.Pre_input_domain.fn_part1] at e
  -- the outer conjunction: (the three finiteness statements) ∧ (the reduction over the index words)
  have e2 := (IntOp.andi_eq_one.1 e).2
  -- the reduction by `and` met a 1 at position x
  have e3 := Host.reduce_andi_all _ _ _ _ _ e2 x
  -- that 1 is the conjunction of the two comparisons at x
  obtain ⟨hge, hle⟩ := IntOp.andi_eq_one.1 e3
  have hge' := IntOp.cmpi_sge.1 hge
  have hle' := IntOp.cmpi_sle.1 hle
  have c0 : (0#32).toInt = 0 := by decide
  have c999 : (999#32).toInt = 999 := by decide
  constructor
  · have : (0#32).toInt ≤ (a1 x).toInt := hge'
    rw [c0] at this; exact this
  · have : (a1 x).toInt ≤ (999#32).toInt := hle'
    rw [c999] at this; exact this

end Cert.PreFacts

end
-- ==== Proof.RefOps.lean ====
/-
  The reference program as a straight line. Its @main calls two lookup functions (one taking rows of the weight
  table, one taking entries of the bias vector), each of which calls a three-way select; unfolding the three
  definitions at their call sites leaves one chain of 53 whole-array operations: 23 for the row lookup, 22 for the
  entry lookup, and @main's own 8 (two broadcasts of the looked-up rows, the product, the zero, the sum over the last
  axis, two broadcasts of the looked-up entries, the final addition). Every weakly fair execution of the program
  terminates with each buffer at the fold of those operations over the launch contents.
-/
import proofs.«206728_g1443109012240_cont_week2b_750_35_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- The program's 53 operations, in order, the calls unfolded. -/
abbrev ops : List (HloOp τ sig (Elt F)) :=
  [ StableHlo.TRef.nullary main_call0.c (constantI S_ 32 0#32),
    StableHlo.TRef.unary main_call0.c main_call0.v0 (broadcastInDim S1000 ![] bcast_S_S1000),
    StableHlo.TRef.binary (.of main_arg1) main_call0.v0 main_call0.v1 (cmpi .slt),
    StableHlo.TRef.nullary main_call0.c_0 (constantI S_ 32 1000#32),
    StableHlo.TRef.unary main_call0.c_0 main_call0.v2 (broadcastInDim S1000 ![] bcast_S_S1000),
    StableHlo.TRef.binary (.of main_arg1) main_call0.v2 main_call0.v3 addi,
    StableHlo.TRef.ternary main_call0.v1 main_call0.v3 (.of main_arg1) main_call0.call0.v0 select,
    StableHlo.TRef.unary main_call0.call0.v0 main_call0.v5 (broadcastInDim S1000x1 ![0] bcast_S1000_S1000x1_0),
    StableHlo.TRef.nullary main_call0.c_1 (constantI S1 32 999#32),
    StableHlo.TRef.nullary main_call0.c_2 (constantI S_ 32 0#32),
    StableHlo.TRef.unary main_call0.c_2 main_call0.v6 (broadcastInDim S1000x1 ![] bcast_S_S1000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1000x1 ![0, 1] bcast_S1x1_S1000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1000x1_S1000_d1 h_S_),
    StableHlo.TRef.binary (.of main_arg2) main_call0.v5 main_call0.v13 (fun x i => Host.gather gather_S1000x128_S1000x1_S1000x128_1_0_n_n_0_1_1128 x i),
    StableHlo.TRef.unary main_call0.v12 main_call0.v14 (broadcastInDim S1000x128 ![0] bcast_S1000_S1000x128_0),
    StableHlo.TRef.nullary main_call0.cst (constant S_ .f32 0x7FC00000#32),
    StableHlo.TRef.unary main_call0.cst main_call0.v15 (broadcastInDim S1000x128 ![] bcast_S_S1000x128),
    StableHlo.TRef.ternary main_call0.v14 main_call0.v13 main_call0.v15 main_call0.v16 select,
    StableHlo.TRef.nullary main_call1.c (constantI S_ 32 0#32),
    StableHlo.TRef.unary main_call1.c main_call1.v0 (broadcastInDim S1000 ![] bcast_S_S1000),
    StableHlo.TRef.binary (.of main_arg1) main_call1.v0 main_call1.v1 (cmpi .slt),
    StableHlo.TRef.nullary main_call1.c_0 (constantI S_ 32 1000#32),
    StableHlo.TRef.unary main_call1.c_0 main_call1.v2 (broadcastInDim S1000 ![] bcast_S_S1000),
    StableHlo.TRef.binary (.of main_arg1) main_call1.v2 main_call1.v3 addi,
    StableHlo.TRef.ternary main_call1.v1 main_call1.v3 (.of main_arg1) main_call1.call0.v0 select,
    StableHlo.TRef.unary main_call1.call0.v0 main_call1.v5 (broadcastInDim S1000x1 ![0] bcast_S1000_S1000x1_0),
    StableHlo.TRef.nullary main_call1.c_1 (constantI S1 32 999#32),
    StableHlo.TRef.nullary main_call1.c_2 (constantI S_ 32 0#32),
    StableHlo.TRef.unary main_call1.c_2 main_call1.v6 (broadcastInDim S1000x1 ![] bcast_S_S1000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1000x1 ![0, 1] bcast_S1x1_S1000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1000x1_S1000_d1 h_S_),
    StableHlo.TRef.binary (.of main_arg3) main_call1.v5 main_call1.v13 (fun x i => Host.gather gather_S1000_S1000x1_S1000_n_0_n_n_0_1_1 x i),
    StableHlo.TRef.nullary main_call1.cst (constant S_ .f32 0x7FC00000#32),
    StableHlo.TRef.unary main_call1.cst main_call1.v14 (broadcastInDim S1000 ![] bcast_S_S1000),
    StableHlo.TRef.ternary main_call1.v12 main_call1.v13 main_call1.v14 main_call1.v15 select,
    StableHlo.unary main_v0 main_v2 (broadcastInDim S1x1000x128 ![1, 2] bcast_S1000x128_S1x1000x128_1_2 : (⟨S1000x128, .f32⟩ : BufTy).Contents (Elt F) → (⟨S1x1000x128, .f32⟩ : BufTy).Contents (Elt F)),
    StableHlo.unary main_v2 main_v3 (broadcastInDim S512x1000x128 ![0, 1, 2] bcast_S1x1000x128_S512x1000x128_0_1_2 : (⟨S1x1000x128, .f32⟩ : BufTy).Contents (Elt F) → (⟨S512x1000x128, .f32⟩ : BufTy).Contents (Elt F)),
    StableHlo.binary main_arg0 main_v3 main_v4 (mulf : (⟨S512x1000x128, .f32⟩ : BufTy).Contents (Elt F) → (⟨S512x1000x128, .f32⟩ : BufTy).Contents (Elt F) → (⟨S512x1000x128, .f32⟩ : BufTy).Contents (Elt F)),
    StableHlo.nullary main_cst (constant S_ .f32 0x00000000#32),
    StableHlo.binary main_v4 main_cst main_v5 ((fun x v => Host.reduceAdd x v reducesTo_S512x1000x128_S512x1000_d2 h_S_) : (⟨S512x1000x128, .f32⟩ : BufTy).Contents (Elt F) → (⟨S_, .f32⟩ : BufTy).Contents (Elt F) → (⟨S512x1000, .f32⟩ : BufTy).Contents (Elt F)),
    StableHlo.unary main_v1 main_v6 (broadcastInDim S1x1000 ![1] bcast_S1000_S1x1000_1 : (⟨S1000, .f32⟩ : BufTy).Contents (Elt F) → (⟨S1x1000, .f32⟩ : BufTy).Contents (Elt F)),
    StableHlo.unary main_v6 main_v7 (broadcastInDim S512x1000 ![0, 1] bcast_S1x1000_S512x1000_0_1 : (⟨S1x1000, .f32⟩ : BufTy).Contents (Elt F) → (⟨S512x1000, .f32⟩ : BufTy).Contents (Elt F)),
    StableHlo.binary main_v5 main_v7 main_v8 (addf : (⟨S512x1000, .f32⟩ : BufTy).Contents (Elt F) → (⟨S512x1000, .f32⟩ : BufTy).Contents (Elt F) → (⟨S512x1000, .f32⟩ : BufTy).Contents (Elt F)) ]

set_option maxRecDepth 2048 in
/-- @main is that straight line: the functions' definitions unfolded at their calls, both sides are one chain of
    steps once sequencing is reassociated. -/
theorem main_eq (c : Dev nD) : main (F := F) c = seq ops := by
  simp only [main, fn_take.body, fn_take_0.body, fn_where.body, seq, bind_assoc, pure_bind]

/-- The same 53 operations stated directly at their buffers: a typed reference built from a literal buffer carries that
    buffer's own type, so moving a value between the carried type and the buffer's type is the identity. -/
abbrev pops : List (HloOp τ sig (Elt F)) :=
  [ StableHlo.nullary main_call0_c (constantI S_ 32 0#32 : (⟨S_, .i32⟩ : BufTy).Contents (Elt F)),
    StableHlo.unary main_call0_c main_call0_v0 (broadcastInDim S1000 ![] bcast_S_S1000 : (⟨S_, .i32⟩ : BufTy).Contents (Elt F) → (⟨S1000, .i32⟩ : BufTy).Contents (Elt F)),
    StableHlo.binary main_arg1 main_call0_v0 main_call0_v1 (cmpi .slt : (⟨S1000, .i32⟩ : BufTy).Contents (Elt F) → (⟨S1000, .i32⟩ : BufTy).Contents (Elt F) → (⟨S1000, .i1⟩ : BufTy).Contents (Elt F)),
    StableHlo.nullary main_call0_c_0 (constantI S_ 32 1000#32 : (⟨S_, .i32⟩ : BufTy).Contents (Elt F)),
    StableHlo.unary main_call0_c_0 main_call0_v2 (broadcastInDim S1000 ![] bcast_S_S1000 : (⟨S_, .i32⟩ : BufTy).Contents (Elt F) → (⟨S1000, .i32⟩ : BufTy).Contents (Elt F)),
    StableHlo.binary main_arg1 main_call0_v2 main_call0_v3 (addi : (⟨S1000, .i32⟩ : BufTy).Contents (Elt F) → (⟨S1000, .i32⟩ : BufTy).Contents (Elt F) → (⟨S1000, .i32⟩ : BufTy).Contents (Elt F)),
    StableHlo.ternary main_call0_v1 main_call0_v3 main_arg1 main_call0_v4 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_call0_v4 main_call0_v5 (broadcastInDim S1000x1 ![0] bcast_S1000_S1000x1_0 : (⟨S1000, .i32⟩ : BufTy).Contents (Elt F) → (⟨S1000x1, .i32⟩ : BufTy).Contents (Elt F)),
    StableHlo.nullary main_call0_c_1 (constantI S1 32 999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S1000x1 ![] bcast_S_S1000x1 : (⟨S_, .i32⟩ : BufTy).Contents (Elt F) → (⟨S1000x1, .i32⟩ : BufTy).Contents (Elt F)),
    StableHlo.binary main_call0_v5 main_call0_v6 main_call0_v7 (cmpi .sge : (⟨S1000x1, .i32⟩ : BufTy).Contents (Elt F) → (⟨S1000x1, .i32⟩ : BufTy).Contents (Elt F) → (⟨S1000x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S1000x1 ![0, 1] bcast_S1x1_S1000x1_0_1 : (⟨S1x1, .i32⟩ : BufTy).Contents (Elt F) → (⟨S1000x1, .i32⟩ : BufTy).Contents (Elt F)),
    StableHlo.binary main_call0_v5 main_call0_v9 main_call0_v10 (cmpi .sle : (⟨S1000x1, .i32⟩ : BufTy).Contents (Elt F) → (⟨S1000x1, .i32⟩ : BufTy).Contents (Elt F) → (⟨S1000x1, .i1⟩ : BufTy).Contents (Elt F)),
    StableHlo.binary main_call0_v7 main_call0_v10 main_call0_v11 (andi : (⟨S1000x1, .i1⟩ : BufTy).Contents (Elt F) → (⟨S1000x1, .i1⟩ : BufTy).Contents (Elt F) → (⟨S1000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 (fun x v => Host.reduce IntOp.andi x v reducesTo_S1000x1_S1000_d1 h_S_ : (⟨S1000x1, .i1⟩ : BufTy).Contents (Elt F) → (⟨S_, .i1⟩ : BufTy).Contents (Elt F) → (⟨S1000, .i1⟩ : BufTy).Contents (Elt F)),
    StableHlo.binary main_arg2 main_call0_v5 main_call0_v13 (fun x i => Host.gather gather_S1000x128_S1000x1_S1000x128_1_0_n_n_0_1_1128 x i : (⟨S1000x128, .f32⟩ : BufTy).Contents (Elt F) → (⟨S1000x1, .i32⟩ : BufTy).Contents (Elt F) → (⟨S1000x128, .f32⟩ : BufTy).Contents (Elt F)),
    StableHlo.unary main_call0_v12 main_call0_v14 (broadcastInDim S1000x128 ![0] bcast_S1000_S1000x128_0 : (⟨S1000, .i1⟩ : BufTy).Contents (Elt F) → (⟨S1000x128, .i1⟩ : BufTy).Contents (Elt F)),
    StableHlo.nullary main_call0_cst (constant S_ .f32 0x7FC00000#32 : (⟨S_, .f32⟩ : BufTy).Contents (Elt F)),
    StableHlo.unary main_call0_cst main_call0_v15 (broadcastInDim S1000x128 ![] bcast_S_S1000x128 : (⟨S_, .f32⟩ : BufTy).Contents (Elt F) → (⟨S1000x128, .f32⟩ : BufTy).Contents (Elt F)),
    StableHlo.ternary main_call0_v14 main_call0_v13 main_call0_v15 main_v0 (select : (⟨S1000x128, .i1⟩ : BufTy).Contents (Elt F) → (⟨S1000x128, .f32⟩ : BufTy).Contents (Elt F) → (⟨S1000x128, .f32⟩ : BufTy).Contents (Elt F) → (⟨S1000x128, .f32⟩ : BufTy).Contents (Elt F)),
    StableHlo.nullary main_call1_c (constantI S_ 32 0#32 : (⟨S_, .i32⟩ : BufTy).Contents (Elt F)),
    StableHlo.unary main_call1_c main_call1_v0 (broadcastInDim S1000 ![] bcast_S_S1000 : (⟨S_, .i32⟩ : BufTy).Contents (Elt F) → (⟨S1000, .i32⟩ : BufTy).Contents (Elt F)),
    StableHlo.binary main_arg1 main_call1_v0 main_call1_v1 (cmpi .slt : (⟨S1000, .i32⟩ : BufTy).Contents (Elt F) → (⟨S1000, .i32⟩ : BufTy).Contents (Elt F) → (⟨S1000, .i1⟩ : BufTy).Contents (Elt F)),
    StableHlo.nullary main_call1_c_0 (constantI S_ 32 1000#32 : (⟨S_, .i32⟩ : BufTy).Contents (Elt F)),
    StableHlo.unary main_call1_c_0 main_call1_v2 (broadcastInDim S1000 ![] bcast_S_S1000 : (⟨S_, .i32⟩ : BufTy).Contents (Elt F) → (⟨S1000, .i32⟩ : BufTy).Contents (Elt F)),
    StableHlo.binary main_arg1 main_call1_v2 main_call1_v3 (addi : (⟨S1000, .i32⟩ : BufTy).Contents (Elt F) → (⟨S1000, .i32⟩ : BufTy).Contents (Elt F) → (⟨S1000, .i32⟩ : BufTy).Contents (Elt F)),
    StableHlo.ternary main_call1_v1 main_call1_v3 main_arg1 main_call1_v4 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_call1_v4 main_call1_v5 (broadcastInDim S1000x1 ![0] bcast_S1000_S1000x1_0 : (⟨S1000, .i32⟩ : BufTy).Contents (Elt F) → (⟨S1000x1, .i32⟩ : BufTy).Contents (Elt F)),
    StableHlo.nullary main_call1_c_1 (constantI S1 32 999#32 : (⟨S1, .i32⟩ : BufTy).Contents (Elt F)),
    StableHlo.nullary main_call1_c_2 (constantI S_ 32 0#32 : (⟨S_, .i32⟩ : BufTy).Contents (Elt F)),
    StableHlo.unary main_call1_c_2 main_call1_v6 (broadcastInDim S1000x1 ![] bcast_S_S1000x1 : (⟨S_, .i32⟩ : BufTy).Contents (Elt F) → (⟨S1000x1, .i32⟩ : BufTy).Contents (Elt F)),
    StableHlo.binary main_call1_v5 main_call1_v6 main_call1_v7 (cmpi .sge : (⟨S1000x1, .i32⟩ : BufTy).Contents (Elt F) → (⟨S1000x1, .i32⟩ : BufTy).Contents (Elt F) → (⟨S1000x1, .i1⟩ : BufTy).Contents (Elt F)),
    StableHlo.unary main_call1_c_1 main_call1_v8 (broadcastInDim S1x1 ![1] bcast_S1_S1x1_1 : (⟨S1, .i32⟩ : BufTy).Contents (Elt F) → (⟨S1x1, .i32⟩ : BufTy).Contents (Elt F)),
    StableHlo.unary main_call1_v8 main_call1_v9 (broadcastInDim S1000x1 ![0, 1] bcast_S1x1_S1000x1_0_1 : (⟨S1x1, .i32⟩ : BufTy).Contents (Elt F) → (⟨S1000x1, .i32⟩ : BufTy).Contents (Elt F)),
    StableHlo.binary main_call1_v5 main_call1_v9 main_call1_v10 (cmpi .sle : (⟨S1000x1, .i32⟩ : BufTy).Contents (Elt F) → (⟨S1000x1, .i32⟩ : BufTy).Contents (Elt F) → (⟨S1000x1, .i1⟩ : BufTy).Contents (Elt F)),
    StableHlo.binary main_call1_v7 main_call1_v10 main_call1_v11 (andi : (⟨S1000x1, .i1⟩ : BufTy).Contents (Elt F) → (⟨S1000x1, .i1⟩ : BufTy).Contents (Elt F) → (⟨S1000x1, .i1⟩ : BufTy).Contents (Elt F)),
    StableHlo.nullary main_call1_c_3 (constantI S_ 1 1#1 : (⟨S_, .i1⟩ : BufTy).Contents (Elt F)),
    StableHlo.binary main_call1_v11 main_call1_c_3 main_call1_v12 (fun x v => Host.reduce IntOp.andi x v reducesTo_S1000x1_S1000_d1 h_S_ : (⟨S1000x1, .i1⟩ : BufTy).Contents (Elt F) → (⟨S_, .i1⟩ : BufTy).Contents (Elt F) → (⟨S1000, .i1⟩ : BufTy).Contents (Elt F)),
    StableHlo.binary main_arg3 main_call1_v5 main_call1_v13 (fun x i => Host.gather gather_S1000_S1000x1_S1000_n_0_n_n_0_1_1 x i : (⟨S1000, .f32⟩ : BufTy).Contents (Elt F) → (⟨S1000x1, .i32⟩ : BufTy).Contents (Elt F) → (⟨S1000, .f32⟩ : BufTy).Contents (Elt F)),
    StableHlo.nullary main_call1_cst (constant S_ .f32 0x7FC00000#32 : (⟨S_, .f32⟩ : BufTy).Contents (Elt F)),
    StableHlo.unary main_call1_cst main_call1_v14 (broadcastInDim S1000 ![] bcast_S_S1000 : (⟨S_, .f32⟩ : BufTy).Contents (Elt F) → (⟨S1000, .f32⟩ : BufTy).Contents (Elt F)),
    StableHlo.ternary main_call1_v12 main_call1_v13 main_call1_v14 main_v1 (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)),
    StableHlo.unary main_v0 main_v2 (broadcastInDim S1x1000x128 ![1, 2] bcast_S1000x128_S1x1000x128_1_2 : (⟨S1000x128, .f32⟩ : BufTy).Contents (Elt F) → (⟨S1x1000x128, .f32⟩ : BufTy).Contents (Elt F)),
    StableHlo.unary main_v2 main_v3 (broadcastInDim S512x1000x128 ![0, 1, 2] bcast_S1x1000x128_S512x1000x128_0_1_2 : (⟨S1x1000x128, .f32⟩ : BufTy).Contents (Elt F) → (⟨S512x1000x128, .f32⟩ : BufTy).Contents (Elt F)),
    StableHlo.binary main_arg0 main_v3 main_v4 (mulf : (⟨S512x1000x128, .f32⟩ : BufTy).Contents (Elt F) → (⟨S512x1000x128, .f32⟩ : BufTy).Contents (Elt F) → (⟨S512x1000x128, .f32⟩ : BufTy).Contents (Elt F)),
    StableHlo.nullary main_cst (constant S_ .f32 0x00000000#32 : (⟨S_, .f32⟩ : BufTy).Contents (Elt F)),
    StableHlo.binary main_v4 main_cst main_v5 ((fun x v => Host.reduceAdd x v reducesTo_S512x1000x128_S512x1000_d2 h_S_) : (⟨S512x1000x128, .f32⟩ : BufTy).Contents (Elt F) → (⟨S_, .f32⟩ : BufTy).Contents (Elt F) → (⟨S512x1000, .f32⟩ : BufTy).Contents (Elt F)),
    StableHlo.unary main_v1 main_v6 (broadcastInDim S1x1000 ![1] bcast_S1000_S1x1000_1 : (⟨S1000, .f32⟩ : BufTy).Contents (Elt F) → (⟨S1x1000, .f32⟩ : BufTy).Contents (Elt F)),
    StableHlo.unary main_v6 main_v7 (broadcastInDim S512x1000 ![0, 1] bcast_S1x1000_S512x1000_0_1 : (⟨S1x1000, .f32⟩ : BufTy).Contents (Elt F) → (⟨S512x1000, .f32⟩ : BufTy).Contents (Elt F)),
    StableHlo.binary main_v5 main_v7 main_v8 (addf : (⟨S512x1000, .f32⟩ : BufTy).Contents (Elt F) → (⟨S512x1000, .f32⟩ : BufTy).Contents (Elt F) → (⟨S512x1000, .f32⟩ : BufTy).Contents (Elt F)) ]

set_option maxRecDepth 4096 in
theorem ops_eq : (ops : List (HloOp τ sig (Elt F))) = pops := rfl

theorem main_eq' (c : Dev nD) : main (F := F) c = seq pops := (main_eq c).trans (congrArg seq ops_eq)

theorem scopedRefs_eq : (Finset.univ.filter fun b : Ref sig .tc => b.isScoped) = ∅ := by decide
theorem scopedSems_eq : (Finset.univ.filter fun sm : SemLoc sig => sm.isScoped .tc) = ∅ := by decide

theorem pops_sub : (pops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., binary_bufs_sub .., nullary_bufs_sub .., binary_bufs_sub .., unary_bufs_sub .., unary_bufs_sub .., binary_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after pops (launchContents m c) (b : DevRef τ sig) :=
  run_seq scopedRefs_eq scopedSems_eq defs main (fun _ => pops) main_eq' (fun _ => pops_sub) m ρ

end Cert.ReferenceIdeal.RefValue

end
-- ==== Proof.RefTerm.lean ====
/-
  What the reference's straight line leaves in its result buffer, as one term of the four arguments.

  A lookup `x[ix]` of the program is lowered in four steps. The index is wrapped: a negative index has the table's
  length 1000 added. The wrapped index, as a column, is tested against [0, 999] (two comparisons, a conjunction, and a
  reduction by `and` over the column's one position). The table is gathered at the wrapped index, the gather clamping
  the index into the table. Where the test failed the gathered value is replaced by a NaN. The result of the program is
  the sum over the last axis of the embedding times the looked-up weight rows (broadcast over the cells), plus the
  looked-up bias entries (broadcast over the cells).
-/
import proofs.«206728_g1443109012240_cont_week2b_750_35_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- The wrapped index: 1000 added where the index is negative. -/
def wrapIx (ix : IVec S1000 32) : IVec S1000 32 :=
  select (cmpi .slt ix (broadcastInDim S1000 ![] bcast_S_S1000 (constantI S_ 32 0#32)))
    (addi ix (broadcastInDim S1000 ![] bcast_S_S1000 (constantI S_ 32 1000#32))) ix

/-- The wrapped index as a column. -/
def colIx (ix : IVec S1000 32) : IVec S1000x1 32 :=
  broadcastInDim S1000x1 ![0] bcast_S1000_S1000x1_0 (wrapIx ix)

/-- The test: the wrapped index lies in [0, 999]. -/
def inRange (ix : IVec S1000 32) : IVec S1000 1 :=
  Host.reduce IntOp.andi
    (andi (cmpi .sge (colIx ix) (broadcastInDim S1000x1 ![] bcast_S_S1000x1 (constantI S_ 32 0#32)))
      (cmpi .sle (colIx ix)
        (broadcastInDim S1000x1 ![0, 1] bcast_S1x1_S1000x1_0_1 (broadcastInDim S1x1 ![1] bcast_S1_S1x1_1 (constantI S1 32 999#32)))))
    (constantI S_ 1 1#1) reducesTo_S1000x1_S1000_d1 h_S_

/-- The looked-up weight rows. -/
def takeRows (w : FVec F S1000x128 .f32) (ix : IVec S1000 32) : FVec F S1000x128 .f32 :=
  select (broadcastInDim S1000x128 ![0] bcast_S1000_S1000x128_0 (inRange ix))
    (Host.gather gather_S1000x128_S1000x1_S1000x128_1_0_n_n_0_1_1128 w (colIx ix))
    (broadcastInDim S1000x128 ![] bcast_S_S1000x128 (constant S_ .f32 0x7FC00000#32))

/-- The looked-up bias entries. -/
def takeEntries (b : FVec F S1000 .f32) (ix : IVec S1000 32) : FVec F S1000 .f32 :=
  select (inRange ix) (Host.gather gather_S1000_S1000x1_S1000_n_0_n_n_0_1_1 b (colIx ix))
    (broadcastInDim S1000 ![] bcast_S_S1000 (constant S_ .f32 0x7FC00000#32))

/-- The program's result. -/
def refOut (e : FVec F S512x1000x128 .f32) (ix : IVec S1000 32) (w : FVec F S1000x128 .f32) (b : FVec F S1000 .f32) :
    FVec F S512x1000 .f32 :=
  addf
    (Host.reduceAdd
      (mulf e (broadcastInDim S512x1000x128 ![0, 1, 2] bcast_S1x1000x128_S512x1000x128_0_1_2
        (broadcastInDim S1x1000x128 ![1, 2] bcast_S1000x128_S1x1000x128_1_2 (takeRows w ix))))
      (constant S_ .f32 0x00000000#32) reducesTo_S512x1000x128_S512x1000_d2 h_S_)
    (broadcastInDim S512x1000 ![0, 1] bcast_S1x1000_S512x1000_0_1
      (broadcastInDim S1x1000 ![1] bcast_S1000_S1x1000_1 (takeEntries b ix)))

set_option maxRecDepth 8192 in
/-- The fold of the 53 operations at the result buffer is that term: each operation's result at its own result buffer is
    its function's value at its operands' buffers, and at any other buffer what was there. -/
theorem out_eq (V : Valuation τ sig (Elt F)) :
    after pops V (main_v8 : DevRef τ sig)
      = refOut (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt F)) :
    after pops V (main_arg0 : DevRef τ sig) = V (main_arg0 : DevRef τ sig) := by
  after_results_simp

set_option maxRecDepth 8192 in
theorem arg1_eq (V : Valuation τ sig (Elt F)) :
    after pops V (main_arg1 : DevRef τ sig) = V (main_arg1 : DevRef τ sig) := by
  after_results_simp

set_option maxRecDepth 8192 in
theorem arg2_eq (V : Valuation τ sig (Elt F)) :
    after pops V (main_arg2 : DevRef τ sig) = V (main_arg2 : DevRef τ sig) := by
  after_results_simp

set_option maxRecDepth 8192 in
theorem arg3_eq (V : Valuation τ sig (Elt F)) :
    after pops V (main_arg3 : DevRef τ sig) = V (main_arg3 : DevRef τ sig) := by
  after_results_simp

/-- The run with the result as that term of the arguments' launch contents, the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = refOut (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.Spec.lean ====
/-
  The function both programs compute. A table of 1000 rows of 128 weights and a bias per row are looked up at
  1000 row indices, and every cell's 1000 × 128 embedding is contracted against the looked-up weights:

      out[n, g] = Σ_d e[n, g, d] · w[ix g, d] + b[ix g].

  An index word is read as a signed 32-bit number and clamped into [0, 999]; for a word already in that range the
  clamp is the identity and the signed and the unsigned readings agree (`rowOf_of_range`).
-/
import Idealize.ShloMosaic.PureOps.Ideal
import Idealize.ShloMosaic.Lib.ValueIdx

noncomputable section

open scoped BigOperators

namespace Cert.Lookup

open Idealize.ShloMosaic Idealize.ShloMosaic.ValueIdx

/-- The table row an index word names: the word read signed, clamped into [0, 999]. -/
def rowOf (v : BitVec 32) : Fin 1000 := ⟨min v.toInt.toNat 999, by omega⟩

/-- A word whose signed reading lies in [0, 999] names the row of its unsigned reading. -/
theorem rowOf_of_range (v : BitVec 32) (h0 : 0 ≤ v.toInt) (h1 : v.toInt ≤ 999) : (rowOf v).val = v.toNat := by
  have hlt : v.toNat < 2 ^ 32 := v.isLt
  have hv : v.toInt = (v.toNat : ℤ) := by
    rw [BitVec.toInt_eq_toNat_cond]
    split
    · rfl
    · rename_i hge
      rw [BitVec.toInt_eq_toNat_cond] at h0
      simp only [hge, if_false] at h0
      omega
  show min v.toInt.toNat 999 = v.toNat
  rw [hv] at h1 ⊢
  simp only [Int.toNat_natCast]
  omega

/-- A word whose signed reading lies in [0, 999] has its unsigned reading below 1000. -/
theorem toNat_lt_of_range (v : BitVec 32) (h0 : 0 ≤ v.toInt) (h1 : v.toInt ≤ 999) : v.toNat < 1000 := by
  rw [← rowOf_of_range v h0 h1]; exact (rowOf v).isLt

/-- One entry of the result: cell `n`, gene `g`. -/
def outAt (e : (⟨3, ![512, 1000, 128]⟩ : Shape).Idx → EReal) (ix : (⟨1, ![1000]⟩ : Shape).Idx → BitVec 32)
    (w : (⟨2, ![1000, 128]⟩ : Shape).Idx → EReal) (b : (⟨1, ![1000]⟩ : Shape).Idx → EReal)
    (n : Fin 512) (g : Fin 1000) : EReal :=
  (∑ k : Fin 128, e (ix3 n g k) * w (ix2 (rowOf (ix (ix1 g))) k)) + b (ix1 (rowOf (ix (ix1 g))))

/-- The whole result array. -/
def out (e : (⟨3, ![512, 1000, 128]⟩ : Shape).Idx → EReal) (ix : (⟨1, ![1000]⟩ : Shape).Idx → BitVec 32)
    (w : (⟨2, ![1000, 128]⟩ : Shape).Idx → EReal) (b : (⟨1, ![1000]⟩ : Shape).Idx → EReal) :
    (⟨2, ![512, 1000]⟩ : Shape).Idx → EReal :=
  fun j => outAt e ix w b ⟨(j 0).val, idx2_lt0 j⟩ ⟨(j 1).val, idx2_lt1 j⟩

theorem out_ix2 (e : (⟨3, ![512, 1000, 128]⟩ : Shape).Idx → EReal) (ix : (⟨1, ![1000]⟩ : Shape).Idx → BitVec 32)
    (w : (⟨2, ![1000, 128]⟩ : Shape).Idx → EReal) (b : (⟨1, ![1000]⟩ : Shape).Idx → EReal) (n : Fin 512) (g : Fin 1000) :
    out e ix w b (ix2 n g) = outAt e ix w b n g := rfl

end Cert.Lookup

end
-- ==== Proof.LibEdges.lean ====
/-
  The edge pass of a graph convolution: rows of a node array are gathered along the edges' sources and added into the
  rows the edges' targets name. Three facts, over the extended reals:

  * a row gather reads, at edge `e` and column `k`, the operand's row `clamp (idx e)` at column `k`;
  * an update `(e, k)` of an accumulating scatter lands in row `p` only if the target index of edge `e` IS `p`;
  * hence scaling every update of edge `e` by a coefficient that depends only on `e`'s target row can be done once per
    target row after the accumulation — provided the coefficient is a nonnegative real, because on the extended reals
    `(y + z) · c = y · c + z · c` needs `0 ≤ c < ⊤` (it fails for `c < 0` at `y = ⊤, z = ⊥`).
-/
import Idealize.ShloMosaic.PureOps.Ideal
import Idealize.ShloMosaic.Lib.ValueIdx
import Idealize.ShloMosaic.Lib.Pipeline.Value

set_option maxRecDepth 16384

noncomputable section

namespace Cert.Gcn

open Idealize.ShloMosaic Idealize.ShloMosaic.ValueIdx

/-! ## The dimension numbers -/

/-- `x[idx]` for a node array `x : [N, C]` and one index per edge, `idx : [E, 1]`: result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx]` for a node vector `x : [N]` and one index per edge, `idx : [E, 1]`: result `[E]`. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The accumulation of edge rows `[E, C]` into node rows `[N, C]` at one target index per edge, `idx : [E, 1]`. -/
abbrev addDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## Gathers read at an index -/

section Gather
variable {α : Type}

/-- The row gather at `(e, k)`: the operand's row `min (idx e) (N − 1)` (the index read signed, negatives at `0`), column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k)
      = x (ix2 ⟨min (idx (ix2 e (0 : Fin 1))).toInt.toNat (N - 1), by omega⟩ k) := by
  unfold Host.gather
  congr 1
  funext a
  refine Fin.ext ?_
  show (rowsDims N E C wf).start (ix2 e k) idx a + (rowsDims N E C wf).batchCoord (ix2 e k) a
    + (rowsDims N E C wf).offCoord (ix2 e k) a = _
  rw [GatherDims.batchCoord_eq_zero _ _ _ List.not_mem_nil]
  have h0 : (rowsDims N E C wf).start (ix2 e k) idx (0 : Fin 2) + 0 + (rowsDims N E C wf).offCoord (ix2 e k) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsDims N E C wf).start (ix2 e k) idx (1 : Fin 2) + 0 + (rowsDims N E C wf).offCoord (ix2 e k) (1 : Fin 2)
      = k.val := by
    have hst : (rowsDims N E C wf).start (ix2 e k) idx (1 : Fin 2) = 0 := by
      unfold GatherDims.start
      rw [dif_neg (show (1 : Fin 2) ∉ ([0] : List (Fin 2)) from by decide)]
    rw [hst]
    simp only [Nat.zero_add]
    rfl
  match a with
  | ⟨0, _⟩ => exact h0
  | ⟨1, _⟩ => exact h1

/-- The entry gather at `e`: the operand at `min (idx e) (N − 1)`. -/
theorem gather_entry_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryDims N E wf).start (ix1 e) idx 0 + (entryDims N E wf).batchCoord (ix1 e) 0
    + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where an update lands -/

/-- An update `(e, k)` lands in row `i 0` only if edge `e`'s target index, read signed, is that row. -/
theorem resultIdx_row {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (i : (⟨2, ![N, C]⟩ : Shape).Idx)
    (h : (addDims N E C wf).resultIdx? (ix2 e k) idx = some i) :
    (idx (ix2 e (0 : Fin 1))).toInt = ((i 0).val : ℤ) := by
  have hs : (addDims N E C wf).start (ix2 e k) idx (0 : Fin 2) = (idx (ix2 e (0 : Fin 1))).toInt := by
    unfold ScatterDims.start
    rw [dif_pos (show (0 : Fin 2) ∈ (addDims N E C wf).scatterDimsToOperandDims from List.mem_singleton.mpr rfl)]
    have hsi : (addDims N E C wf).siIdx (ix2 e k) ⟨List.idxOf (0 : Fin 2) (addDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (addDims N E C wf).window (ix2 e k) (0 : Fin 2) = 0 := by
    unfold ScatterDims.window
    rw [dif_neg (fun h => by simp [Shape.kept] at h)]
  unfold ScatterDims.resultIdx? at h
  split at h
  · rename_i hb
    have h0 := congrArg (fun f : (⟨2, ![N, C]⟩ : Shape).Idx => (f 0).val) (Option.some.inj h)
    simp only at h0
    have hb0 := (hb 0).1
    rw [hs, hw] at hb0 h0
    omega
  · cases h

/-! ## Scaling after the accumulation -/

/-- On the extended reals a finite sum times a nonnegative real is the sum of the products. -/
theorem sum_mul_of_nonneg_real {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- THE EDGE LAW. Accumulate updates `U` from a zero array and then scale row `p` by `cN p`; or scale update `(e, k)` by
    `cE e` first and accumulate: the same, when `cN` is a nonnegative real everywhere and `cE e = cN p` whenever edge `e`
    targets row `p`. -/
theorem scatter_scaled {N E C w : Nat}
    (wf : ScatterDims.WF ⟨2, ![N, C]⟩ ⟨2, ![E, 1]⟩ ⟨2, ![E, C]⟩ [1] [0] [0] 1)
    (dB : IVec ⟨2, ![E, 1]⟩ w) (U : (⟨2, ![E, C]⟩ : Shape).Idx → EReal) (cE : Fin E → EReal) (cN : Fin N → EReal)
    (hc : ∀ p, 0 ≤ cN p ∧ cN p ≠ ⊤)
    (hcE : ∀ (e : Fin E) (p : Fin N), (dB (ix2 e (0 : Fin 1))).toInt = (p.val : ℤ) → cE e = cN p)
    (i : (⟨2, ![N, C]⟩ : Shape).Idx) :
    Ideal.hostScatterAdd (addDims N E C wf) (fun _ => 0) dB U i * cN ⟨(i 0).val, idx2_lt0 i⟩
      = Ideal.hostScatterAdd (addDims N E C wf) (fun _ => 0) dB (fun j => U j * cE (j 0)) i := by
  unfold Ideal.hostScatterAdd
  rw [zero_add, zero_add]
  refine (sum_mul_of_nonneg_real _ _ (hc _).1 (hc _).2).trans ?_
  refine Finset.sum_congr rfl fun j hj => ?_
  obtain ⟨e, k, rfl⟩ : ∃ (e : Fin E) (k : Fin C), j = ix2 e k := ⟨j 0, j 1, eq_ix2 j⟩
  have hrow := resultIdx_row wf dB e k i (Finset.mem_filter.mp hj).2
  show U (ix2 e k) * cN ⟨(i 0).val, idx2_lt0 i⟩ = U (ix2 e k) * cE e
  rw [hcE e ⟨(i 0).val, idx2_lt0 i⟩ hrow]

end Cert.Gcn

end
-- ==== Proof.RefRead.lean ====
/-
  The reference's result is the specification's, under the index range.

  When every index word lies in [0, 999] (signed) the lookup's four steps collapse: the wrap leaves a nonnegative index
  alone; both comparisons of the range test hold, so the reduction by `and` over the column's one position is 1 and the
  select keeps the gathered value, never the NaN; and the gather, which clamps its index into [0, 999], reads row
  `rowOf (ix g)`. The two broadcasts of the looked-up rows over the 512 cells read row g, column k at (n, g, k), the
  sum over the last axis from the zero word is the finite sum over k, and the two broadcasts of the looked-up bias
  entries read entry g at (n, g). So the result at (n, g) is Σ_k e[n, g, k] · w[rowOf (ix g), k] + b[rowOf (ix g)].
-/
import proofs.«206728_g1443109012240_cont_week2b_750_35_alg».proof.Proof.RefTerm
import proofs.«206728_g1443109012240_cont_week2b_750_35_alg».proof.Proof.Spec
import proofs.«206728_g1443109012240_cont_week2b_750_35_alg».proof.Proof.LibEdges
import Idealize.ShloMosaic.Lib.ReduceAll
import Idealize.ShloMosaic.Lib.KernelVsHost
import Idealize.ShloMosaic.PureOps.Ideal.Laws

noncomputable section

open scoped BigOperators

namespace Cert.ReferenceIdeal.RefValue

open Cert.ReferenceIdeal Idealize.ShloMosaic Idealize.ShloMosaic.ValueIdx
open Cert.ReferenceIdeal.Facts₀

/-! ## A reduction by `and` of ones -/

/-- A left fold by `and` from 1 over words that are all 1 is 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_of_all_one f l _ (IntOp.andi_eq_one.2 ⟨h, hl a List.mem_cons_self⟩)
      (fun n hn => hl n (List.mem_cons_of_mem _ hn))

/-- A `stablehlo.reduce` by `and` from 1 of an array of ones is 1 everywhere. -/
theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl]
  exact foldl_andi_of_all_one x _ _ (hi _) (fun n _ => hx n)

/-! ## Pointwise readings -/

theorem cmpi_apply {s : Shape} {w : Nat} (p : CmpIPredicate) (x y : IVec s w) (i : s.Idx) :
    cmpi p x y i = IntOp.cmpi p (x i) (y i) := rfl

/-- A broadcast constant reads as the constant at every index. -/
theorem bcast_const_apply {s t : Shape} {w : Nat} (dims : Fin s.rank → Fin t.rank) (h : s.BroadcastsInDim t dims)
    (c : BitVec w) (j : t.Idx) : broadcastInDim t dims h (constantI s w c) j = c := rfl

/-! ## The lookup's steps at an index -/

/-- A nonnegative index is not wrapped. -/
theorem wrapIx_apply (ix : IVec S1000 32) (i : S1000.Idx) (h0 : 0 ≤ (ix i).toInt) : wrapIx ix i = ix i := by
  unfold wrapIx
  rw [select_apply, cmpi_apply, bcast_const_apply]
  unfold Scalar.select
  rw [if_neg]
  intro hc
  have h := IntOp.cmpi_slt.1 hc
  have c0 : (0#32 : BitVec 32).toInt = 0 := by decide
  rw [c0] at h
  omega

/-- A vector broadcast into a column reads, at row g, its entry g. -/
theorem col_bcast_apply (x : IVec S1000 32) (g : Fin 1000) (z : Fin 1) :
    broadcastInDim S1000x1 ![0] bcast_S1000_S1000x1_0 x (ix2 g z) = x (ix1 g) := by
  refine broadcastInDim_apply ![0] bcast_S1000_S1000x1_0 x (ix2 g z) (ix1 g) ?_
  intro a
  match a with
  | ⟨0, _⟩ =>
    show g.val = if (1000 : ℕ) = 1 then 0 else g.val
    rw [if_neg (by decide)]

/-- The column of wrapped indices at row g is the wrapped index g. -/
theorem colIx_apply (ix : IVec S1000 32) (g : Fin 1000) (z : Fin 1) : colIx ix (ix2 g z) = wrapIx ix (ix1 g) :=
  col_bcast_apply (wrapIx ix) g z

/-- Under the index range the column of wrapped indices is the column of indices. -/
theorem colIx_of_range (ix : IVec S1000 32) (hr : ∀ x, 0 ≤ (ix x).toInt ∧ (ix x).toInt ≤ 999) (g : Fin 1000) (z : Fin 1) :
    colIx ix (ix2 g z) = ix (ix1 g) := by
  rw [colIx_apply, wrapIx_apply ix _ (hr _).1]

/-- Under the index range the range test holds everywhere. -/
theorem inRange_of_range (ix : IVec S1000 32) (hr : ∀ x, 0 ≤ (ix x).toInt ∧ (ix x).toInt ≤ 999) (j : S1000.Idx) :
    inRange ix j = 1#1 := by
  unfold inRange
  refine reduce_andi_of_all_one _ _ _ _ j (fun i => ?_) (fun _ => rfl)
  obtain ⟨g, z, rfl⟩ : ∃ (g : Fin 1000) (z : Fin 1), i = ix2 g z := ⟨i 0, i 1, eq_ix2 i⟩
  show IntOp.andi (IntOp.cmpi .sge (colIx ix (ix2 g z)) (0#32)) (IntOp.cmpi .sle (colIx ix (ix2 g z)) (999#32)) = 1#1
  rw [colIx_of_range ix hr g z]
  have c0 : (0#32 : BitVec 32).toInt = 0 := by decide
  have c999 : (999#32 : BitVec 32).toInt = 999 := by decide
  refine IntOp.andi_eq_one.2 ⟨IntOp.cmpi_sge.2 ?_, IntOp.cmpi_sle.2 ?_⟩
  · rw [c0]; exact (hr _).1
  · rw [c999]; exact (hr _).2

variable (w : FVec Ideal S1000x128 .f32) (b : FVec Ideal S1000 .f32) (e : FVec Ideal S512x1000x128 .f32)

/-- The looked-up weight rows at (g, k): row `rowOf (ix g)`, column k. -/
theorem takeRows_apply (ix : IVec S1000 32) (hr : ∀ x, 0 ≤ (ix x).toInt ∧ (ix x).toInt ≤ 999) (g : Fin 1000) (k : Fin 128) :
    takeRows (F := Ideal) w ix (ix2 g k) = w (ix2 (Cert.Lookup.rowOf (ix (ix1 g))) k) := by
  unfold takeRows
  rw [select_apply]
  have hm : broadcastInDim S1000x128 ![0] bcast_S1000_S1000x128_0 (inRange ix) (ix2 g k) = 1#1 := by
    unfold broadcastInDim
    exact inRange_of_range ix hr _
  rw [hm, select_one]
  have hg : Host.gather gather_S1000x128_S1000x1_S1000x128_1_0_n_n_0_1_1128 w (colIx ix) (ix2 g k)
      = w (ix2 ⟨min (colIx ix (ix2 g (0 : Fin 1))).toInt.toNat (1000 - 1), by omega⟩ k) :=
    Cert.Gcn.gather_rows_apply (by decide) gather_S1000x128_S1000x1_S1000x128_1_0_n_n_0_1_1128_wf w (colIx ix) g k
  rw [hg]
  have hc := colIx_of_range ix hr g (0 : Fin 1)
  refine congrArg w (congrArg (fun r : Fin 1000 => ix2 r k) (Fin.ext ?_))
  show min (colIx ix (ix2 g (0 : Fin 1))).toInt.toNat (1000 - 1) = _
  rw [hc]
  rfl

/-- The looked-up bias entries at g: entry `rowOf (ix g)`. -/
theorem takeEntries_apply (ix : IVec S1000 32) (hr : ∀ x, 0 ≤ (ix x).toInt ∧ (ix x).toInt ≤ 999) (g : Fin 1000) :
    takeEntries (F := Ideal) b ix (ix1 g) = b (ix1 (Cert.Lookup.rowOf (ix (ix1 g)))) := by
  unfold takeEntries
  rw [select_apply, inRange_of_range ix hr, select_one]
  have hg : Host.gather gather_S1000_S1000x1_S1000_n_0_n_n_0_1_1 b (colIx ix) (ix1 g)
      = b (ix1 ⟨min (colIx ix (ix2 g (0 : Fin 1))).toInt.toNat (1000 - 1), by omega⟩) :=
    Cert.Gcn.gather_entry_apply (by decide) gather_S1000_S1000x1_S1000_n_0_n_n_0_1_1_wf b (colIx ix) g
  rw [hg]
  have hc := colIx_of_range ix hr g (0 : Fin 1)
  refine congrArg b (congrArg (fun r : Fin 1000 => ix1 r) (Fin.ext ?_))
  show min (colIx ix (ix2 g (0 : Fin 1))).toInt.toNat (1000 - 1) = _
  rw [hc]
  rfl

/-! ## The broadcasts over the cells -/

/-- The looked-up rows broadcast over the cells, at (n, g, k): row g, column k. -/
theorem rows_bcast_apply (x : FVec Ideal S1000x128 .f32) (n : Fin 512) (g : Fin 1000) (k : Fin 128) :
    broadcastInDim S512x1000x128 ![0, 1, 2] bcast_S1x1000x128_S512x1000x128_0_1_2
        (broadcastInDim S1x1000x128 ![1, 2] bcast_S1000x128_S1x1000x128_1_2 x) (ix3 n g k) = x (ix2 g k) := by
  rw [broadcastInDim_apply ![0, 1, 2] bcast_S1x1000x128_S512x1000x128_0_1_2 _ (ix3 n g k) (ix3 (0 : Fin 1) g k) (by
    intro a
    match a with
    | ⟨0, _⟩ => rfl
    | ⟨1, _⟩ => show g.val = if (1000 : ℕ) = 1 then 0 else g.val; rw [if_neg (by decide)]
    | ⟨2, _⟩ => show k.val = if (128 : ℕ) = 1 then 0 else k.val; rw [if_neg (by decide)])]
  exact broadcastInDim_apply ![1, 2] bcast_S1000x128_S1x1000x128_1_2 x (ix3 (0 : Fin 1) g k) (ix2 g k) (by
    intro a
    match a with
    | ⟨0, _⟩ => show g.val = if (1000 : ℕ) = 1 then 0 else g.val; rw [if_neg (by decide)]
    | ⟨1, _⟩ => show k.val = if (128 : ℕ) = 1 then 0 else k.val; rw [if_neg (by decide)])

/-- The looked-up entries broadcast over the cells, at (n, g): entry g. -/
theorem entries_bcast_apply (x : FVec Ideal S1000 .f32) (n : Fin 512) (g : Fin 1000) :
    broadcastInDim S512x1000 ![0, 1] bcast_S1x1000_S512x1000_0_1
        (broadcastInDim S1x1000 ![1] bcast_S1000_S1x1000_1 x) (ix2 n g) = x (ix1 g) := by
  rw [broadcastInDim_oneRow_apply bcast_S1x1000_S512x1000_0_1 _ n g]
  exact broadcastInDim_apply ![1] bcast_S1000_S1x1000_1 x (ix2 (0 : Fin 1) g) (ix1 g) (by
    intro a
    match a with
    | ⟨0, _⟩ => show g.val = if (1000 : ℕ) = 1 then 0 else g.val; rw [if_neg (by decide)])

/-! ## The result -/

/-- The sum over the last axis at (n, g) runs over the indices (n, g, k). -/
theorem lift_eq (h : S512x1000x128.Reduces [2] S512x1000) (n : Fin 512) (g : Fin 1000) (k : Fin 128) :
    h.lift (ix2 n g) k = ix3 n g k := by
  funext c
  apply Fin.ext
  match c with
  | ⟨0, _⟩ => rfl
  | ⟨1, _⟩ => rfl
  | ⟨2, _⟩ => rfl

/-- THE REFERENCE'S RESULT at (n, g), under the index range. -/
theorem refOut_apply (ix : IVec S1000 32) (hr : ∀ x, 0 ≤ (ix x).toInt ∧ (ix x).toInt ≤ 999) (n : Fin 512) (g : Fin 1000) :
    refOut (F := Ideal) e ix w b (ix2 n g) = Cert.Lookup.outAt e ix w b n g := by
  unfold refOut Cert.Lookup.outAt
  rw [addf_apply, entries_bcast_apply, takeEntries_apply b ix hr]
  congr 1
  have hR : S512x1000x128.Reduces [2] S512x1000 := by decide
  show Ideal.hostReduceAdd reducesTo_S512x1000x128_S512x1000_d2 _ (Ideal.ofBits .f32 0x00000000#32) (ix2 n g) = _
  rw [Ideal.hostReduceAdd_single reducesTo_S512x1000x128_S512x1000_d2 hR, Ideal.ofBits_zero_f32, zero_add]
  show (∑ k : Fin 128, _) = _
  refine Finset.sum_congr rfl fun k _ => ?_
  rw [lift_eq hR n g k, mulf_apply, rows_bcast_apply, takeRows_apply w ix hr]

/-- The reference's result is the specification's array, under the index range. -/
theorem refOut_eq (ix : IVec S1000 32) (hr : ∀ x, 0 ≤ (ix x).toInt ∧ (ix x).toInt ≤ 999) :
    refOut (F := Ideal) e ix w b = Cert.Lookup.out e ix w b := by
  funext j
  obtain ⟨n, g, rfl⟩ : ∃ (n : Fin 512) (g : Fin 1000), j = ix2 n g := ⟨j 0, j 1, eq_ix2 j⟩
  rw [Cert.Lookup.out_ix2]
  exact refOut_apply w b e ix hr n g

end Cert.ReferenceIdeal.RefValue

end
-- ==== Proof.RefRun.lean ====
/-
  The reference's run, with its result named by the specification.

  Under the precondition every index word lies in [0, 999] (signed), so the term the reference's straight line leaves in
  its result buffer is the specification's array: out[n, g] = Σ_d e[n, g, d] · w[ix g, d] + b[ix g]. Every weakly fair
  execution of the reference terminates with that array in the result buffer and the four arguments unchanged.
-/
import proofs.«206728_g1443109012240_cont_week2b_750_35_alg».proof.Defs
import proofs.«206728_g1443109012240_cont_week2b_750_35_alg».proof.Proof.Gen.Pre_input_domain
import proofs.«206728_g1443109012240_cont_week2b_750_35_alg».proof.Proof.PreFacts
import proofs.«206728_g1443109012240_cont_week2b_750_35_alg».proof.Proof.RefRead

noncomputable section

namespace Cert.ReferenceIdeal.RefValue

open Cert.ReferenceIdeal Idealize.ShloMosaic Idealize.ShloMosaic.TcCoe Idealize.SL.Sem Idealize.ShloMosaic.StableHlo

/-- Under the precondition: every weakly fair execution of the reference terminates with the specification's array in
    the result buffer and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v8)
          = Cert.Lookup.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono
    (fun _ h c => ⟨(h c).1.trans (refOut_eq _ _ _ _ (Cert.PreFacts.idx_range _ _ _ _ (hpre c))), (h c).2⟩)
    (run_term (F := Ideal) m ρ)

end Cert.ReferenceIdeal.RefValue

end
-- ==== Proof.SetupBits.lean ====
/-
  What the parts of the kernel-side proof share: the program as the launch theorem for a device with SparseCores sees
  it (the SparseCore call, the lifted body table, the variants), and the ghost state — one rounds algebra for the
  handshakes between the TensorCore, the sequencers and the tiles, one for the staging cells of the TensorCore's
  pipelined call, and the exclusive counters the tiles' own local copies are counted on.
-/
import proofs.«206728_g1443109012240_cont_week2b_750_35_alg».proof.Proof.Gen.Kernel
import proofs.«206728_g1443109012240_cont_week2b_750_35_alg».proof.Proof.Gen.Kernel.Skeleton
import proofs.«206728_g1443109012240_cont_week2b_750_35_alg».proof.Proof.Gen.Kernel.Launch
import proofs.«206728_g1443109012240_cont_week2b_750_35_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- The pipelined call has no prefetched table. -/
abbrev adm : (p : Fin 1) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The staging cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Kernel.Hand

end
-- ==== Proof.RowsBits.lean ====
/-
  How the rows of the two gathered arrays are dealt to the tiles. Tile (c, s) has chunk number w = 2·s + c; when
  w < 25 it owns rows [40·w, 40·w + 40) of both arrays, otherwise none. The 25 chunks are pairwise disjoint and cover
  the 1000 rows: row r lies in chunk r / 40, on SparseCore (r / 40) mod 2, tile (r / 40) / 2.
-/
import proofs.«206728_g1443109012240_cont_week2b_750_35_alg».proof.Proof.SetupBits
import Idealize.ShloMosaic.Lib.ValueIdx

noncomputable section

namespace Cert.Kernel.Hand

open Cert.Kernel Cert.Kernel.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The rows of the gathered weights tile (cn, sn) owns. -/
def wRowsN (cn sn : ℕ) : Finset S1000x128.Idx :=
  Finset.univ.filter fun j => 2 * sn + cn < 25 ∧ 40 * (2 * sn + cn) ≤ (j 0).val ∧ (j 0).val < 40 * (2 * sn + cn) + 40
/-- The entries of the gathered bias it owns. -/
def bRowsN (cn sn : ℕ) : Finset S1000.Idx :=
  Finset.univ.filter fun j => 2 * sn + cn < 25 ∧ 40 * (2 * sn + cn) ≤ (j 0).val ∧ (j 0).val < 40 * (2 * sn + cn) + 40
/-- What one SparseCore's sixteen tiles own together. -/
def wCoreN (cn : ℕ) : Finset S1000x128.Idx := (Finset.univ : Finset (Fin 16)).biUnion fun s => wRowsN cn s.val
def bCoreN (cn : ℕ) : Finset S1000.Idx := (Finset.univ : Finset (Fin 16)).biUnion fun s => bRowsN cn s.val

theorem mem_wRowsN {cn sn : ℕ} {j : S1000x128.Idx} :
    j ∈ wRowsN cn sn ↔ 2 * sn + cn < 25 ∧ 40 * (2 * sn + cn) ≤ (j 0).val ∧ (j 0).val < 40 * (2 * sn + cn) + 40 := by
  simp [wRowsN]
theorem mem_bRowsN {cn sn : ℕ} {j : S1000.Idx} :
    j ∈ bRowsN cn sn ↔ 2 * sn + cn < 25 ∧ 40 * (2 * sn + cn) ≤ (j 0).val ∧ (j 0).val < 40 * (2 * sn + cn) + 40 := by
  simp [bRowsN]

theorem wRows_inactive {cn sn : ℕ} (h : ¬ 2 * sn + cn < 25) : wRowsN cn sn = ∅ := by
  ext j; simp [mem_wRowsN, h]
theorem bRows_inactive {cn sn : ℕ} (h : ¬ 2 * sn + cn < 25) : bRowsN cn sn = ∅ := by
  ext j; simp [mem_bRowsN, h]

theorem wRows_disjoint (cn : ℕ) : ∀ s ∈ (Finset.univ : Finset (Fin 16)), ∀ s' ∈ (Finset.univ : Finset (Fin 16)), s ≠ s' →
    Disjoint (wRowsN cn s.val) (wRowsN cn s'.val) := fun s _ s' _ hne =>
  Finset.disjoint_left.mpr fun j hj hj' => by
    rw [mem_wRowsN] at hj hj'
    exact hne (Fin.ext (by omega))
theorem bRows_disjoint (cn : ℕ) : ∀ s ∈ (Finset.univ : Finset (Fin 16)), ∀ s' ∈ (Finset.univ : Finset (Fin 16)), s ≠ s' →
    Disjoint (bRowsN cn s.val) (bRowsN cn s'.val) := fun s _ s' _ hne =>
  Finset.disjoint_left.mpr fun j hj hj' => by
    rw [mem_bRowsN] at hj hj'
    exact hne (Fin.ext (by omega))

theorem wCore_disjoint : ∀ c ∈ (Finset.univ : Finset (Fin 2)), ∀ c' ∈ (Finset.univ : Finset (Fin 2)), c ≠ c' →
    Disjoint (wCoreN c.val) (wCoreN c'.val) := fun c _ c' _ hne =>
  Finset.disjoint_left.mpr fun j hj hj' => by
    obtain ⟨s, -, hs⟩ := Finset.mem_biUnion.mp hj
    obtain ⟨s', -, hs'⟩ := Finset.mem_biUnion.mp hj'
    rw [mem_wRowsN] at hs hs'
    have := c.isLt; have := c'.isLt
    exact hne (Fin.ext (by omega))
theorem bCore_disjoint : ∀ c ∈ (Finset.univ : Finset (Fin 2)), ∀ c' ∈ (Finset.univ : Finset (Fin 2)), c ≠ c' →
    Disjoint (bCoreN c.val) (bCoreN c'.val) := fun c _ c' _ hne =>
  Finset.disjoint_left.mpr fun j hj hj' => by
    obtain ⟨s, -, hs⟩ := Finset.mem_biUnion.mp hj
    obtain ⟨s', -, hs'⟩ := Finset.mem_biUnion.mp hj'
    rw [mem_bRowsN] at hs hs'
    have := c.isLt; have := c'.isLt
    exact hne (Fin.ext (by omega))

theorem wCore_cover : (Finset.univ : Finset (Fin 2)).biUnion (fun c => wCoreN c.val) = Finset.univ := by
  ext j
  simp only [Finset.mem_biUnion, Finset.mem_univ, true_and, iff_true, wCoreN]
  have hr : (j 0).val < 1000 := idx2_lt0 j
  refine ⟨⟨((j 0).val / 40) % 2, by omega⟩, ⟨((j 0).val / 40) / 2, by omega⟩, ?_⟩
  rw [mem_wRowsN]
  dsimp only
  omega
theorem bCore_cover : (Finset.univ : Finset (Fin 2)).biUnion (fun c => bCoreN c.val) = Finset.univ := by
  ext j
  simp only [Finset.mem_biUnion, Finset.mem_univ, true_and, iff_true, bCoreN]
  have hr : (j 0).val < 1000 := (j 0).isLt
  refine ⟨⟨((j 0).val / 40) % 2, by omega⟩, ⟨((j 0).val / 40) / 2, by omega⟩, ?_⟩
  rw [mem_bRowsN]
  dsimp only
  omega

end Cert.Kernel.Hand

end
-- ==== Proof.GatherValueBits.lean ====
/-
  What an active tile's two gathers deliver. The tile's index list holds entries [40·w, 40·w + 40) of the index
  array; the gather of table rows reads, for destination row k and column c, the table at row ix[40·w + k], column
  c; the gather of bias entries reads the bias at ix[40·w + k]. Copied out to rows [40·w, 40·w + 40) of the result
  arrays, each result row r holds the table row (the bias entry) that ix[r] names.
-/
import proofs.«206728_g1443109012240_cont_week2b_750_35_alg».proof.Proof.SetupBits
import proofs.«206728_g1443109012240_cont_week2b_750_35_alg».proof.Proof.RowsBits
import proofs.«206728_g1443109012240_cont_week2b_750_35_alg».proof.Proof.Spec
import Idealize.ShloMosaic.Lib.SparseCore.Stream
import Idealize.ShloMosaic.Lib.Writes
import Idealize.ShloMosaic.Lib.ValueIdx
import Idealize.ShloMosaic.Lib.Pipeline.Value

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.Sem

variable {F : FTy → Type}
variable (m : (ℓ : Loc nD τ sig) → Buf (Elt F) ℓ)

local notation "wW" => (Memref.whole Cert.Kernel.main_arg2_scv : Memref Cert.Kernel.sig Kind.scVector Space.hbm Cert.Kernel.S1000x128 EltTy.f32)
local notation "bW" => (Memref.whole Cert.Kernel.main_arg3_scv : Memref Cert.Kernel.sig Kind.scVector Space.hbm Cert.Kernel.S1000 EltTy.f32)
local notation "iW" => (Memref.whole Cert.Kernel.main_arg1_scv : Memref Cert.Kernel.sig Kind.scVector Space.hbm Cert.Kernel.S1000 EltTy.i32)
local notation "woW" => (Memref.whole Cert.Kernel.main_v0_0_scv : Memref Cert.Kernel.sig Kind.scVector Space.hbm Cert.Kernel.S1000x128 EltTy.f32)
local notation "boW" => (Memref.whole Cert.Kernel.main_v0_1_scv : Memref Cert.Kernel.sig Kind.scVector Space.hbm Cert.Kernel.S1000 EltTy.f32)
local notation "sI" => (Memref.whole Cert.Kernel.cc0_scratch0 : Memref Cert.Kernel.sig Kind.scVector Space.vmem Cert.Kernel.S40 EltTy.i32)

/-- The arrays as locations of device `d`: the embeddings, the indices, the table, the bias, the gathered rows, the
    gathered bias. -/
abbrev eLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev woLoc (d : Dev nD) : Loc nD τ sig := (SparseCore.T d).loc main_v0_0
abbrev boLoc (d : Dev nD) : Loc nD τ sig := (SparseCore.T d).loc main_v0_1

/-- What the proof asks of the launch memory: every index word, read signed, lies in [0, 999]. -/
def PreOK : Prop := ∀ (d : Dev nD) (x : S1000.Idx), 0 ≤ (m (iLoc d) x).toInt ∧ (m (iLoc d) x).toInt ≤ 999

/-- The gathered weights: row r is the table's row ix[r]. -/
def Wg (d : Dev nD) : Buf (Elt F) (woLoc d) :=
  fun j => m (wLoc d) (ix2 (Cert.Lookup.rowOf (m (iLoc d) (ix1 ⟨(j 0).val, idx2_lt0 j⟩))) ⟨(j 1).val, idx2_lt1 j⟩)
/-- The gathered bias: entry r is the bias at ix[r]. -/
def Bg (d : Dev nD) : Buf (Elt F) (boLoc d) :=
  fun j => m (bLoc d) (ix1 (Cert.Lookup.rowOf (m (iLoc d) j)))

variable (d : Dev nD) (L : grid0.Coords)

/-- The slices an active tile names: its 40 indices, its 40 rows of the gathered weights, its 40 entries of the
    gathered bias; and the table and the bias whole, as the gathers name them. -/
abbrev iSl (h : k0_cond1 L = 1#1) : Memref sig .scVector .hbm S40 .i32 :=
  (iW).slice (Rect.unit (s := S1000) (k0_off1 L) S40.size (k0_off1_inb L h)) (fun _ => rfl)
abbrev woSl (h : k0_cond1 L = 1#1) : Memref sig .scVector .hbm S40x128 .f32 :=
  (woW).slice (Rect.unit (s := S1000x128) (k0_off2 L) S40x128.size (k0_off2_inb L h)) (fun _ => rfl)
abbrev boSl (h : k0_cond1 L = 1#1) : Memref sig .scVector .hbm S40 .f32 :=
  (boW).slice (Rect.unit (s := S1000) (k0_off1 L) S40.size (k0_off1_inb L h)) (fun _ => rfl)
abbrev wAll : Memref sig .scVector .hbm S1000x128 .f32 :=
  (wW).slice (Rect.unit (s := S1000x128) ![0, 0] S1000x128.size inb_S1000x128_S1000x128_0_0) (fun _ => rfl)
abbrev bAll : Memref sig .scVector .hbm S1000 .f32 :=
  (bW).slice (Rect.unit (s := S1000) ![0] S1000.size inb_S1000_S1000_0) (fun _ => rfl)

/-- The tile's index list after its fetch. -/
def idxPay (h : k0_cond1 L = 1#1) : S40.Idx → Elt F .i32 :=
  ReadAs.same.apply (View.read (Elt F) (iSl L h).view (m (iLoc d)))

/-- A buffer written once through its whole shape reads the payload. -/
theorem read_writes_whole' {sg : RefSig} {κ : Kind} {sp : Space} {S : Shape} {e : EltTy} {Val : EltTy → Type}
    (v : View sg κ sp S e) (f : v.ty.Contents Val) (w : (Rect.whole S).shape.Idx → Val e) :
    v.read Val (v.writes Val f [⟨Rect.whole S, w⟩]) = fun y => w y := by
  funext y
  have := View.read_writes_cons_emb v f (Rect.whole S) w [] y
  rwa [Rect.emb_whole_apply] at this

/-- The chunk's first row: 40 · (2 · s + c). -/
theorem off1_val (h : k0_cond1 L = 1#1) : k0_off1 L 0 = 80 * (L 1).val + 40 * (L 0).val := by
  rw [k0_off1_eq]; rfl
theorem off2_val0 (h : k0_cond1 L = 1#1) : k0_off2 L 0 = 80 * (L 1).val + 40 * (L 0).val := by
  rw [k0_off2_eq]; rfl
theorem off2_val1 (h : k0_cond1 L = 1#1) : k0_off2 L 1 = 0 := by
  rw [k0_off2_eq]; rfl

/-- Entry k of the fetched list is the index array's entry 40·w + k. -/
theorem idxPay_apply (h : k0_cond1 L = 1#1) (k : S40.Idx) :
    idxPay m d L h k = m (iLoc d) (ix1 ⟨k0_off1 L 0 + (k 0).val, by have h1 : k0_off1 L 0 + 40 ≤ 1000 := k0_off1_inb L h 0; have h2 : (k 0).val < 40 := (k 0).isLt; omega⟩) := by
  unfold idxPay
  rw [ReadAs.apply_same, View.read_apply]
  refine (cast_eq _ _).trans (congrArg (m (iLoc d)) ?_)
  funext a
  match a with
  | ⟨0, _⟩ => exact Fin.ext (by show k0_off1 L 0 + 1 * (k 0).val = k0_off1 L 0 + (k 0).val; omega)

/-- The row the list names for destination row k: the word at entry k, read unsigned. -/
theorem rows_val (idx : S40.Idx → Elt F .i32) {o z : ℕ} (hn : S40.numel = o) (hz : ∀ x, (idx x).toNat < z) (k : Fin o) :
    (SparseCore.rows (F := F) (si := S40) idx hn hz k).val = (idx (ix1 ⟨k.val, by have := k.isLt; have : S40.numel = 40 := rfl; omega⟩)).toNat := by
  unfold SparseCore.rows
  show (idx (S40.rowMajor.symm (k.cast hn.symm))).toNat = _
  congr 2
  rw [Equiv.symm_apply_eq]
  exact Fin.ext (by rw [Shape.rowMajor_val_one]; rfl)

/-- The gather of table rows read at (k, c): the table at the named row, column c. -/
theorem gatherW_apply (g : S1000x128.Idx → Elt F .f32)
    (r : Fin (S40x128.size Gen.gathers_S1000x128_S40x128.axis') → Fin (S1000x128.size Gen.gathers_S1000x128_S40x128.axis)) (y : S40x128.Idx) :
    SparseCore.gatherPayload (F := F) Gen.gathers_S1000x128_S40x128 g r y
      = g (ix2 ⟨(r (y 0)).val, (r (y 0)).isLt⟩ ⟨(y 1).val, idx2_lt1 y⟩) := by
  unfold SparseCore.gatherPayload
  congr 1
  funext b
  match b with
  | ⟨0, _⟩ => exact Fin.ext (congrArg Fin.val (Shape.Gathers.idx_axis Gen.gathers_S1000x128_S40x128 r y))
  | ⟨1, _⟩ => exact Fin.ext (Shape.Gathers.idx_of_ne Gen.gathers_S1000x128_S40x128 r y ⟨1, by decide⟩ (by decide))

/-- The gather of bias entries read at k: the bias at the named entry. -/
theorem gatherB_apply (g : S1000.Idx → Elt F .f32)
    (r : Fin (S40.size Gen.gathers_S1000_S40.axis') → Fin (S1000.size Gen.gathers_S1000_S40.axis)) (y : S40.Idx) :
    SparseCore.gatherPayload (F := F) Gen.gathers_S1000_S40 g r y = g (ix1 ⟨(r (y 0)).val, (r (y 0)).isLt⟩) := by
  unfold SparseCore.gatherPayload
  congr 1
  funext b
  match b with
  | ⟨0, _⟩ => exact Fin.ext (congrArg Fin.val (Shape.Gathers.idx_axis Gen.gathers_S1000_S40 r y))

/-- The table and the bias, sliced whole, are addressed by their own indices. -/
theorem wAll_emb (z : S1000x128.Idx) : (wAll).view.emb z = z := by
  funext a
  match a with
  | ⟨0, _⟩ => exact Fin.ext (by show 0 + 1 * (z 0).val = (z 0).val; omega)
  | ⟨1, _⟩ => exact Fin.ext (by show 0 + 1 * (z 1).val = (z 1).val; omega)
theorem bAll_emb (z : S1000.Idx) : (bAll).view.emb z = z := by
  funext a
  match a with
  | ⟨0, _⟩ => exact Fin.ext (by show 0 + 1 * (z 0).val = (z 0).val; omega)

/-- A tile is active exactly when its chunk number is below 25. -/
theorem cond_iff : ∀ i : grid0.Coords, (k0_cond1 i = 1#1 ↔ 2 * (i 1).val + (i 0).val < 25) := by decide +kernel

/-- The rows an active tile writes are the rows it owns. -/
theorem woSl_set (h : k0_cond1 L = 1#1) : (woSl L h).view.set = wRowsN (L 0).val (L 1).val := by
  have hc := (cond_iff L).mp h
  ext j
  rw [mem_wRowsN]
  show j ∈ ((View.whole main_v0_0_scv).slice (Rect.unit (s := S1000x128) (k0_off2 L) S40x128.size (k0_off2_inb L h))).set ↔ _
  rw [View.set_slice, show (Finset.map (View.whole main_v0_0_scv).emb (Rect.unit (s := S1000x128) (k0_off2 L) S40x128.size (k0_off2_inb L h)).set) = (Rect.unit (s := S1000x128) (k0_off2 L) S40x128.size (k0_off2_inb L h)).set from Finset.map_refl,
    Rect.mem_set_unit]
  constructor
  · intro hj
    have h0 := hj 0
    rw [off2_val0 L h] at h0
    have e40 : S40x128.size 0 = 40 := rfl
    rw [e40] at h0
    exact ⟨hc, by omega, by omega⟩
  · rintro ⟨-, h1, h2⟩ a
    match a with
    | ⟨0, _⟩ =>
      show k0_off2 L 0 ≤ (j 0).val ∧ (j 0).val < k0_off2 L 0 + 40
      rw [off2_val0 L h]; omega
    | ⟨1, _⟩ =>
      show k0_off2 L 1 ≤ (j 1).val ∧ (j 1).val < k0_off2 L 1 + 128
      rw [off2_val1 L h]; have := idx2_lt1 j; omega
theorem boSl_set (h : k0_cond1 L = 1#1) : (boSl L h).view.set = bRowsN (L 0).val (L 1).val := by
  have hc := (cond_iff L).mp h
  ext j
  rw [mem_bRowsN]
  show j ∈ ((View.whole main_v0_1_scv).slice (Rect.unit (s := S1000) (k0_off1 L) S40.size (k0_off1_inb L h))).set ↔ _
  rw [View.set_slice, show (Finset.map (View.whole main_v0_1_scv).emb (Rect.unit (s := S1000) (k0_off1 L) S40.size (k0_off1_inb L h)).set) = (Rect.unit (s := S1000) (k0_off1 L) S40.size (k0_off1_inb L h)).set from Finset.map_refl,
    Rect.mem_set_unit]
  constructor
  · intro hj
    have h0 := hj 0
    rw [off1_val L h] at h0
    have e40 : S40.size 0 = 40 := rfl
    rw [e40] at h0
    exact ⟨hc, by omega, by omega⟩
  · rintro ⟨-, h1, h2⟩ a
    match a with
    | ⟨0, _⟩ =>
      show k0_off1 L 0 ≤ (j 0).val ∧ (j 0).val < k0_off1 L 0 + 40
      rw [off1_val L h]; omega

/-- The index list's words are in range, under the precondition. -/
theorem idxPay_lt (hpre : PreOK m) (h : k0_cond1 L = 1#1) (k : S40.Idx) : (idxPay m d L h k).toNat < 1000 := by
  rw [idxPay_apply]; exact Cert.Lookup.toNat_lt_of_range _ (hpre d _).1 (hpre d _).2

/-- What the gather of table rows leaves at (k, c) is what row 40·w + k of the gathered weights should hold. -/
theorem payW_apply (hpre : PreOK m) (h : k0_cond1 L = 1#1) (idx : S40.Idx → Elt F .i32) (hidx : idx = idxPay m d L h)
    {o : ℕ} (hn : S40.numel = o) (ho : o = 40)
    (r : Fin o → Fin 1000) (hr : ∀ k : Fin o, (r k).val = (idx (ix1 ⟨k.val, by omega⟩)).toNat)
    (y : S40x128.Idx) :
    m (wLoc d) (ix2 (r ⟨(y 0).val, by have := idx2_lt0 y; omega⟩) ⟨(y 1).val, idx2_lt1 y⟩) = Wg m d ((woSl L h).view.emb y) := by
  subst hidx ho
  unfold Wg
  refine congrArg (m (wLoc d)) ?_
  funext a
  match a with
  | ⟨0, _⟩ =>
    refine Fin.ext ?_
    show (r ⟨(y 0).val, _⟩).val = (Cert.Lookup.rowOf _).val
    rw [hr, idxPay_apply, Cert.Lookup.rowOf_of_range _ (hpre d _).1 (hpre d _).2]
    refine congrArg (fun z => (m (iLoc d) z).toNat) ?_
    funext b
    match b with
    | ⟨0, _⟩ =>
      refine Fin.ext ?_
      show k0_off1 L 0 + (y 0).val = k0_off2 L 0 + 1 * (y 0).val
      rw [off1_val L h, off2_val0 L h]; omega
  | ⟨1, _⟩ =>
    refine Fin.ext ?_
    show (y 1).val = k0_off2 L 1 + 1 * (y 1).val
    rw [off2_val1 L h]; omega

theorem payB_apply (hpre : PreOK m) (h : k0_cond1 L = 1#1) (idx : S40.Idx → Elt F .i32) (hidx : idx = idxPay m d L h)
    {o : ℕ} (hn : S40.numel = o) (ho : o = 40)
    (r : Fin o → Fin 1000) (hr : ∀ k : Fin o, (r k).val = (idx (ix1 ⟨k.val, by omega⟩)).toNat)
    (y : S40.Idx) :
    m (bLoc d) (ix1 (r ⟨(y 0).val, by have : (y 0).val < 40 := (y 0).isLt; omega⟩)) = Bg m d ((boSl L h).view.emb y) := by
  subst hidx ho
  unfold Bg
  refine congrArg (m (bLoc d)) ?_
  funext a
  match a with
  | ⟨0, _⟩ =>
    refine Fin.ext ?_
    show (r ⟨(y 0).val, _⟩).val = (Cert.Lookup.rowOf _).val
    rw [hr, idxPay_apply, Cert.Lookup.rowOf_of_range _ (hpre d _).1 (hpre d _).2]
    refine congrArg (fun z => (m (iLoc d) z).toNat) ?_
    funext b
    match b with
    | ⟨0, _⟩ =>
      refine Fin.ext ?_
      show k0_off1 L 0 + (y 0).val = k0_off1 L 0 + 1 * (y 0).val
      omega

/-- A slice written once, whole, with a payload that agrees with a whole-array function along the slice's placement
    holds that function on the slice's elements. -/
theorem piece_congr {sg : RefSig} {κ : Kind} {sp : Space} {S : Shape} {e : EltTy} {Val : EltTy → Type}
    (v : View sg κ sp S e) (f G : v.ty.Contents Val) (X : (Rect.whole S).shape.Idx → Val e)
    (hX : ∀ y, _root_.cast (congrArg Val v.elt_eq.symm) (X y) = G (v.emb y)) :
    ∀ i ∈ v.set, v.writes Val f [⟨Rect.whole S, X⟩] i = G i := by
  intro i hi
  obtain ⟨y, rfl⟩ := View.exists_emb_of_mem_set v hi
  rw [View.writes_singleton]
  have e1 : (v.slice (Rect.whole S)).emb y = v.emb y := by
    rw [View.emb_slice]; show v.emb ((Rect.whole S).emb y) = _; rw [Rect.emb_whole_apply]
  rw [← e1, View.write_emb_of_mem _ _ (Finset.mem_univ y), e1]
  exact hX y

end Cert.Kernel.Hand

end
-- ==== Proof.PayBits.lean ====
/-
  What the call of the gather kernel hands over and gets back. The TensorCore hands each SparseCore a read share
  of the index array, the table and the bias, and the rows of the two result arrays its tiles own; the SparseCore
  hands each tile a read share of the three inputs and the tile's own rows; back come the shares and the rows, each
  row now holding the table row (the bias entry) its index names.
-/
import proofs.«206728_g1443109012240_cont_week2b_750_35_alg».proof.Proof.GatherValueBits

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The read share of SparseCore `cn`, and of its tile `sn`. -/
abbrev qCore (cn : ℕ) : PosShare TreeShare := Transfers.shareTokN fullShare cn
abbrev qTile (cn sn : ℕ) : PosShare TreeShare := Transfers.shareTokN (qCore cn) sn

/-- What a tile is handed, -/
def tileGo (d : Dev nD) (cn sn : ℕ) : sProp 𝕄 :=
  iprop((iLoc d ↦{qTile cn sn} m (iLoc d)) ∗ (wLoc d ↦{qTile cn sn} m (wLoc d)) ∗ (bLoc d ↦{qTile cn sn} m (bLoc d))
    ∗ (woLoc d ↦[wRowsN cn sn]{fullShare} m (woLoc d)) ∗ (boLoc d ↦[bRowsN cn sn]{fullShare} m (boLoc d)))
/-- and what it hands back. -/
def tileTd (d : Dev nD) (cn sn : ℕ) : sProp 𝕄 :=
  iprop((iLoc d ↦{qTile cn sn} m (iLoc d)) ∗ (wLoc d ↦{qTile cn sn} m (wLoc d)) ∗ (bLoc d ↦{qTile cn sn} m (bLoc d))
    ∗ (woLoc d ↦[wRowsN cn sn]{fullShare} Wg m d) ∗ (boLoc d ↦[bRowsN cn sn]{fullShare} Bg m d))
/-- What a SparseCore is handed, -/
def coreSt (d : Dev nD) (cn : ℕ) : sProp 𝕄 :=
  iprop((iLoc d ↦{qCore cn} m (iLoc d)) ∗ (wLoc d ↦{qCore cn} m (wLoc d)) ∗ (bLoc d ↦{qCore cn} m (bLoc d))
    ∗ (woLoc d ↦[wCoreN cn]{fullShare} m (woLoc d)) ∗ (boLoc d ↦[bCoreN cn]{fullShare} m (boLoc d)))
/-- and what it hands back. -/
def coreDn (d : Dev nD) (cn : ℕ) : sProp 𝕄 :=
  iprop((iLoc d ↦{qCore cn} m (iLoc d)) ∗ (wLoc d ↦{qCore cn} m (wLoc d)) ∗ (bLoc d ↦{qCore cn} m (bLoc d))
    ∗ (woLoc d ↦[wCoreN cn]{fullShare} Wg m d) ∗ (boLoc d ↦[bCoreN cn]{fullShare} Bg m d))

def P : (K (F := F)).Pay (nD := nD) (Val := Elt F) (Name := ℕ) (U := UU) where
  st := fun _ d c => coreSt m d c.val
  dn := fun _ d c => coreDn m d c.val
  go := fun _ d c i => tileGo m d c.val i.val
  td := fun _ d c i => tileTd m d c.val i.val
  x := fun _ _ => iprop(emp)

instance P_storable : (P (F := F) m).IsStorable where
  st _ d c := by unfold P coreSt; infer_instance
  dn _ d c := by unfold P coreDn; infer_instance
  go _ d c i := by unfold P tileGo; infer_instance
  td _ d c i := by unfold P tileTd; infer_instance

/-! ## A SparseCore's operands split among its tiles -/

theorem go_eq (d : Dev nD) (cn : ℕ) :
    (bigSep Finset.univ fun i : Fin 16 => tileGo m d cn i.val)
      = iprop((bigSep Finset.univ fun i : Fin 16 => iLoc d ↦{qTile cn i.val} m (iLoc d))
          ∗ (bigSep Finset.univ fun i : Fin 16 => wLoc d ↦{qTile cn i.val} m (wLoc d))
          ∗ (bigSep Finset.univ fun i : Fin 16 => bLoc d ↦{qTile cn i.val} m (bLoc d))
          ∗ (woLoc d ↦[wCoreN cn]{fullShare} m (woLoc d)) ∗ (boLoc d ↦[bCoreN cn]{fullShare} m (boLoc d))) := by
  unfold tileGo wCoreN bCoreN
  rw [bigSep_sep', bigSep_sep', bigSep_sep', bigSep_sep', pointsTo_biUnion _ _ (wRows_disjoint cn), pointsTo_biUnion _ _ (bRows_disjoint cn)]
theorem td_eq (d : Dev nD) (cn : ℕ) :
    (bigSep Finset.univ fun i : Fin 16 => tileTd m d cn i.val)
      = iprop((bigSep Finset.univ fun i : Fin 16 => iLoc d ↦{qTile cn i.val} m (iLoc d))
          ∗ (bigSep Finset.univ fun i : Fin 16 => wLoc d ↦{qTile cn i.val} m (wLoc d))
          ∗ (bigSep Finset.univ fun i : Fin 16 => bLoc d ↦{qTile cn i.val} m (bLoc d))
          ∗ (woLoc d ↦[wCoreN cn]{fullShare} Wg m d) ∗ (boLoc d ↦[bCoreN cn]{fullShare} Bg m d)) := by
  unfold tileTd wCoreN bCoreN
  rw [bigSep_sep', bigSep_sep', bigSep_sep', bigSep_sep', pointsTo_biUnion _ _ (wRows_disjoint cn), pointsTo_biUnion _ _ (bRows_disjoint cn)]

theorem vecSplit : (K (F := F)).VecSplit' (P m) 0 := by
  intro d c
  show coreSt m d c.val ⊢ |={Set.univ}=> iprop((bigSep Finset.univ fun i : Fin 16 => tileGo m d c.val i.val)
      ∗ ((bigSep Finset.univ fun i : Fin 16 => tileTd m d c.val i.val) -∗ coreDn m d c.val))
  rw [go_eq, td_eq]
  unfold coreSt coreDn
  iintro ⟨Hi, Hw, Hb, Hwo, Hbo⟩
  ihave Hi2 := (Transfers.pointsTo_toks_split (qCore c.val) 16) $$ Hi
  icases Hi2 with ⟨Hir, Hit⟩
  ihave Hw2 := (Transfers.pointsTo_toks_split (qCore c.val) 16) $$ Hw
  icases Hw2 with ⟨Hwr, Hwt⟩
  ihave Hb2 := (Transfers.pointsTo_toks_split (qCore c.val) 16) $$ Hb
  icases Hb2 with ⟨Hbr, Hbt⟩
  imodintro
  isplitl [Hit Hwt Hbt Hwo Hbo]
  · isplitl [Hit]; · iexact Hit
    isplitl [Hwt]; · iexact Hwt
    isplitl [Hbt]; · iexact Hbt
    isplitl [Hwo]; · iexact Hwo
    iexact Hbo
  iintro ⟨Hit, Hwt, Hbt, Hwo, Hbo⟩
  isplitl [Hir Hit]
  · iapply (Transfers.pointsTo_toks_join (qCore c.val) 16); isplitl [Hir]; · iexact Hir
    iexact Hit
  isplitl [Hwr Hwt]
  · iapply (Transfers.pointsTo_toks_join (qCore c.val) 16); isplitl [Hwr]; · iexact Hwr
    iexact Hwt
  isplitl [Hbr Hbt]
  · iapply (Transfers.pointsTo_toks_join (qCore c.val) 16); isplitl [Hbr]; · iexact Hbr
    iexact Hbt
  isplitl [Hwo]; · iexact Hwo
  iexact Hbo

end Cert.Kernel.Hand

end
-- ==== Proof.TileBits.lean ====
/-
  One tile's task, run. An active tile (chunk number below 25) copies its 40 indices into its own memory, starts
  the gather of the 40 table rows and the gather of the 40 bias entries they name, and copies each out to its rows
  of the result arrays once it has landed; the two gathers read the one index list at once, each through half of it.
  Every index word is in range under the precondition, so both gathers complete. An idle tile does nothing.
-/
import proofs.«206728_g1443109012240_cont_week2b_750_35_alg».proof.Proof.PayBits

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "wW" => (Memref.whole Cert.Kernel.main_arg2_scv : Memref Cert.Kernel.sig Kind.scVector Space.hbm Cert.Kernel.S1000x128 EltTy.f32)
local notation "bW" => (Memref.whole Cert.Kernel.main_arg3_scv : Memref Cert.Kernel.sig Kind.scVector Space.hbm Cert.Kernel.S1000 EltTy.f32)
local notation "iW" => (Memref.whole Cert.Kernel.main_arg1_scv : Memref Cert.Kernel.sig Kind.scVector Space.hbm Cert.Kernel.S1000 EltTy.i32)
local notation "woW" => (Memref.whole Cert.Kernel.main_v0_0_scv : Memref Cert.Kernel.sig Kind.scVector Space.hbm Cert.Kernel.S1000x128 EltTy.f32)
local notation "boW" => (Memref.whole Cert.Kernel.main_v0_1_scv : Memref Cert.Kernel.sig Kind.scVector Space.hbm Cert.Kernel.S1000 EltTy.f32)
local notation "sI" => (Memref.whole Cert.Kernel.cc0_scratch0 : Memref Cert.Kernel.sig Kind.scVector Space.vmem Cert.Kernel.S40 EltTy.i32)
local notation "sR" => (Memref.whole Cert.Kernel.cc0_scratch1 : Memref Cert.Kernel.sig Kind.scVector Space.vmem Cert.Kernel.S40x128 EltTy.f32)
local notation "sB" => (Memref.whole Cert.Kernel.cc0_scratch2 : Memref Cert.Kernel.sig Kind.scVector Space.vmem Cert.Kernel.S40 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- A tile's semaphore cell. -/
abbrev cellAt (sm : DmaSem sig) : GSem nD τ sig := (V d (cV L) (jV L), SemLoc.dma sm)

/-- The five semaphores the kernel's copies complete on. -/
def five : Finset (GSem nD τ sig) :=
  {cellAt d L cc0_scratch3.sem, cellAt d L cc0_scratch4.sem, cellAt d L cc0_scratch5.sem, cellAt d L cc0_scoped0.sem, cellAt d L cc0_scoped1.sem}

omit [FloatOps F] in
theorem five_sub : five d L ⊆ ownCells (V d (cV L) (jV L)) := by
  intro g hg
  simp only [five, Finset.mem_insert, Finset.mem_singleton] at hg
  rcases hg with rfl | rfl | rfl | rfl | rfl
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩

omit [FloatOps F] in
theorem bigSep_five (Φ : GSem nD τ sig → sProp 𝕄) :
    bigSep (five d L) Φ = iprop(Φ (cellAt d L cc0_scratch3.sem) ∗ Φ (cellAt d L cc0_scratch4.sem) ∗ Φ (cellAt d L cc0_scratch5.sem)
      ∗ Φ (cellAt d L cc0_scoped0.sem) ∗ Φ (cellAt d L cc0_scoped1.sem)) := by
  unfold five
  rw [SparseCore.bigSep_insert' (by simp [cellAt]; decide), SparseCore.bigSep_insert' (by simp [cellAt]; decide),
    SparseCore.bigSep_insert' (by simp [cellAt]; decide), SparseCore.bigSep_insert' (by simp [cellAt]; decide), bigSep_singleton]

omit [FloatOps F] in
theorem ownSems0_V :
    (ownSems0 (V d (cV L) (jV L)) : sProp 𝕄)
      = iprop((semVal (cellAt d L cc0_scratch3.sem) 0 ∗ semVal (cellAt d L cc0_scratch4.sem) 0 ∗ semVal (cellAt d L cc0_scratch5.sem) 0
          ∗ semVal (cellAt d L cc0_scoped0.sem) 0 ∗ semVal (cellAt d L cc0_scoped1.sem) 0)
          ∗ bigSep (ownCells (V d (cV L) (jV L)) \ five d L) fun g => semVal g 0) := by
  unfold SparseCore.Cfg.ownSems0
  rw [SparseCore.bigSep_sdiff_split' (five_sub d L), bigSep_five]

/-- The tile's three buffers. -/
def three : Finset (DevRef τ sig) :=
  {(Proc.scVector (cV L) (jV L)).devRef cc0_scratch0, (Proc.scVector (cV L) (jV L)).devRef cc0_scratch1, (Proc.scVector (cV L) (jV L)).devRef cc0_scratch2}

omit [FloatOps F] in
theorem three_sub : three L ⊆ ownRefs (τ := τ) (sig := sig) (.scVector (cV L) (jV L)) := by
  intro b hb
  simp only [three, Finset.mem_insert, Finset.mem_singleton] at hb
  rcases hb with rfl | rfl | rfl <;> exact SparseCore.Cfg.mem_ownRefs_of_owner rfl

omit [FloatOps F] in
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f))
          ∗ bigSep (ownRefs (τ := τ) (sig := sig) (.scVector (cV L) (jV L)) \ three L) fun b => iprop(∃ f, ((d, b) : Loc nD τ sig) ↦{fullShare} f)) := by
  unfold SparseCore.Cfg.ownBufs
  rw [SparseCore.bigSep_sdiff_split' (three_sub L)]
  unfold three
  rw [SparseCore.bigSep_insert' (by
        simp only [Finset.mem_insert, Finset.mem_singleton, not_or]
        exact ⟨fun e => absurd (Proc.devRef_injective _ e) (show (cc0_scratch0 : Ref sig .scVector) ≠ cc0_scratch1 by decide),
          fun e => absurd (Proc.devRef_injective _ e) (show (cc0_scratch0 : Ref sig .scVector) ≠ cc0_scratch2 by decide)⟩),
    SparseCore.bigSep_insert' (by
        simp only [Finset.mem_singleton]
        exact fun e => absurd (Proc.devRef_injective _ e) (show (cc0_scratch1 : Ref sig .scVector) ≠ cc0_scratch2 by decide)), bigSep_singleton]

omit [FloatOps F] in
/-- The arrays as the tile's memrefs address them are the TensorCore's arrays. -/
theorem pts_i (q : PosShare TreeShare) (f : Buf (Elt F) (iLoc d)) :
    ((iW).view.loc (V d (cV L) (jV L)) ↦{q} f : sProp 𝕄) = iLoc d ↦{q} f := by
  simp only [Memref.view_whole, View.set_whole]
omit [FloatOps F] in
theorem pts_w (q : PosShare TreeShare) (f : Buf (Elt F) (wLoc d)) :
    ((wW).view.loc (V d (cV L) (jV L)) ↦{q} f : sProp 𝕄) = wLoc d ↦{q} f := by
  simp only [Memref.view_whole, View.set_whole]
omit [FloatOps F] in
theorem pts_b (q : PosShare TreeShare) (f : Buf (Elt F) (bLoc d)) :
    ((bW).view.loc (V d (cV L) (jV L)) ↦{q} f : sProp 𝕄) = bLoc d ↦{q} f := by
  simp only [Memref.view_whole, View.set_whole]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] in
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl
omit [FloatOps F] in
theorem pts_wo (h : k0_cond1 L = 1#1) (f : Buf (Elt F) (woLoc d)) :
    ((woSl L h).view.loc (V d (cV L) (jV L)) ↦[(woSl L h).view.set]{fullShare} f : sProp 𝕄) = woLoc d ↦[wRowsN (L 0).val (L 1).val]{fullShare} f := by
  rw [woSl_set]
omit [FloatOps F] in
theorem pts_bo (h : k0_cond1 L = 1#1) (f : Buf (Elt F) (boLoc d)) :
    ((boSl L h).view.loc (V d (cV L) (jV L)) ↦[(boSl L h).view.set]{fullShare} f : sProp 𝕄) = boLoc d ↦[bRowsN (L 0).val (L 1).val]{fullShare} f := by
  rw [boSl_set]

set_option maxHeartbeats 1600000 in
/-- The task of an active tile. -/
theorem tile_active (hF : (K (F := F)).Facts) (hpre : PreOK m) (k0_h1 : k0_cond1 L = 1#1)
    (O : CellTallies nD τ sig (HIx 1)) (W : Waits sig (HIx 1)) (hO : ∀ g, O g none = 0) :
    (iprop(levAts (K (F := F)).L (K (F := F)).lev ∗ emp ∗ tileGo m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L wW (Memref.isWhole_whole _) bW (Memref.isWhole_whole _) iW (Memref.isWhole_whole _) woW (Memref.isWhole_whole _) boW (Memref.isWhole_whole _)
            sI (Memref.isWhole_whole _) sR (Memref.isWhole_whole _) sB (Memref.isWhole_whole _) cc0_scratch3 cc0_scratch4 cc0_scratch5 cc0_scoped0 cc0_scoped1)
          fun _ => iprop(tileTd m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_k_eq_skeleton]; unfold cc0_k_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Hi, Hw, Hb, Hwo, Hbo⟩, ⟨⟨⟨%fI, HsI⟩, ⟨%fR, HsR⟩, ⟨%fB, HsB⟩⟩, Hbufs⟩, ⟨⟨H3, H4, H5, H0, H1⟩, Hsems⟩, HO⟩
  ihave Hmw := ((K (F := F)).mayWaits_none (thr := V d (cV L) (jV L)) hO) $$ Hlv
  ihave Hi' := (Entails.of_eq (pts_i (F := F) d L _ _).symm) $$ Hi
  ihave Hw' := (Entails.of_eq (pts_w (F := F) d L _ _).symm) $$ Hw
  ihave Hb' := (Entails.of_eq (pts_b (F := F) d L _ _).symm) $$ Hb
  ihave HsI' := (Entails.of_eq (pts_sI (F := F) d L _).symm) $$ HsI
  ihave HsR' := (Entails.of_eq (pts_sR (F := F) d L _).symm) $$ HsR
  ihave HsB' := (Entails.of_eq (pts_sB (F := F) d L _).symm) $$ HsB
  ihave Hwo' := (Entails.of_eq (pts_wo (F := F) d L k0_h1 _).symm) $$ Hwo
  ihave Hbo' := (Entails.of_eq (pts_bo (F := F) d L k0_h1 _).symm) $$ Hbo
  -- the index fetch and its wait
  sl_exec
  -- every fetched word names a table row
  have hin : ∀ (x : cc0_scratch0.ty.shape.Idx),
        BitVec.toNat
            (View.read (Elt F) (Memref.whole cc0_scratch0).view
              (View.write (Elt F) (Memref.whole cc0_scratch0).view fI (tile_active.sl.dma0 m d L k0_h1) Finset.univ) x) <
          1000 := by
    intro x
    rw [View.read_write_univ]
    exact idxPay_lt m d L hpre k0_h1 x
  -- the two gathers read the list at once: half of it each
  ihave Hs2 := (pointsTo_share (PosShare.mem_left_op_right fullShare)).1 $$ HsI'
  icases Hs2 with ⟨HsIa, HsIb⟩
  sl_exec
  -- what the two copies out leave in the tile's rows
  have hW : ∀ i ∈ (woSl L k0_h1).view.set,
      (woSl L k0_h1).view.writes (Elt F) (m (woLoc d)) [⟨Rect.whole S40x128, tile_active.sl.dma0_1 m d L k0_h1 fI fR hin⟩] i = Wg m d i := by
    refine piece_congr (woSl L k0_h1).view (m (woLoc d)) (Wg m d) _ fun y => ?_
    refine (cast_eq _ _).trans ?_
    unfold tile_active.sl.dma0_1 tile_active.sl.gather0
    rw [ReadAs.apply_same, read_writes_whole']
    beta_reduce
    refine (gatherW_apply _ _ y).trans ?_
    rw [View.read_apply, wAll_emb]
    refine (cast_eq _ _).trans ?_
    exact payW_apply m d L hpre k0_h1 _ (by rw [View.read_write_univ]; rfl) rfl rfl _ (fun k => rows_val _ rfl hin k) y
  have hB : ∀ i ∈ (boSl L k0_h1).view.set,
      (boSl L k0_h1).view.writes (Elt F) (m (boLoc d)) [⟨Rect.whole S40, tile_active.sl.dma0_2 m d L k0_h1 fI fB hin⟩] i = Bg m d i := by
    refine piece_congr (boSl L k0_h1).view (m (boLoc d)) (Bg m d) _ fun y => ?_
    refine (cast_eq _ _).trans ?_
    unfold tile_active.sl.dma0_2 tile_active.sl.gather1
    rw [ReadAs.apply_same, read_writes_whole']
    beta_reduce
    refine (gatherB_apply _ _ y).trans ?_
    rw [View.read_apply, bAll_emb]
    refine (cast_eq _ _).trans ?_
    exact payB_apply m d L hpre k0_h1 _ (by rw [View.read_write_univ]; rfl) rfl rfl _ (fun k => rows_val _ rfl hin k) y
  sl_step
  ihave HsI2 := (pointsTo_share (PosShare.mem_left_op_right fullShare)).2 $$ [HsIa HsIb]
  · isplitl [HsIa]; · iexact HsIa
    iexact HsIb
  isplitl [Hi' Hw' Hb' Hwo' Hbo']
  · isplitl [Hi']; · iapply (Entails.of_eq (pts_i (F := F) d L _ _)); iexact Hi'
    isplitl [Hw']; · iapply (Entails.of_eq (pts_w (F := F) d L _ _)); iexact Hw'
    isplitl [Hb']; · iapply (Entails.of_eq (pts_b (F := F) d L _ _)); iexact Hb'
    isplitl [Hwo']
    · iapply (Entails.of_eq (pts_wo (F := F) d L k0_h1 _))
      iapply (Entails.of_eq (pointsTo_congr hW))
      iexact Hwo'
    · iapply (Entails.of_eq (pts_bo (F := F) d L k0_h1 _))
      iapply (Entails.of_eq (pointsTo_congr hB))
      iexact Hbo'
  isplitl [HsI2 HsR' HsB' Hbufs]
  · isplitl [HsI2 HsR' HsB']
    · isplitl [HsI2]; · iexists _; iexact HsI2
      isplitl [HsR']; · iexists _; iexact HsR'
      iexists _; iexact HsB'
    · iexact Hbufs
  isplitl [H3 H4 H5 H0 H1 Hsems]
  · isplitl [H3 H4 H5 H0 H1]
    · isplitl [H3]; · iexact H3
      isplitl [H4]; · iexact H4
      isplitl [H5]; · iexact H5
      isplitl [H0]; · iexact H0
      iexact H1
    · iexact Hsems
  iexists (insert (SemLoc.dma cc0_scratch5.sem, (default : HIx 1)) (insert (SemLoc.dma cc0_scoped1.sem, (default : HIx 1))
    (insert (SemLoc.dma cc0_scratch4.sem, (default : HIx 1)) (insert (SemLoc.dma cc0_scratch3.sem, (default : HIx 1))
    (insert (SemLoc.dma cc0_scoped0.sem, (default : HIx 1)) W))))); isplitr
  · ipureintro; intro p hp
    simp only [Finset.mem_insert] at hp
    rcases hp with h | h | h | h | h | h
    · exact .inr (by subst h; rfl)
    · exact .inr (by subst h; rfl)
    · exact .inr (by subst h; rfl)
    · exact .inr (by subst h; rfl)
    · exact .inr (by subst h; rfl)
    · exact .inl h
  · iexact HO

set_option maxHeartbeats 800000 in
/-- The task of an idle tile: nothing. -/
theorem tile_idle (k0_h1 : ¬ k0_cond1 L = 1#1)
    (O : CellTallies nD τ sig (HIx 1)) (W : Waits sig (HIx 1)) :
    (iprop(levAts (K (F := F)).L (K (F := F)).lev ∗ emp ∗ tileGo m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L wW (Memref.isWhole_whole _) bW (Memref.isWhole_whole _) iW (Memref.isWhole_whole _) woW (Memref.isWhole_whole _) boW (Memref.isWhole_whole _)
            sI (Memref.isWhole_whole _) sR (Memref.isWhole_whole _) sB (Memref.isWhole_whole _) cc0_scratch3 cc0_scratch4 cc0_scratch5 cc0_scoped0 cc0_scoped1)
          fun _ => iprop(tileTd m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  have hc : ¬ 2 * (L 1).val + (L 0).val < 25 := fun h => k0_h1 ((cond_iff L).mpr h)
  rw [cc0_k_eq_skeleton]; unfold cc0_k_skel
  unfold tileGo tileTd
  rw [wRows_inactive hc, bRows_inactive hc, pointsTo_empty, pointsTo_empty, pointsTo_empty, pointsTo_empty]
  iintro ⟨-, -, ⟨Hi, Hw, Hb, -, -⟩, Hsb, Hss, HO⟩
  sl_exec
  sl_step
  isplitl [Hi Hw Hb]
  · isplitl [Hi]; · iexact Hi
    isplitl [Hw]; · iexact Hw
    isplitl [Hb]; · iexact Hb
    isplitr <;> iempintro
  isplitl [Hsb]; · iexact Hsb
  isplitl [Hss]; · iexact Hss
  iexists W; isplitr
  · ipureintro; exact fun p hp => .inl hp
  · iexact HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          wW (Memref.isWhole_whole _) bW (Memref.isWhole_whole _) iW (Memref.isWhole_whole _) woW (Memref.isWhole_whole _) boW (Memref.isWhole_whole _)
          sI (Memref.isWhole_whole _) sR (Memref.isWhole_whole _) sB (Memref.isWhole_whole _) cc0_scratch3 cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  by_cases h1 : k0_cond1 (coordsV ⟨_, hc.1⟩ ⟨_, hc.2⟩) = 1#1
  · exact (tile_active m d (coordsV ⟨_, hc.1⟩ ⟨_, hc.2⟩) hF hpre h1 O W hO).trans (wp_mono frame _ _ fun _ => obl_post)
  · exact (tile_idle m d (coordsV ⟨_, hc.1⟩ ⟨_, hc.2⟩) h1 O W).trans (wp_mono frame _ _ fun _ => obl_post)

end Cert.Kernel.Hand

end
-- ==== Proof.TcSideBits.lean ====
/-
  The TensorCore's side of the gather call, and the reshape after it.

  Before the call the TensorCore holds the index array, the table, the bias and the two result arrays whole. It keeps a
  read share of the three inputs and deals the rest out: each of the two SparseCores receives a read share of each input
  and the rows of the two result arrays its sixteen tiles own; the two SparseCores' rows are disjoint and together are
  all 1000 rows, so the two parts of a result array are the array. After the call the shares and the rows come back and
  are joined: the inputs whole at their launch contents, each result array whole with row r holding the table row (the
  bias entry) that index word r names.

  The TensorCore's arrays that outlive a kernel are the eight arrays of the program: the four arguments, the two gathered
  arrays, the gathered bias as a one-row matrix, and the result.

  The reshape between the two calls reads the gathered bias, 1000 entries, as a matrix of one row: entry (0, j) of the
  matrix is entry j of the vector.
-/
import proofs.«206728_g1443109012240_cont_week2b_750_35_alg».proof.Proof.PayBits

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ)

/-! ## The operands dealt to the two SparseCores, and joined back -/

/-- A result array whole is its two SparseCores' rows. -/
theorem wo_cores (d : Dev nD) (f : Buf (Elt F) (woLoc d)) :
    (woLoc d ↦{fullShare} f : sProp 𝕄) = bigSep Finset.univ fun c : Fin 2 => woLoc d ↦[wCoreN c.val]{fullShare} f :=
  (congrArg (fun I => (woLoc d ↦[I]{fullShare} f : sProp 𝕄)) wCore_cover.symm).trans
    (pointsTo_biUnion _ _ wCore_disjoint)
theorem bo_cores (d : Dev nD) (f : Buf (Elt F) (boLoc d)) :
    (boLoc d ↦{fullShare} f : sProp 𝕄) = bigSep Finset.univ fun c : Fin 2 => boLoc d ↦[bCoreN c.val]{fullShare} f :=
  (congrArg (fun I => (boLoc d ↦[I]{fullShare} f : sProp 𝕄)) bCore_cover.symm).trans
    (pointsTo_biUnion _ _ bCore_disjoint)

/-- What the two SparseCores are handed together: a read share of each input per SparseCore, and the two result arrays
    whole. -/
theorem st_eq (d : Dev nD) :
    (bigSep Finset.univ fun c : Fin 2 => coreSt m d c.val)
      = iprop((bigSep Finset.univ fun c : Fin 2 => iLoc d ↦{qCore c.val} m (iLoc d))
          ∗ (bigSep Finset.univ fun c : Fin 2 => wLoc d ↦{qCore c.val} m (wLoc d))
          ∗ (bigSep Finset.univ fun c : Fin 2 => bLoc d ↦{qCore c.val} m (bLoc d))
          ∗ (woLoc d ↦{fullShare} m (woLoc d)) ∗ (boLoc d ↦{fullShare} m (boLoc d))) := by
  unfold coreSt
  rw [bigSep_sep', bigSep_sep', bigSep_sep', bigSep_sep', wo_cores, bo_cores]
/-- What they hand back together. -/
theorem dn_eq (d : Dev nD) :
    (bigSep Finset.univ fun c : Fin 2 => coreDn m d c.val)
      = iprop((bigSep Finset.univ fun c : Fin 2 => iLoc d ↦{qCore c.val} m (iLoc d))
          ∗ (bigSep Finset.univ fun c : Fin 2 => wLoc d ↦{qCore c.val} m (wLoc d))
          ∗ (bigSep Finset.univ fun c : Fin 2 => bLoc d ↦{qCore c.val} m (bLoc d))
          ∗ (woLoc d ↦{fullShare} Wg m d) ∗ (boLoc d ↦{fullShare} Bg m d)) := by
  unfold coreDn
  rw [bigSep_sep', bigSep_sep', bigSep_sep', bigSep_sep', wo_cores, bo_cores]

/-- Before the call: the five arrays whole give the TensorCore's remaining read shares and what the two SparseCores
    are handed. -/
theorem tc_split (d : Dev nD) :
    iprop((iLoc d ↦{fullShare} m (iLoc d)) ∗ (wLoc d ↦{fullShare} m (wLoc d)) ∗ (bLoc d ↦{fullShare} m (bLoc d))
        ∗ (woLoc d ↦{fullShare} m (woLoc d)) ∗ (boLoc d ↦{fullShare} m (boLoc d)))
      ⊢ (iprop(((iLoc d ↦{Transfers.shareDrop fullShare 2} m (iLoc d)) ∗ (wLoc d ↦{Transfers.shareDrop fullShare 2} m (wLoc d))
            ∗ (bLoc d ↦{Transfers.shareDrop fullShare 2} m (bLoc d)))
          ∗ bigSep Finset.univ fun c : Fin ((K (F := F)).nCore 0) => (P m).st 0 d c) : sProp 𝕄) := by
  rw [show (bigSep Finset.univ fun c : Fin ((K (F := F)).nCore 0) => (P m).st 0 d c)
      = (bigSep Finset.univ fun c : Fin 2 => coreSt m d c.val) from rfl, st_eq]
  iintro ⟨Hi, Hw, Hb, Hwo, Hbo⟩
  ihave Hi2 := (Transfers.pointsTo_toks_split fullShare 2) $$ Hi
  icases Hi2 with ⟨Hir, Hit⟩
  ihave Hw2 := (Transfers.pointsTo_toks_split fullShare 2) $$ Hw
  icases Hw2 with ⟨Hwr, Hwt⟩
  ihave Hb2 := (Transfers.pointsTo_toks_split fullShare 2) $$ Hb
  icases Hb2 with ⟨Hbr, Hbt⟩
  isplitl [Hir Hwr Hbr]
  · isplitl [Hir]; · iexact Hir
    isplitl [Hwr]; · iexact Hwr
    iexact Hbr
  isplitl [Hit]; · iexact Hit
  isplitl [Hwt]; · iexact Hwt
  isplitl [Hbt]; · iexact Hbt
  isplitl [Hwo]; · iexact Hwo
  iexact Hbo

/-- After the call: the remaining read shares and what the two SparseCores hand back give the inputs whole at their
    launch contents and the two result arrays whole at the gathered rows. -/
theorem tc_join (d : Dev nD) :
    iprop(((iLoc d ↦{Transfers.shareDrop fullShare 2} m (iLoc d)) ∗ (wLoc d ↦{Transfers.shareDrop fullShare 2} m (wLoc d))
            ∗ (bLoc d ↦{Transfers.shareDrop fullShare 2} m (bLoc d)))
          ∗ bigSep Finset.univ fun c : Fin ((K (F := F)).nCore 0) => (P m).dn 0 d c)
      ⊢ (iprop((iLoc d ↦{fullShare} m (iLoc d)) ∗ (wLoc d ↦{fullShare} m (wLoc d)) ∗ (bLoc d ↦{fullShare} m (bLoc d))
          ∗ (woLoc d ↦{fullShare} Wg m d) ∗ (boLoc d ↦{fullShare} Bg m d)) : sProp 𝕄) := by
  rw [show (bigSep Finset.univ fun c : Fin ((K (F := F)).nCore 0) => (P m).dn 0 d c)
      = (bigSep Finset.univ fun c : Fin 2 => coreDn m d c.val) from rfl, dn_eq]
  iintro ⟨⟨Hir, Hwr, Hbr⟩, Hit, Hwt, Hbt, Hwo, Hbo⟩
  isplitl [Hir Hit]
  · iapply (Transfers.pointsTo_toks_join fullShare 2); isplitl [Hir]; · iexact Hir
    iexact Hit
  isplitl [Hwr Hwt]
  · iapply (Transfers.pointsTo_toks_join fullShare 2); isplitl [Hwr]; · iexact Hwr
    iexact Hwt
  isplitl [Hbr Hbt]
  · iapply (Transfers.pointsTo_toks_join fullShare 2); isplitl [Hbr]; · iexact Hbr
    iexact Hbt
  isplitl [Hwo]; · iexact Hwo
  iexact Hbo

/-! ## The TensorCore's arrays -/

/-- The TensorCore's buffers that outlive a kernel are the program's eight arrays. -/
theorem unscopedBufs_eq (d : Dev nD) (W : (b : Ref sig .tc) → Buf (Elt F) ((d.tc : Thread nD τ).loc b)) :
    (unscopedBufs d W : sProp 𝕄)
      = iprop((eLoc d ↦{fullShare} W main_arg0) ∗ (iLoc d ↦{fullShare} W main_arg1) ∗ (wLoc d ↦{fullShare} W main_arg2)
          ∗ (bLoc d ↦{fullShare} W main_arg3) ∗ (woLoc d ↦{fullShare} W main_v0_0) ∗ (boLoc d ↦{fullShare} W main_v0_1)
          ∗ ((SparseCore.T d).loc main_v1 ↦{fullShare} W main_v1) ∗ ((SparseCore.T d).loc main_v2 ↦{fullShare} W main_v2)) := by
  unfold unscopedBufs
  rw [show (Finset.univ.filter fun b : Ref sig .tc => ¬ b.isScoped)
      = {main_arg0, main_arg1, main_arg2, main_arg3, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The reshape -/

variable [FloatOps F]

/-- The gathered bias and the one-row matrix, as the TensorCore names them; the reshape; the two arrays it touches. -/
abbrev v1Loc (d : Dev nD) : Loc nD τ sig := (SparseCore.T d).loc main_v1
abbrev bo' : DevRef τ sig := Proc.devRef .tc (main_v0_1 : Ref sig .tc)
abbrev v1' : DevRef τ sig := Proc.devRef .tc (main_v1 : Ref sig .tc)
abbrev opR : HloOp τ sig (Elt F) := StableHlo.reshape main_v0_1 main_v1 rfl shapeCasts_S1000_S1x1000
abbrev S2 : Finset (DevRef τ sig) := {bo', v1'}

/-- A vector of 1000 entries read as a matrix of one row. -/
def bRow (d : Dev nD) (g : Buf (Elt F) (boLoc d)) : Buf (Elt F) (v1Loc d) :=
  fun i => shapeCast S1x1000 g shapeCasts_S1000_S1x1000 i

omit [FloatOps F] in
/-- Entry (0, j) of the matrix is entry j of the vector: both have row-major position j. -/
theorem bRow_apply (d : Dev nD) (g : Buf (Elt F) (boLoc d)) (j : Fin 1000) :
    bRow d g (ValueIdx.ix2 (0 : Fin 1) j) = g (ValueIdx.ix1 j) := by
  unfold bRow
  refine shapeCast_apply g shapeCasts_S1000_S1x1000 (ix2 (0 : Fin 1) j) (ix1 j) ?_
  show ((⟨1, ![1000]⟩ : Shape).rowMajor (ix1 j)).val = ((⟨2, ![1, 1000]⟩ : Shape).rowMajor (ix2 (0 : Fin 1) j)).val
  rw [Shape.rowMajor_val_one, Shape.rowMajor_val_two]
  show j.val = 0 * 1000 + j.val
  omega

omit [FloatOps F] in
theorem held_S2 (d : Dev nD) (W : Valuation τ sig (Elt F)) :
    (held (T d) S2 W : sProp 𝕄) = iprop((boLoc d ↦{fullShare} W bo') ∗ ((SparseCore.T d).loc main_v1 ↦{fullShare} W v1')) := by
  unfold held S2
  rw [SparseCore.bigSep_insert' (by decide), bigSep_singleton]

/-- A valuation holding the vector at `g` and the matrix at `f1`. -/
def VR [∀ e, Nonempty (Elt F e)] (d : Dev nD) (g : Buf (Elt F) (boLoc d)) (f1 : Buf (Elt F) (v1Loc d)) :
    Valuation τ sig (Elt F) :=
  Function.update (Function.update (fun _ _ => Classical.arbitrary _) v1' f1) bo' g

omit [FloatOps F] in
theorem VR_bo [∀ e, Nonempty (Elt F e)] (d : Dev nD) (g : Buf (Elt F) (boLoc d)) (f1 : Buf (Elt F) (v1Loc d)) :
    VR d g f1 bo' = g := Function.update_self _ _ _
omit [FloatOps F] in
theorem VR_v1 [∀ e, Nonempty (Elt F e)] (d : Dev nD) (g : Buf (Elt F) (boLoc d)) (f1 : Buf (Elt F) (v1Loc d)) :
    VR d g f1 v1' = f1 := by
  unfold VR
  rw [Function.update_of_ne (show v1' ≠ bo' by decide), Function.update_self]

omit [FloatOps F] in
/-- After the reshape the vector is what it was and the matrix is the vector read as one row. -/
theorem held_res [∀ e, Nonempty (Elt F e)] (d : Dev nD) (g : Buf (Elt F) (boLoc d)) (f1 : Buf (Elt F) (v1Loc d)) :
    (held (T d) S2 ((opR (F := F)).result (VR d g f1)) : sProp 𝕄)
      = iprop((boLoc d ↦{fullShare} g) ∗ ((SparseCore.T d).loc main_v1 ↦{fullShare} bRow d g)) := by
  rw [held_S2, (opR (F := F)).result_of_not_mem (VR d g f1) (b := bo') (show bo' ∉ ({v1'} : Finset (DevRef τ sig)) by decide), VR_bo]
  have hv : (opR (F := F)).result (VR d g f1) v1' = bRow d g := by
    refine (StableHlo.reshape_result main_v0_1 main_v1 rfl shapeCasts_S1000_S1x1000 _ _ (VR d g f1)).trans ?_
    funext i
    show shapeCast S1x1000 (VR d g f1 bo') shapeCasts_S1000_S1x1000 i = shapeCast S1x1000 g shapeCasts_S1000_S1x1000 i
    rw [VR_bo]
  rw [hv]

omit [FloatOps F] in
theorem hR : (opR (F := F)).bufs ⊆ S2 := show ({bo', v1'} : Finset (DevRef τ sig)) ⊆ S2 by decide

/-- The reshape as one step of @main: holding the region boundary, the gathered bias and the matrix's buffer whole, the
    rest of the program runs with the matrix holding the bias as one row. -/
theorem reshape_wp [∀ e, Nonempty (Elt F e)] (d : Dev nD) (g : Buf (Elt F) (boLoc d)) (f1 : Buf (Elt F) (v1Loc d))
    {α : Type} (p : Prog (TpuEff nD τ sig (Elt F) (SparseCore.Sig (ΛP (F := F)) 1) .tc) α) (Q : α → sProp 𝕄) :
    iprop(boundary (SparseCore.T d) ∗ (boLoc d ↦{fullShare} g) ∗ ((SparseCore.T d).loc main_v1 ↦{fullShare} f1)
        ∗ (iprop(boundary (SparseCore.T d) ∗ (boLoc d ↦{fullShare} g) ∗ ((SparseCore.T d).loc main_v1 ↦{fullShare} bRow d g))
            -∗ wp frame (wpE ((K (F := F)).defs (D (F := F))) 𝒱 (SparseCore.T d) none) Set.univ p Q))
      ⊢ wp frame (wpE ((K (F := F)).defs (D (F := F))) 𝒱 (SparseCore.T d) none) Set.univ
          (hlo rfl (StableHlo.reshape main_v0_1 main_v1 rfl shapeCasts_S1000_S1x1000) (fun _ => p)) Q := by
  iintro ⟨Hb, Hg, Hf, Hk⟩
  iapply (wp_hlo_within 𝒱 (SparseCore.T d) none Set.univ (op := opR) (S := S2) hR (V := VR d g f1)) $$ [Hb Hg Hf]
  · isplitl [Hb]; · iexact Hb
    rw [held_S2, VR_bo, VR_v1]
    isplitl [Hg]; · iexact Hg
    iexact Hf
  iintro ⟨Hb, Hheld⟩
  ihave Hh := (Entails.of_eq (held_res (F := F) d g f1)) $$ Hheld
  icases Hh with ⟨Hg, Hf⟩
  iapply Hk
  isplitl [Hb]; · iexact Hb
  isplitl [Hg]; · iexact Hg
  iexact Hf

end Cert.Kernel.Hand

end
-- ==== Proof.LibWholeStore.lean ====
/-
  Buffers stored whole: what a read or a load sees afterwards.

  A store through the rectangle that is the whole shape at zero offsets replaces every element, so whatever was stored
  before it (and whatever the buffer held) no longer matters: the buffer reads as that store's payload, and a later load
  through any rectangle reads the payload at the rectangle's indices.
-/
import Idealize.ShloMosaic.Lib.Pipeline.FrameBody
import Idealize.ShloMosaic.Lib.Pipeline.Value

noncomputable section

namespace Cert.LibWholeStore

open Idealize.ShloMosaic

variable {Val : EltTy → Type} [∀ e, Nonempty (Val e)]

/-- The two zero offsets of a rank-two rectangle, however they are spelt. -/
theorem hz2 : (![0, 0] : Fin 2 → Nat) = fun _ => 0 := by
  funext a; match a with | ⟨0, _⟩ => rfl | ⟨1, _⟩ => rfl

/-- A buffer whose LAST store went through the whole shape at zero offsets reads that store's payload, whatever the
    earlier stores `L` and the prior contents `f` were. -/
theorem read_writes_whole {sg : RefSig} {κ : Kind} {sp : Space} {S : Shape} {e : EltTy}
    (v : View sg κ sp S e) (f : v.ty.Contents Val) {off : Fin S.rank → Nat} (h : off = fun _ => 0)
    {inb : ∀ a, off a + S.size a ≤ S.size a} {w : S.Idx → Val e} {L : List (View.Piece Val S e)} :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A load, through ANY rectangle `r`, of a buffer whose one store went through the whole shape at zero offsets reads
    that store's payload at the rectangle's indices. -/
theorem readCov_whole {sg : RefSig} {κ : Kind} {sp : Space} {S : Shape} {e : EltTy}
    (v : View sg κ sp S e) {off : Fin S.rank → Nat} (h : off = fun _ => 0)
    {inb : ∀ a, off a + S.size a ≤ S.size a} {w : S.Idx → Val e} (r : Rect S) :
    v.readCov [(⟨Rect.unit off S.size inb, w⟩ : View.Piece Val S e)] r = View.ld w r := by
  rw [View.readCov_eq_canon_ld _ _ _ (fun y => ⟨_, List.mem_singleton_self _, View.mem_set_unit_zero h inb y⟩),
    View.canon_unit_zero h inb]

end Cert.LibWholeStore

end
-- ==== Proof.RegionDataBits.lean ====
/-
  The pipelined call's proof data on one core: the four windowed arrays as the region finds them, each window's
  block at a grid point, what the body leaves in each staging buffer, and the body's triple at every point.

  The body reads the block of the first operand at the point (32 rows), the whole gathered weights and the whole
  gathered bias row, and overwrites the whole output block with one payload of the three; what the output block held
  before is read once and never used.
-/
import proofs.«206728_g1443109012240_cont_week2b_750_35_alg».proof.Proof.SetupBits
import proofs.«206728_g1443109012240_cont_week2b_750_35_alg».proof.Proof.LibWholeStore
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays and their blocks -/

/-- The four windowed arrays on core `c`, in window order: the gathered weights, the gathered bias row, the first
    operand, the result as the region finds it. -/
def arrs (c : Dev nD) (wg : Vec F S1000x128 .f32) (bg : Vec F S1x1000 .f32) (e : Vec F S512x1000x128 .f32) (o0 : Vec F S512x1000 .f32) :
    (w : Fin cfg1.W) → Buf (Elt F) ((cfg1.win w).arr.view.loc (c : Thread nD τ))
  | ⟨0, _⟩ => wg
  | ⟨1, _⟩ => bg
  | ⟨2, _⟩ => e
  | ⟨3, _⟩ => o0

variable (c : Dev nD) (wg : Vec F S1000x128 .f32) (bg : Vec F S1x1000 .f32) (e : Vec F S512x1000x128 .f32) (o0 : Vec F S512x1000 .f32)

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (arrs c wg bg e o0 w)

/-- An input window's current staging buffer holds its block at every point, fetched there or not, for any proof data
    whose array is the region's and whose body leaves the block in place: where the window is not fetched its block
    index has not moved, and the buffer still holds the block of the point before. -/
theorem before1_0_of (dat : Dat τ (Elt F) (HIx 1) ℕ UU ℕ cfg1 c) (hA : dat.A 0 = arrs c wg bg e o0 0)
    (hafter : ∀ t, dat.after 0 t = iblk c wg bg e o0 0 t) (t : Fin cfg1.N) (d) : dat.before 0 t d = iblk c wg bg e o0 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of (dat : Dat τ (Elt F) (HIx 1) ℕ UU ℕ cfg1 c) (hA : dat.A 1 = arrs c wg bg e o0 1)
    (hafter : ∀ t, dat.after 1 t = iblk c wg bg e o0 1 t) (t : Fin cfg1.N) (d) : dat.before 1 t d = iblk c wg bg e o0 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of (dat : Dat τ (Elt F) (HIx 1) ℕ UU ℕ cfg1 c) (hA : dat.A 2 = arrs c wg bg e o0 2)
    (hafter : ∀ t, dat.after 2 t = iblk c wg bg e o0 2 t) (t : Fin cfg1.N) (d) : dat.before 2 t d = iblk c wg bg e o0 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rE : Rect S32x1000x128 := Rect.unit (s := S32x1000x128) ![0, 0, 0] S32x1000x128.size inb_S32x1000x128_S32x1000x128_0_0_0
abbrev rW : Rect S1000x128 := Rect.unit (s := S1000x128) ![0, 0] S1000x128.size inb_S1000x128_S1000x128_0_0
abbrev rB : Rect S1x1000 := Rect.unit (s := S1x1000) ![0, 0] S1x1000.size inb_S1x1000_S1x1000_0_0
abbrev rO : Rect S32x1000 := Rect.unit (s := S32x1000) ![0, 0] S32x1000.size inb_S32x1000_S32x1000_0_0

/-! ## What the body leaves in the output window's buffer -/

/-- The output window's staging buffer after the body, from the input windows' blocks: its one store, through the whole
    block, of the payload of the three loaded values. -/
def out1_3 (x0 : Vec F S1000x128 .f32) (x1 : Vec F S1x1000 .f32) (x2 : Vec F S32x1000x128 .f32) : Vec F S32x1000 .f32 :=
  View.canon [⟨rO, k1_pay1 (View.ld x2 rE) (View.ld x0 rW) (View.ld x1 rB)⟩]

/-- The store is through the whole block, so it covers it. -/
theorem cover1_3 (p0 : Vec F S32x1000 .f32) (y : S32x1000.Idx) :
    ∃ pc ∈ ([⟨rO, p0⟩] : List (View.Piece (Elt F) S32x1000 .f32)), y ∈ pc.1.set :=
  ⟨_, List.mem_singleton_self _, View.mem_set_unit_zero Cert.LibWholeStore.hz2 inb_S32x1000_S32x1000_0_0 y⟩

/-! ## The body's triple -/

set_option maxHeartbeats 1000000 in
/-- The kernel body on whole staging memrefs, the inputs' at read contents `x0`, `x1`, `x2` and the output's at anything,
    runs to the continuation holding the inputs' as they were and the output's at `out1_3` of the inputs': the four loads
    read what the memrefs hold, the load of the output block is of a value nothing uses, and the one store covers the block. -/
theorem sound_kernel (E : Set ℕ) (i : grid1.Coords) (arg1 : Memref sig .tc .vmem S1000x128 .f32) (harg1 : arg1.IsWhole)
    (arg2 : Memref sig .tc .vmem S1x1000 .f32) (harg2 : arg2.IsWhole) (arg3 : Memref sig .tc .vmem S32x1000x128 .f32) (harg3 : arg3.IsWhole)
    (arg4 : Memref sig .tc .vmem S32x1000 .f32) (harg4 : arg4.IsWhole)
    (x0 : Vec F S1000x128 .f32) (x1 : Vec F S1x1000 .f32) (x2 : Vec F S32x1000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none (c : Thread nD τ) none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipelined call on core `c`: the arrays as the region finds them; after the body at point `t`
    each input's buffer at its block and the output's at `out1_3` of the input blocks; no invariant of the body's own
    (it names nothing but the four staging buffers); nothing owed; full shares. -/
def dat1 : Dat τ (Elt F) (HIx 1) ℕ UU ℕ cfg1 c where
  A w := arrs c wg bg e o0 w
  after w t := match w with
    | ⟨0, _⟩ => iblk c wg bg e o0 0 t
    | ⟨1, _⟩ => iblk c wg bg e o0 1 t
    | ⟨2, _⟩ => iblk c wg bg e o0 2 t
    | ⟨3, _⟩ => out1_3 (iblk c wg bg e o0 0 t) (iblk c wg bg e o0 1 t) (iblk c wg bg e o0 2 t)
  Φ _ := iprop(emp)
  q _ := fullShare
  owed _ := 0

/-- The proof data's arrays are the region-entry contents. -/
theorem A_eq (w : Fin cfg1.W) : (dat1 c wg bg e o0).A w = arrs c wg bg e o0 w := by
  dsimp only [dat1]

/-- What the body leaves, window by window. -/
theorem after1_0 (t : Fin cfg1.N) : (dat1 c wg bg e o0).after 0 t = iblk c wg bg e o0 0 t := by dsimp only [dat1]
theorem after1_1 (t : Fin cfg1.N) : (dat1 c wg bg e o0).after 1 t = iblk c wg bg e o0 1 t := by dsimp only [dat1]
theorem after1_2 (t : Fin cfg1.N) : (dat1 c wg bg e o0).after 2 t = iblk c wg bg e o0 2 t := by dsimp only [dat1]
theorem after1_3 (t : Fin cfg1.N) : (dat1 c wg bg e o0).after 3 t
    = out1_3 (iblk c wg bg e o0 0 t) (iblk c wg bg e o0 1 t) (iblk c wg bg e o0 2 t) := by dsimp only [dat1]

/-- Each input's current staging buffer holds its block at every point, fetched there or not. -/
theorem before1_0 (t : Fin cfg1.N) (d) : (dat1 c wg bg e o0).before 0 t d = iblk c wg bg e o0 0 t :=
  before1_0_of c wg bg e o0 (dat1 c wg bg e o0) (A_eq c wg bg e o0 0) (after1_0 c wg bg e o0) t d
theorem before1_1 (t : Fin cfg1.N) (d) : (dat1 c wg bg e o0).before 1 t d = iblk c wg bg e o0 1 t :=
  before1_1_of c wg bg e o0 (dat1 c wg bg e o0) (A_eq c wg bg e o0 1) (after1_1 c wg bg e o0) t d
theorem before1_2 (t : Fin cfg1.N) (d) : (dat1 c wg bg e o0).before 2 t d = iblk c wg bg e o0 2 t :=
  before1_2_of c wg bg e o0 (dat1 c wg bg e o0) (A_eq c wg bg e o0 2) (after1_2 c wg bg e o0) t d

/-! ## The body obligation, at a generic point -/

/-- What the body is called with at point `t`, the windows one by one, -/
def bodyPre (t : Fin cfg1.N) : sProp 𝕄 :=
  iprop((dat1 c wg bg e o0).Φ t.castSucc ∗ (dat1 c wg bg e o0).owesAt none t.castSucc
    ∗ (∃ d, owns (c : Thread nD τ) (st1_0 t) fullShare ((dat1 c wg bg e o0).before 0 t d))
    ∗ (∃ d, owns (c : Thread nD τ) (st1_1 t) fullShare ((dat1 c wg bg e o0).before 1 t d))
    ∗ (∃ d, owns (c : Thread nD τ) (st1_2 t) fullShare ((dat1 c wg bg e o0).before 2 t d))
    ∗ (∃ d, owns (c : Thread nD τ) (st1_3 t) fullShare ((dat1 c wg bg e o0).before 3 t d)))

/-- and what it returns. -/
def bodyPost (t : Fin cfg1.N) : sProp 𝕄 :=
  iprop((dat1 c wg bg e o0).Φ t.succ ∗ (dat1 c wg bg e o0).owesAt none t.succ
    ∗ owns (c : Thread nD τ) (st1_0 t) fullShare ((dat1 c wg bg e o0).after 0 t)
    ∗ owns (c : Thread nD τ) (st1_1 t) fullShare ((dat1 c wg bg e o0).after 1 t)
    ∗ owns (c : Thread nD τ) (st1_2 t) fullShare ((dat1 c wg bg e o0).after 2 t)
    ∗ owns (c : Thread nD τ) (st1_3 t) fullShare ((dat1 c wg bg e o0).after 3 t))

/-- The body at any point: the inputs' memrefs hold their blocks, so the body's triple applies; the invariant and the
    core's debts pass through unread. -/
theorem sound_body (t : Fin cfg1.N) :
    bodyPre c wg bg e o0 t ⊢ wp frame (wpE (defs₀ (F := F)) Variants.none (c : Thread nD τ) none) Set.univ (bodyAt1 t) (fun _ => bodyPost c wg bg e o0 t) := by
  unfold bodyPre bodyPost bodyAt1
  simp only [before1_0, before1_1, before1_2]
  rw [show (dat1 c wg bg e o0).Φ t.succ = (dat1 c wg bg e o0).Φ t.castSucc from rfl,
    show (dat1 c wg bg e o0).owesAt none t.succ = (dat1 c wg bg e o0).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk c wg bg e o0 0 t) (iblk c wg bg e o0 1 t) (iblk c wg bg e o0 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation : BodyObligation (dat1 (F := F) c wg bg e o0) (defs₀ (F := F)) Variants.none none Set.univ := fun t => by
  rw [bigSep_W1, bigSep_W1]
  exact sound_body c wg bg e o0 t

end Cert.Kernel.Hand

end
-- ==== Proof.RegionBits.lean ====
/-
  The pipelined call as ONE step of the program on a core: entered holding the four windowed arrays whole and the core
  owing nothing, it returns holding the three operands as they were and the result array at what the sixteen
  write-backs leave in it.
-/
import proofs.«206728_g1443109012240_cont_week2b_750_35_alg».proof.Proof.RegionDataBits
import Idealize.ShloMosaic.Lib.Pipeline.Regions
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data of the program's one pipeline, and what it leaves in the result array -/

/-- The proof data, for the launch's family of pipelines (one) on every core. -/
def pdats (wg : Vec F S1000x128 .f32) (bg : Vec F S1x1000 .f32) (e : Vec F S512x1000x128 .f32) (o0 : Vec F S512x1000 .f32) :
    (p : Fin 1) → (c : Dev nD) → Dat τ (Elt F) (HIx 1) ℕ UU ℕ (Pipeline.pin (pcfgs (F := F)) adm p) c :=
  fun _ c => dat1 c wg bg e o0

/-- What the region leaves in the result array: its contents after the write-backs of all sixteen points. -/
def regionOut (d : Dev nD) (wg : Vec F S1000x128 .f32) (bg : Vec F S1x1000 .f32) (e : Vec F S512x1000x128 .f32) (o0 : Vec F S512x1000 .f32) :
    Vec F S512x1000 .f32 :=
  (dat1 d wg bg e o0).arrAt 3 cfg1.N

variable (wg : Vec F S1000x128 .f32) (bg : Vec F S1x1000 .f32) (e : Vec F S512x1000x128 .f32) (o0 : Vec F S512x1000 .f32)

/-- A conjunction over no index is empty. -/
theorem bigSep_none {M : Type} [URA M] (Φ : Fin 0 → sProp M) : bigSep Finset.univ Φ = (BI.emp : sProp M) :=
  bigSep_univ_eq_bigSepL [] (by decide) (by decide) Φ

/-- The pipeline has no prefetched table, -/
theorem prefHeld1 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _
/-- and the core no scoped buffer besides its staging buffers. -/
theorem scopedRest1 (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

/-- The core's debts as a pipeline point's, for a proof data that owes nothing and bounds its recorded pairs by
    nothing; and back. -/
theorem owesAt_intro {cfg : Pipeline.Cfg sig Λ₀} {c : Dev nD} (dat : Pipeline.Dat τ (Elt F) (HIx 1) ℕ UU ℕ cfg c) (t : Fin (cfg.N + 1))
    (h0 : dat.owed t = 0) (hr : dat.recorded t = Set.univ) :
    iprop(∃ W, owes (c : Thread nD τ) (0 : CellTallies nD τ sig (HIx 1)) W) ⊢ (dat.owesAt none t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Pipeline.Cfg sig Λ₀} {c : Dev nD} (dat : Pipeline.Dat τ (Elt F) (HIx 1) ℕ UU ℕ cfg c) (t : Fin (cfg.N + 1))
    (h0 : dat.owed t = 0) :
    (dat.owesAt none t : sProp 𝕄) ⊢ iprop(∃ W, owes (c : Thread nD τ) (0 : CellTallies nD τ sig (HIx 1)) W) := by
  unfold Pipeline.Dat.owesAt Pipeline.owesWithin; rw [h0]
  iintro ⟨%W, -, HO⟩; iexists W; iexact HO

/-- The four arrays of the pipeline, at any contents, one by one. -/
theorem arrays1_eq (c : Dev nD) (Fa : (w : Fin cfg1.W) → Buf (Elt F) ((cfg1.win w).arr.view.loc (c : Thread nD τ))) :
    ((pdats wg bg e o0 0 c).arrays Fa : sProp 𝕄)
      = iprop(((SparseCore.T c : Thread nD τ).loc main_v0_0 ↦{fullShare} Fa 0) ∗ ((SparseCore.T c : Thread nD τ).loc main_v1 ↦{fullShare} Fa 1) ∗ ((SparseCore.T c : Thread nD τ).loc main_arg0 ↦{fullShare} Fa 2)
          ∗ ((SparseCore.T c : Thread nD τ).loc main_v2 ↦{fullShare} Fa 3)) := by
  rw [Pipeline.arrays_eq (Pipeline.pin (pcfgs (F := F)) adm) (pdats wg bg e o0) 0 c arr_whole1
    (fun w => (dat1 c wg bg e o0).share_full (fun _ => rfl) w), bigSep_W1]

/-! ## The region -/

variable (L : GSem nD τ sig → Finset (HIx 1)) (lv : GSem nD τ sig → HIx 1 → ℕ)

/-- The region: entered from the four arrays whole and the core owing nothing; nothing enters the body's invariant and
    nothing bypasses the region; it leaves the operands as they were and the result at `regionOut`. -/
def reg1 : Pipeline.RegionSeg (pcfgs (F := F)) adm (pdats wg bg e o0) (none : HIx 1) defs₀ 𝒱₀ L lv 0 where
  win := winFacts1.to₀
  block_pos := block_pos1
  stage_whole := stage_whole1
  K := PEmpty
  osem k := k.elim
  ho := Pipeline.OwnSemFacts.none _
  hbody c := (body_obligation c wg bg e o0).loose
  hwaits := Pipeline.hwaits_of_owed_zero (pcfgs (F := F)) adm (pdats wg bg e o0) (none : HIx 1) L lv 0 fun _ _ => rfl
  pre c := iprop(((SparseCore.T c : Thread nD τ).loc main_v0_0 ↦{fullShare} wg) ∗ ((SparseCore.T c : Thread nD τ).loc main_v1 ↦{fullShare} bg) ∗ ((SparseCore.T c : Thread nD τ).loc main_arg0 ↦{fullShare} e)
    ∗ ((SparseCore.T c : Thread nD τ).loc main_v2 ↦{fullShare} o0) ∗ ∃ W, owes (SparseCore.T c : Thread nD τ) (0 : CellTallies nD τ sig (HIx 1)) W)
  post c := iprop(((SparseCore.T c : Thread nD τ).loc main_v0_0 ↦{fullShare} wg) ∗ ((SparseCore.T c : Thread nD τ).loc main_v1 ↦{fullShare} bg) ∗ ((SparseCore.T c : Thread nD τ).loc main_arg0 ↦{fullShare} e)
    ∗ ((SparseCore.T c : Thread nD τ).loc main_v2 ↦{fullShare} regionOut c wg bg e o0) ∗ ∃ W, owes (SparseCore.T c : Thread nD τ) (0 : CellTallies nD τ sig (HIx 1)) W)
  X _ := iprop(emp)
  Y _ := iprop(emp)
  Z _ := iprop(emp)
  hentry c := by
    rw [Pipeline.ownSems0_none, arrays1_eq, prefHeld1]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · iempintro
    isplitl [HO]; · iapply (owesAt_intro (pdats wg bg e o0 0 c) 0 rfl rfl); iexact HO
    isplitr <;> iempintro
  hin c := by
    rw [show (pdats wg bg e o0 0 c).Φ 0 = iprop(emp) from rfl]
    iintro -; iempintro
  hout c := by
    rw [show (pdats wg bg e o0 0 c).Φ (Fin.last _) = iprop(emp) from rfl, Pipeline.ownSems0_none, scopedRest1]
    iintro -
    isplitr; · iempintro
    isplitr <;> iempintro
  hexit c := by
    rw [arrays1_eq]
    iintro ⟨⟨H0, H1, H2, H3⟩, HO, -, -⟩
    imodintro
    isplitl [H0]; · iexact H0
    isplitl [H1]; · iexact H1
    isplitl [H2]; · iexact H2
    isplitl [H3]; · iexact H3
    iapply (owesAt_elim (pdats wg bg e o0 0 c) _ rfl); iexact HO

/-- The thread states the region is entered from and leaves, spelt out. -/
theorem reg1_pre (c : Dev nD) : (reg1 wg bg e o0 L lv).pre c
    = iprop(((SparseCore.T c : Thread nD τ).loc main_v0_0 ↦{fullShare} wg) ∗ ((SparseCore.T c : Thread nD τ).loc main_v1 ↦{fullShare} bg)
        ∗ ((SparseCore.T c : Thread nD τ).loc main_arg0 ↦{fullShare} e) ∗ ((SparseCore.T c : Thread nD τ).loc main_v2 ↦{fullShare} o0)
        ∗ ∃ W, owes (SparseCore.T c : Thread nD τ) (0 : CellTallies nD τ sig (HIx 1)) W) := rfl
theorem reg1_post (c : Dev nD) : (reg1 wg bg e o0 L lv).post c
    = iprop(((SparseCore.T c : Thread nD τ).loc main_v0_0 ↦{fullShare} wg) ∗ ((SparseCore.T c : Thread nD τ).loc main_v1 ↦{fullShare} bg)
        ∗ ((SparseCore.T c : Thread nD τ).loc main_arg0 ↦{fullShare} e) ∗ ((SparseCore.T c : Thread nD τ).loc main_v2 ↦{fullShare} regionOut c wg bg e o0)
        ∗ ∃ W, owes (SparseCore.T c : Thread nD τ) (0 : CellTallies nD τ sig (HIx 1)) W) := rfl

/-! ## The region as one step of the program -/

/-- ONE STEP: on device `d`'s TensorCore, from the boundary, the four arrays held whole at `wg`, `bg`, `e`, `o0`, the core
    owing nothing, the level facts and the pipeline's ghost state, the call of the pipeline's entry runs to the boundary,
    the three operands as they were, the result array at `regionOut` and the core owing nothing, for the continuation. -/
theorem region_wp [∀ e, Nonempty (Elt F e)] (d : Dev nD) (wg : Buf (Elt F) ((SparseCore.T d : Thread nD τ).loc main_v0_0))
    (bg : Buf (Elt F) ((SparseCore.T d : Thread nD τ).loc main_v1)) (e : Buf (Elt F) ((SparseCore.T d : Thread nD τ).loc main_arg0))
    (o0 : Buf (Elt F) ((SparseCore.T d : Thread nD τ).loc main_v2))
    {α : Type} (k : PUnit → Prog (TpuEff nD τ sig (Elt F) (ΛP (F := F)) .tc) α) (Q : α → sProp 𝕄) :
    iprop((iprop(boundary (SparseCore.T d : Thread nD τ) ∗ ((SparseCore.T d : Thread nD τ).loc main_v0_0 ↦{fullShare} wg)
            ∗ ((SparseCore.T d : Thread nD τ).loc main_v1 ↦{fullShare} bg) ∗ ((SparseCore.T d : Thread nD τ).loc main_arg0 ↦{fullShare} e)
            ∗ ((SparseCore.T d : Thread nD τ).loc main_v2 ↦{fullShare} regionOut d wg bg e o0)
            ∗ ∃ W, owes (SparseCore.T d : Thread nD τ) (0 : CellTallies nD τ sig (HIx 1)) W)
          -∗ wp frame (wpE (D (F := F)) 𝒱 (SparseCore.T d : Thread nD τ) none) Set.univ (k ⟨⟩) Q)
        ∗ boundary (SparseCore.T d : Thread nD τ) ∗ ((SparseCore.T d : Thread nD τ).loc main_v0_0 ↦{fullShare} wg)
        ∗ ((SparseCore.T d : Thread nD τ).loc main_v1 ↦{fullShare} bg) ∗ ((SparseCore.T d : Thread nD τ).loc main_arg0 ↦{fullShare} e)
        ∗ ((SparseCore.T d : Thread nD τ).loc main_v2 ↦{fullShare} o0)
        ∗ (∃ W, owes (SparseCore.T d : Thread nD τ) (0 : CellTallies nD τ sig (HIx 1)) W)
        ∗ levAts L lv ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d : Thread nD τ) none) Set.univ (.op (.customCall (Pipeline.entry 0) ()) k) Q := by
  have h := Pipeline.RegionSeg.wp (pcfgs (F := F)) adm (pdats wg bg e o0) (none : HIx 1) cellOf_inj EP defs₀ 𝒱₀ L lv (reg1 wg bg e o0 L lv) d none
    (fun _ hu => by cases hu) k Q
  rw [reg1_pre, reg1_post] at h
  iintro ⟨Hk, Hb, H0, H1, H2, H3, HO, HL, HG, HT⟩
  iapply h
  isplitl [Hk]; · iexact Hk
  isplitl [Hb]; · iexact Hb
  isplitl [H0 H1 H2 H3 HO]
  · isplitl [H0]; · iexact H0
    isplitl [H1]; · iexact H1
    isplitl [H2]; · iexact H2
    isplitl [H3]; · iexact H3
    iexact HO
  isplitl [HL]; · iexact HL
  isplitl [HG]; · iexact HG
  iexact HT

end Cert.Kernel.Hand

end
-- ==== Proof.MainBits.lean ====
/-
  The whole program's run. @main on the TensorCore hands the index array, the table, the bias and the two result
  arrays to the SparseCores and gets them back with the rows gathered; views the gathered bias as a row; and runs the
  pipelined call that contracts every cell's embeddings against the gathered weights and adds the gathered bias.
  Every weakly fair execution terminates with the four inputs unchanged and the result holding, block by block,
  what the pipelined call computes from the gathered arrays.
-/
import proofs.«206728_g1443109012240_cont_week2b_750_35_alg».proof.Proof.TileBits
import proofs.«206728_g1443109012240_cont_week2b_750_35_alg».proof.Proof.TcSideBits
import proofs.«206728_g1443109012240_cont_week2b_750_35_alg».proof.Proof.RegionBits

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev v2Loc (d : Dev nD) : Loc nD τ sig := (SparseCore.T d).loc main_v2

variable [FloatOps F]

/-- What the result array holds at the end: the pipelined call's value at the gathered weights, the gathered bias
    as a row, and the embeddings. -/
abbrev outK (d : Dev nD) : Buf (Elt F) (v2Loc d) :=
  regionOut d (Wg m d) (bRow d (Bg m d)) (m (eLoc d)) (m (v2Loc d))

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What @main starts from beside its arrays: the staging cells' ghost state of the pipelined call. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem ownU_split (a : UH) (b : UP × Counters) :
    (ownU (a, b) : sProp 𝕄) ⊢ iprop(BI.own (EH a)
      ∗ BI.own (((Emb.inr : Emb (UP × Counters) UU).trans (uEmb (nD := nD) (sig := sig) (Ix := HIx 1) (Val := Elt F) (Name := ℕ) (U := UU) (Lvl := ℕ)).toEmb) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  unfold u₀
  iintro Hu
  ihave H := (ownU_split _ _) $$ Hu
  icases H with ⟨HH, HR⟩
  ihave H2 := (own_pair_emb _ _ _) $$ HR
  icases H2 with ⟨HP, -⟩
  ihave HP' := (show BI.own ((((Emb.inl : Emb UP (UP × Counters)).trans ((Emb.inr : Emb (UP × Counters) UU).trans (uEmb (nD := nD) (sig := sig) (Ix := HIx 1) (Val := Elt F) (Name := ℕ) (U := UU) (Lvl := ℕ)).toEmb)))
      (initOf (Pipeline.cells (Pipeline.pin (pcfgs (F := F)) adm) cellOf_inj) (Pipeline.launchToks (Pipeline.pin (pcfgs (F := F)) adm) cellOf_inj)))
      ⊢ (BI.own (EP (initOf (Pipeline.cells (Pipeline.pin (pcfgs (F := F)) adm) cellOf_inj) (Pipeline.launchToks (Pipeline.pin (pcfgs (F := F)) adm) cellOf_inj))) : sProp 𝕄)
      from BI.Entails.refl _) $$ HP
  imod (Pipeline.fund_ghost (Pipeline.pin (pcfgs (F := F)) adm) EP cellOf_inj) $$ HP' with ⟨Hcg, Htk⟩
  imodintro
  isplitl [HH]; · iexact HH
  isplitl [Hcg Htk]
  · unfold Gh
    rw [bigSep_sep']
    isplitl [Hcg]
    · iapply (Entails.of_eq (bigSep_congr fun (c : Dev nD) _ => bigSep_univ_of_subsingleton (Φ := fun p : Fin 1 => Pipeline.cellsGhost (Pipeline.pin (pcfgs (F := F)) adm) EP p c) (0 : Fin 1))); iexact Hcg
    · iapply (Entails.of_eq (bigSep_congr fun (c : Dev nD) _ => bigSep_univ_of_subsingleton (Φ := fun p : Fin 1 => Pipeline.toksInit (Pipeline.pin (pcfgs (F := F)) adm) EP p c) (0 : Fin 1))); iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- With one SparseCore call every level is at most 7: the bound on the TensorCore's recorded waits is vacuous. -/
theorem wbelow_any (d : Dev nD) (W : Waits sig (HIx 1)) : (K (F := F)).WBelow (SparseCore.T d) W (8 * 1) := by
  intro p _
  rcases hp : p.2 with _ | q
  · rw [(K (F := F)).lev_none]; omega
  · have := (K (F := F)).lev_some_le (SparseCore.T d, p.1) q
    have hq : q.val = 0 := by omega
    omega

/-- The TensorCore's state after the call, with what it owes (nothing) taken out and put back. -/
theorem tcSt_owes (d : Dev nD) :
    ((K (F := F)).tcSt EH d 1 : sProp 𝕄)
      ⊢ iprop((∃ W, owes (SparseCore.T d) (0 : CellTallies nD τ sig (HIx 1)) W)
          ∗ ((∃ W, owes (SparseCore.T d) (0 : CellTallies nD τ sig (HIx 1)) W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr
    · ipureintro; exact wbelow_any d W'
    · iexact HO
  · iexact Hrest

/-- What @main leaves the claim. -/
abbrev FIN (d : Dev nD) : sProp 𝕄 :=
  iprop((eLoc d ↦{fullShare} m (eLoc d)) ∗ (iLoc d ↦{fullShare} m (iLoc d)) ∗ (wLoc d ↦{fullShare} m (wLoc d)) ∗ (bLoc d ↦{fullShare} m (bLoc d))
    ∗ (v2Loc d ↦{fullShare} outK m d))

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hbd, ⟨He, Hi, Hw, Hb, Hwo, Hbo, Hv1, Hv2⟩, -, -⟩, ⟨Hcg, Htk⟩⟩
  ihave Hlv := (SparseCore.Cfg.ctx_levAts κ) $$ Hctx
  ihave Hs := (tc_split m d) $$ [Hi Hw Hb Hwo Hbo]
  · isplitl [Hi]; · iexact Hi
    isplitl [Hw]; · iexact Hw
    isplitl [Hb]; · iexact Hb
    isplitl [Hwo]; · iexact Hwo
    iexact Hbo
  icases Hs with ⟨Hrem, Hsts⟩
  -- the gather on the SparseCores
  iapply ((K (F := F)).wp_run (D (F := F)) 𝒱 (EH := EH) (P := P m) κ d 0) $$ [Hst Hsts Hrem Hbd He Hv1 Hv2 Hcg Htk Hlv]
  isplitr; · iexact Hctx
  isplitl [Hst]; · iexact Hst
  isplitl [Hsts]; · iexact Hsts
  iintro ⟨Hst, Hdn⟩
  ihave Hj := (tc_join m d) $$ [Hrem Hdn]
  · isplitl [Hrem]; · iexact Hrem
    iexact Hdn
  icases Hj with ⟨Hi, Hw, Hb, Hwo, Hbo⟩
  -- the gathered bias viewed as a row
  iapply (reshape_wp d (Bg m d) _ (Prog.ret PUnit.unit) _) $$ [Hbd Hbo Hv1 Hst Hi Hw Hb Hwo He Hv2 Hcg Htk Hlv]
  isplitl [Hbd]; · iexact Hbd
  isplitl [Hbo]; · iexact Hbo
  isplitl [Hv1]; · iexact Hv1
  iintro ⟨Hbd, Hbo, Hv1⟩
  rw [wp_ret]; imodintro
  -- the pipelined call
  ihave Hst1 := (show ((K (F := F)).tcSt EH d ((0 : Fin 1).val + 1) : sProp 𝕄) ⊢ (K (F := F)).tcSt EH d 1 from BI.Entails.refl _) $$ Hst
  ihave Hso := (tcSt_owes d) $$ Hst1
  icases Hso with ⟨HO, Hback⟩
  iapply ((K (F := F)).wp_liftProg (D (F := F)) 𝒱 (SparseCore.T d) Set.univ none
    (Prog.op (TpuEff.customCall (Pipeline.entry (0 : Fin 1)) ()) fun _ => Prog.ret PUnit.unit) _)
  iapply (region_wp (K (F := F)).L (K (F := F)).lev d (Wg m d) (bRow d (Bg m d)) (m (eLoc d)) (m (v2Loc d)) (fun _ => Prog.ret PUnit.unit) _)
  isplitr [Hbd Hwo Hv1 He Hv2 HO Hlv Hcg Htk]
  · iintro ⟨Hbd, Hwo, Hv1, He, Hv2, HO⟩
    rw [wp_ret]; imodintro; imodintro
    isplitl [Hback HO]; · iapply Hback; iexact HO
    isplitl [He]; · iexact He
    isplitl [Hi]; · iexact Hi
    isplitl [Hw]; · iexact Hw
    isplitl [Hb]; · iexact Hb
    iexact Hv2
  isplitl [Hbd]; · iexact Hbd
  isplitl [Hwo]; · iexact Hwo
  isplitl [Hv1]; · iexact Hv1
  isplitl [He]; · iexact He
  isplitl [Hv2]; · iexact Hv2
  isplitl [HO]; · iexact HO
  isplitl [Hlv]; · iexact Hlv
  isplitl [Hcg]; · iexact Hcg
  iexact Htk

/-! ## The claim read off the final memory -/

def fq (d : Dev nD) (s' : Phys nD τ sig (Elt F)) : Prop :=
  s'.mem.mem (eLoc d) = m (eLoc d) ∧ s'.mem.mem (iLoc d) = m (iLoc d) ∧ s'.mem.mem (wLoc d) = m (wLoc d) ∧ s'.mem.mem (bLoc d) = m (bLoc d)
    ∧ s'.mem.mem (v2Loc d) = outK m d

theorem hfin (d : Dev nD) (s' : Phys nD τ sig (Elt F)) : iprop(FIN m d ∗ SI s') ⊢ (⌜fq m d s'⌝ : sProp 𝕄) := by
  iintro ⟨⟨He, Hi, Hw, Hb, Hv2⟩, HSI⟩
  icombine HSI He gives %he
  icombine HSI Hi gives %hi
  icombine HSI Hw gives %hw
  icombine HSI Hb gives %hb
  icombine HSI Hv2 gives %hv
  ipureintro
  exact ⟨Buf.eq_of_forall_mem_univ he, Buf.eq_of_forall_mem_univ hi, Buf.eq_of_forall_mem_univ hw, Buf.eq_of_forall_mem_univ hb, Buf.eq_of_forall_mem_univ hv⟩

/-! ## The run -/

def QC : PUnit × MemSt nD τ sig (Elt F) → Prop := fun r => ∀ c : Dev nD,
  r.2.mem (eLoc c) = m (eLoc c) ∧ r.2.mem (iLoc c) = m (iLoc c) ∧ r.2.mem (wLoc c) = m (wLoc c) ∧ r.2.mem (bLoc c) = m (bLoc c)
    ∧ r.2.mem (v2Loc c) = outK m c

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (Gh (F := F)) (FIN m) (u₀ (F := F)) (sep_elim_left.trans (hu₀ m)) (hmain m ρ) (fq m) (hfin m) (QC m) (fun _ h => h)

end Cert.Kernel.Hand

end
-- ==== Proof.SetupIdeal.lean ====
/-
  What the parts of the kernel-side proof share: the program as the launch theorem for a device with SparseCores sees
  it (the SparseCore call, the lifted body table, the variants), and the ghost state — one rounds algebra for the
  handshakes between the TensorCore, the sequencers and the tiles, one for the staging cells of the TensorCore's
  pipelined call, and the exclusive counters the tiles' own local copies are counted on.
-/
import proofs.«206728_g1443109012240_cont_week2b_750_35_alg».proof.Proof.Gen.KernelIdeal
import proofs.«206728_g1443109012240_cont_week2b_750_35_alg».proof.Proof.Gen.KernelIdeal.Skeleton
import proofs.«206728_g1443109012240_cont_week2b_750_35_alg».proof.Proof.Gen.KernelIdeal.Launch
import proofs.«206728_g1443109012240_cont_week2b_750_35_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- The pipelined call has no prefetched table. -/
abbrev adm : (p : Fin 1) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The staging cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KernelIdeal.Hand

end
-- ==== Proof.RowsIdeal.lean ====
/-
  How the rows of the two gathered arrays are dealt to the tiles. Tile (c, s) has chunk number w = 2·s + c; when
  w < 25 it owns rows [40·w, 40·w + 40) of both arrays, otherwise none. The 25 chunks are pairwise disjoint and cover
  the 1000 rows: row r lies in chunk r / 40, on SparseCore (r / 40) mod 2, tile (r / 40) / 2.
-/
import proofs.«206728_g1443109012240_cont_week2b_750_35_alg».proof.Proof.SetupIdeal
import Idealize.ShloMosaic.Lib.ValueIdx

noncomputable section

namespace Cert.KernelIdeal.Hand

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The rows of the gathered weights tile (cn, sn) owns. -/
def wRowsN (cn sn : ℕ) : Finset S1000x128.Idx :=
  Finset.univ.filter fun j => 2 * sn + cn < 25 ∧ 40 * (2 * sn + cn) ≤ (j 0).val ∧ (j 0).val < 40 * (2 * sn + cn) + 40
/-- The entries of the gathered bias it owns. -/
def bRowsN (cn sn : ℕ) : Finset S1000.Idx :=
  Finset.univ.filter fun j => 2 * sn + cn < 25 ∧ 40 * (2 * sn + cn) ≤ (j 0).val ∧ (j 0).val < 40 * (2 * sn + cn) + 40
/-- What one SparseCore's sixteen tiles own together. -/
def wCoreN (cn : ℕ) : Finset S1000x128.Idx := (Finset.univ : Finset (Fin 16)).biUnion fun s => wRowsN cn s.val
def bCoreN (cn : ℕ) : Finset S1000.Idx := (Finset.univ : Finset (Fin 16)).biUnion fun s => bRowsN cn s.val

theorem mem_wRowsN {cn sn : ℕ} {j : S1000x128.Idx} :
    j ∈ wRowsN cn sn ↔ 2 * sn + cn < 25 ∧ 40 * (2 * sn + cn) ≤ (j 0).val ∧ (j 0).val < 40 * (2 * sn + cn) + 40 := by
  simp [wRowsN]
theorem mem_bRowsN {cn sn : ℕ} {j : S1000.Idx} :
    j ∈ bRowsN cn sn ↔ 2 * sn + cn < 25 ∧ 40 * (2 * sn + cn) ≤ (j 0).val ∧ (j 0).val < 40 * (2 * sn + cn) + 40 := by
  simp [bRowsN]

theorem wRows_inactive {cn sn : ℕ} (h : ¬ 2 * sn + cn < 25) : wRowsN cn sn = ∅ := by
  ext j; simp [mem_wRowsN, h]
theorem bRows_inactive {cn sn : ℕ} (h : ¬ 2 * sn + cn < 25) : bRowsN cn sn = ∅ := by
  ext j; simp [mem_bRowsN, h]

theorem wRows_disjoint (cn : ℕ) : ∀ s ∈ (Finset.univ : Finset (Fin 16)), ∀ s' ∈ (Finset.univ : Finset (Fin 16)), s ≠ s' →
    Disjoint (wRowsN cn s.val) (wRowsN cn s'.val) := fun s _ s' _ hne =>
  Finset.disjoint_left.mpr fun j hj hj' => by
    rw [mem_wRowsN] at hj hj'
    exact hne (Fin.ext (by omega))
theorem bRows_disjoint (cn : ℕ) : ∀ s ∈ (Finset.univ : Finset (Fin 16)), ∀ s' ∈ (Finset.univ : Finset (Fin 16)), s ≠ s' →
    Disjoint (bRowsN cn s.val) (bRowsN cn s'.val) := fun s _ s' _ hne =>
  Finset.disjoint_left.mpr fun j hj hj' => by
    rw [mem_bRowsN] at hj hj'
    exact hne (Fin.ext (by omega))

theorem wCore_disjoint : ∀ c ∈ (Finset.univ : Finset (Fin 2)), ∀ c' ∈ (Finset.univ : Finset (Fin 2)), c ≠ c' →
    Disjoint (wCoreN c.val) (wCoreN c'.val) := fun c _ c' _ hne =>
  Finset.disjoint_left.mpr fun j hj hj' => by
    obtain ⟨s, -, hs⟩ := Finset.mem_biUnion.mp hj
    obtain ⟨s', -, hs'⟩ := Finset.mem_biUnion.mp hj'
    rw [mem_wRowsN] at hs hs'
    have := c.isLt; have := c'.isLt
    exact hne (Fin.ext (by omega))
theorem bCore_disjoint : ∀ c ∈ (Finset.univ : Finset (Fin 2)), ∀ c' ∈ (Finset.univ : Finset (Fin 2)), c ≠ c' →
    Disjoint (bCoreN c.val) (bCoreN c'.val) := fun c _ c' _ hne =>
  Finset.disjoint_left.mpr fun j hj hj' => by
    obtain ⟨s, -, hs⟩ := Finset.mem_biUnion.mp hj
    obtain ⟨s', -, hs'⟩ := Finset.mem_biUnion.mp hj'
    rw [mem_bRowsN] at hs hs'
    have := c.isLt; have := c'.isLt
    exact hne (Fin.ext (by omega))

theorem wCore_cover : (Finset.univ : Finset (Fin 2)).biUnion (fun c => wCoreN c.val) = Finset.univ := by
  ext j
  simp only [Finset.mem_biUnion, Finset.mem_univ, true_and, iff_true, wCoreN]
  have hr : (j 0).val < 1000 := idx2_lt0 j
  refine ⟨⟨((j 0).val / 40) % 2, by omega⟩, ⟨((j 0).val / 40) / 2, by omega⟩, ?_⟩
  rw [mem_wRowsN]
  dsimp only
  omega
theorem bCore_cover : (Finset.univ : Finset (Fin 2)).biUnion (fun c => bCoreN c.val) = Finset.univ := by
  ext j
  simp only [Finset.mem_biUnion, Finset.mem_univ, true_and, iff_true, bCoreN]
  have hr : (j 0).val < 1000 := (j 0).isLt
  refine ⟨⟨((j 0).val / 40) % 2, by omega⟩, ⟨((j 0).val / 40) / 2, by omega⟩, ?_⟩
  rw [mem_bRowsN]
  dsimp only
  omega

end Cert.KernelIdeal.Hand

end
-- ==== Proof.GatherValueIdeal.lean ====
/-
  What an active tile's two gathers deliver. The tile's index list holds entries [40·w, 40·w + 40) of the index
  array; the gather of table rows reads, for destination row k and column c, the table at row ix[40·w + k], column
  c; the gather of bias entries reads the bias at ix[40·w + k]. Copied out to rows [40·w, 40·w + 40) of the result
  arrays, each result row r holds the table row (the bias entry) that ix[r] names.
-/
import proofs.«206728_g1443109012240_cont_week2b_750_35_alg».proof.Proof.SetupIdeal
import proofs.«206728_g1443109012240_cont_week2b_750_35_alg».proof.Proof.RowsIdeal
import proofs.«206728_g1443109012240_cont_week2b_750_35_alg».proof.Proof.Spec
import Idealize.ShloMosaic.Lib.SparseCore.Stream
import Idealize.ShloMosaic.Lib.Writes
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.Sem

variable {F : FTy → Type}
variable (m : (ℓ : Loc nD τ sig) → Buf (Elt F) ℓ)

local notation "wW" => (Memref.whole Cert.KernelIdeal.main_arg2_scv : Memref Cert.KernelIdeal.sig Kind.scVector Space.hbm Cert.KernelIdeal.S1000x128 EltTy.f32)
local notation "bW" => (Memref.whole Cert.KernelIdeal.main_arg3_scv : Memref Cert.KernelIdeal.sig Kind.scVector Space.hbm Cert.KernelIdeal.S1000 EltTy.f32)
local notation "iW" => (Memref.whole Cert.KernelIdeal.main_arg1_scv : Memref Cert.KernelIdeal.sig Kind.scVector Space.hbm Cert.KernelIdeal.S1000 EltTy.i32)
local notation "woW" => (Memref.whole Cert.KernelIdeal.main_v0_0_scv : Memref Cert.KernelIdeal.sig Kind.scVector Space.hbm Cert.KernelIdeal.S1000x128 EltTy.f32)
local notation "boW" => (Memref.whole Cert.KernelIdeal.main_v0_1_scv : Memref Cert.KernelIdeal.sig Kind.scVector Space.hbm Cert.KernelIdeal.S1000 EltTy.f32)
local notation "sI" => (Memref.whole Cert.KernelIdeal.cc0_scratch0 : Memref Cert.KernelIdeal.sig Kind.scVector Space.vmem Cert.KernelIdeal.S40 EltTy.i32)

/-- The arrays as locations of device `d`: the embeddings, the indices, the table, the bias, the gathered rows, the
    gathered bias. -/
abbrev eLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev woLoc (d : Dev nD) : Loc nD τ sig := (SparseCore.T d).loc main_v0_0
abbrev boLoc (d : Dev nD) : Loc nD τ sig := (SparseCore.T d).loc main_v0_1

/-- What the proof asks of the launch memory: every index word, read signed, lies in [0, 999]. -/
def PreOK : Prop := ∀ (d : Dev nD) (x : S1000.Idx), 0 ≤ (m (iLoc d) x).toInt ∧ (m (iLoc d) x).toInt ≤ 999

/-- The gathered weights: row r is the table's row ix[r]. -/
def Wg (d : Dev nD) : Buf (Elt F) (woLoc d) :=
  fun j => m (wLoc d) (ix2 (Cert.Lookup.rowOf (m (iLoc d) (ix1 ⟨(j 0).val, idx2_lt0 j⟩))) ⟨(j 1).val, idx2_lt1 j⟩)
/-- The gathered bias: entry r is the bias at ix[r]. -/
def Bg (d : Dev nD) : Buf (Elt F) (boLoc d) :=
  fun j => m (bLoc d) (ix1 (Cert.Lookup.rowOf (m (iLoc d) j)))

variable (d : Dev nD) (L : grid0.Coords)

/-- The slices an active tile names: its 40 indices, its 40 rows of the gathered weights, its 40 entries of the
    gathered bias; and the table and the bias whole, as the gathers name them. -/
abbrev iSl (h : k0_cond1 L = 1#1) : Memref sig .scVector .hbm S40 .i32 :=
  (iW).slice (Rect.unit (s := S1000) (k0_off1 L) S40.size (k0_off1_inb L h)) (fun _ => rfl)
abbrev woSl (h : k0_cond1 L = 1#1) : Memref sig .scVector .hbm S40x128 .f32 :=
  (woW).slice (Rect.unit (s := S1000x128) (k0_off2 L) S40x128.size (k0_off2_inb L h)) (fun _ => rfl)
abbrev boSl (h : k0_cond1 L = 1#1) : Memref sig .scVector .hbm S40 .f32 :=
  (boW).slice (Rect.unit (s := S1000) (k0_off1 L) S40.size (k0_off1_inb L h)) (fun _ => rfl)
abbrev wAll : Memref sig .scVector .hbm S1000x128 .f32 :=
  (wW).slice (Rect.unit (s := S1000x128) ![0, 0] S1000x128.size inb_S1000x128_S1000x128_0_0) (fun _ => rfl)
abbrev bAll : Memref sig .scVector .hbm S1000 .f32 :=
  (bW).slice (Rect.unit (s := S1000) ![0] S1000.size inb_S1000_S1000_0) (fun _ => rfl)

/-- The tile's index list after its fetch. -/
def idxPay (h : k0_cond1 L = 1#1) : S40.Idx → Elt F .i32 :=
  ReadAs.same.apply (View.read (Elt F) (iSl L h).view (m (iLoc d)))

/-- A buffer written once through its whole shape reads the payload. -/
theorem read_writes_whole' {sg : RefSig} {κ : Kind} {sp : Space} {S : Shape} {e : EltTy} {Val : EltTy → Type}
    (v : View sg κ sp S e) (f : v.ty.Contents Val) (w : (Rect.whole S).shape.Idx → Val e) :
    v.read Val (v.writes Val f [⟨Rect.whole S, w⟩]) = fun y => w y := by
  funext y
  have := View.read_writes_cons_emb v f (Rect.whole S) w [] y
  rwa [Rect.emb_whole_apply] at this

/-- The chunk's first row: 40 · (2 · s + c). -/
theorem off1_val (h : k0_cond1 L = 1#1) : k0_off1 L 0 = 80 * (L 1).val + 40 * (L 0).val := by
  rw [k0_off1_eq]; rfl
theorem off2_val0 (h : k0_cond1 L = 1#1) : k0_off2 L 0 = 80 * (L 1).val + 40 * (L 0).val := by
  rw [k0_off2_eq]; rfl
theorem off2_val1 (h : k0_cond1 L = 1#1) : k0_off2 L 1 = 0 := by
  rw [k0_off2_eq]; rfl

/-- Entry k of the fetched list is the index array's entry 40·w + k. -/
theorem idxPay_apply (h : k0_cond1 L = 1#1) (k : S40.Idx) :
    idxPay m d L h k = m (iLoc d) (ix1 ⟨k0_off1 L 0 + (k 0).val, by have h1 : k0_off1 L 0 + 40 ≤ 1000 := k0_off1_inb L h 0; have h2 : (k 0).val < 40 := (k 0).isLt; omega⟩) := by
  unfold idxPay
  rw [ReadAs.apply_same, View.read_apply]
  refine (cast_eq _ _).trans (congrArg (m (iLoc d)) ?_)
  funext a
  match a with
  | ⟨0, _⟩ => exact Fin.ext (by show k0_off1 L 0 + 1 * (k 0).val = k0_off1 L 0 + (k 0).val; omega)

/-- The row the list names for destination row k: the word at entry k, read unsigned. -/
theorem rows_val (idx : S40.Idx → Elt F .i32) {o z : ℕ} (hn : S40.numel = o) (hz : ∀ x, (idx x).toNat < z) (k : Fin o) :
    (SparseCore.rows (F := F) (si := S40) idx hn hz k).val = (idx (ix1 ⟨k.val, by have := k.isLt; have : S40.numel = 40 := rfl; omega⟩)).toNat := by
  unfold SparseCore.rows
  show (idx (S40.rowMajor.symm (k.cast hn.symm))).toNat = _
  congr 2
  rw [Equiv.symm_apply_eq]
  exact Fin.ext (by rw [Shape.rowMajor_val_one]; rfl)

/-- The gather of table rows read at (k, c): the table at the named row, column c. -/
theorem gatherW_apply (g : S1000x128.Idx → Elt F .f32)
    (r : Fin (S40x128.size Gen.gathers_S1000x128_S40x128.axis') → Fin (S1000x128.size Gen.gathers_S1000x128_S40x128.axis)) (y : S40x128.Idx) :
    SparseCore.gatherPayload (F := F) Gen.gathers_S1000x128_S40x128 g r y
      = g (ix2 ⟨(r (y 0)).val, (r (y 0)).isLt⟩ ⟨(y 1).val, idx2_lt1 y⟩) := by
  unfold SparseCore.gatherPayload
  congr 1
  funext b
  match b with
  | ⟨0, _⟩ => exact Fin.ext (congrArg Fin.val (Shape.Gathers.idx_axis Gen.gathers_S1000x128_S40x128 r y))
  | ⟨1, _⟩ => exact Fin.ext (Shape.Gathers.idx_of_ne Gen.gathers_S1000x128_S40x128 r y ⟨1, by decide⟩ (by decide))

/-- The gather of bias entries read at k: the bias at the named entry. -/
theorem gatherB_apply (g : S1000.Idx → Elt F .f32)
    (r : Fin (S40.size Gen.gathers_S1000_S40.axis') → Fin (S1000.size Gen.gathers_S1000_S40.axis)) (y : S40.Idx) :
    SparseCore.gatherPayload (F := F) Gen.gathers_S1000_S40 g r y = g (ix1 ⟨(r (y 0)).val, (r (y 0)).isLt⟩) := by
  unfold SparseCore.gatherPayload
  congr 1
  funext b
  match b with
  | ⟨0, _⟩ => exact Fin.ext (congrArg Fin.val (Shape.Gathers.idx_axis Gen.gathers_S1000_S40 r y))

/-- The table and the bias, sliced whole, are addressed by their own indices. -/
theorem wAll_emb (z : S1000x128.Idx) : (wAll).view.emb z = z := by
  funext a
  match a with
  | ⟨0, _⟩ => exact Fin.ext (by show 0 + 1 * (z 0).val = (z 0).val; omega)
  | ⟨1, _⟩ => exact Fin.ext (by show 0 + 1 * (z 1).val = (z 1).val; omega)
theorem bAll_emb (z : S1000.Idx) : (bAll).view.emb z = z := by
  funext a
  match a with
  | ⟨0, _⟩ => exact Fin.ext (by show 0 + 1 * (z 0).val = (z 0).val; omega)

/-- A tile is active exactly when its chunk number is below 25. -/
theorem cond_iff : ∀ i : grid0.Coords, (k0_cond1 i = 1#1 ↔ 2 * (i 1).val + (i 0).val < 25) := by decide +kernel

/-- The rows an active tile writes are the rows it owns. -/
theorem woSl_set (h : k0_cond1 L = 1#1) : (woSl L h).view.set = wRowsN (L 0).val (L 1).val := by
  have hc := (cond_iff L).mp h
  ext j
  rw [mem_wRowsN]
  show j ∈ ((View.whole main_v0_0_scv).slice (Rect.unit (s := S1000x128) (k0_off2 L) S40x128.size (k0_off2_inb L h))).set ↔ _
  rw [View.set_slice, show (Finset.map (View.whole main_v0_0_scv).emb (Rect.unit (s := S1000x128) (k0_off2 L) S40x128.size (k0_off2_inb L h)).set) = (Rect.unit (s := S1000x128) (k0_off2 L) S40x128.size (k0_off2_inb L h)).set from Finset.map_refl,
    Rect.mem_set_unit]
  constructor
  · intro hj
    have h0 := hj 0
    rw [off2_val0 L h] at h0
    have e40 : S40x128.size 0 = 40 := rfl
    rw [e40] at h0
    exact ⟨hc, by omega, by omega⟩
  · rintro ⟨-, h1, h2⟩ a
    match a with
    | ⟨0, _⟩ =>
      show k0_off2 L 0 ≤ (j 0).val ∧ (j 0).val < k0_off2 L 0 + 40
      rw [off2_val0 L h]; omega
    | ⟨1, _⟩ =>
      show k0_off2 L 1 ≤ (j 1).val ∧ (j 1).val < k0_off2 L 1 + 128
      rw [off2_val1 L h]; have := idx2_lt1 j; omega
theorem boSl_set (h : k0_cond1 L = 1#1) : (boSl L h).view.set = bRowsN (L 0).val (L 1).val := by
  have hc := (cond_iff L).mp h
  ext j
  rw [mem_bRowsN]
  show j ∈ ((View.whole main_v0_1_scv).slice (Rect.unit (s := S1000) (k0_off1 L) S40.size (k0_off1_inb L h))).set ↔ _
  rw [View.set_slice, show (Finset.map (View.whole main_v0_1_scv).emb (Rect.unit (s := S1000) (k0_off1 L) S40.size (k0_off1_inb L h)).set) = (Rect.unit (s := S1000) (k0_off1 L) S40.size (k0_off1_inb L h)).set from Finset.map_refl,
    Rect.mem_set_unit]
  constructor
  · intro hj
    have h0 := hj 0
    rw [off1_val L h] at h0
    have e40 : S40.size 0 = 40 := rfl
    rw [e40] at h0
    exact ⟨hc, by omega, by omega⟩
  · rintro ⟨-, h1, h2⟩ a
    match a with
    | ⟨0, _⟩ =>
      show k0_off1 L 0 ≤ (j 0).val ∧ (j 0).val < k0_off1 L 0 + 40
      rw [off1_val L h]; omega

/-- The index list's words are in range, under the precondition. -/
theorem idxPay_lt (hpre : PreOK m) (h : k0_cond1 L = 1#1) (k : S40.Idx) : (idxPay m d L h k).toNat < 1000 := by
  rw [idxPay_apply]; exact Cert.Lookup.toNat_lt_of_range _ (hpre d _).1 (hpre d _).2

/-- What the gather of table rows leaves at (k, c) is what row 40·w + k of the gathered weights should hold. -/
theorem payW_apply (hpre : PreOK m) (h : k0_cond1 L = 1#1) (idx : S40.Idx → Elt F .i32) (hidx : idx = idxPay m d L h)
    {o : ℕ} (hn : S40.numel = o) (ho : o = 40)
    (r : Fin o → Fin 1000) (hr : ∀ k : Fin o, (r k).val = (idx (ix1 ⟨k.val, by omega⟩)).toNat)
    (y : S40x128.Idx) :
    m (wLoc d) (ix2 (r ⟨(y 0).val, by have := idx2_lt0 y; omega⟩) ⟨(y 1).val, idx2_lt1 y⟩) = Wg m d ((woSl L h).view.emb y) := by
  subst hidx ho
  unfold Wg
  refine congrArg (m (wLoc d)) ?_
  funext a
  match a with
  | ⟨0, _⟩ =>
    refine Fin.ext ?_
    show (r ⟨(y 0).val, _⟩).val = (Cert.Lookup.rowOf _).val
    rw [hr, idxPay_apply, Cert.Lookup.rowOf_of_range _ (hpre d _).1 (hpre d _).2]
    refine congrArg (fun z => (m (iLoc d) z).toNat) ?_
    funext b
    match b with
    | ⟨0, _⟩ =>
      refine Fin.ext ?_
      show k0_off1 L 0 + (y 0).val = k0_off2 L 0 + 1 * (y 0).val
      rw [off1_val L h, off2_val0 L h]; omega
  | ⟨1, _⟩ =>
    refine Fin.ext ?_
    show (y 1).val = k0_off2 L 1 + 1 * (y 1).val
    rw [off2_val1 L h]; omega

theorem payB_apply (hpre : PreOK m) (h : k0_cond1 L = 1#1) (idx : S40.Idx → Elt F .i32) (hidx : idx = idxPay m d L h)
    {o : ℕ} (hn : S40.numel = o) (ho : o = 40)
    (r : Fin o → Fin 1000) (hr : ∀ k : Fin o, (r k).val = (idx (ix1 ⟨k.val, by omega⟩)).toNat)
    (y : S40.Idx) :
    m (bLoc d) (ix1 (r ⟨(y 0).val, by have : (y 0).val < 40 := (y 0).isLt; omega⟩)) = Bg m d ((boSl L h).view.emb y) := by
  subst hidx ho
  unfold Bg
  refine congrArg (m (bLoc d)) ?_
  funext a
  match a with
  | ⟨0, _⟩ =>
    refine Fin.ext ?_
    show (r ⟨(y 0).val, _⟩).val = (Cert.Lookup.rowOf _).val
    rw [hr, idxPay_apply, Cert.Lookup.rowOf_of_range _ (hpre d _).1 (hpre d _).2]
    refine congrArg (fun z => (m (iLoc d) z).toNat) ?_
    funext b
    match b with
    | ⟨0, _⟩ =>
      refine Fin.ext ?_
      show k0_off1 L 0 + (y 0).val = k0_off1 L 0 + 1 * (y 0).val
      omega

/-- A slice written once, whole, with a payload that agrees with a whole-array function along the slice's placement
    holds that function on the slice's elements. -/
theorem piece_congr {sg : RefSig} {κ : Kind} {sp : Space} {S : Shape} {e : EltTy} {Val : EltTy → Type}
    (v : View sg κ sp S e) (f G : v.ty.Contents Val) (X : (Rect.whole S).shape.Idx → Val e)
    (hX : ∀ y, _root_.cast (congrArg Val v.elt_eq.symm) (X y) = G (v.emb y)) :
    ∀ i ∈ v.set, v.writes Val f [⟨Rect.whole S, X⟩] i = G i := by
  intro i hi
  obtain ⟨y, rfl⟩ := View.exists_emb_of_mem_set v hi
  rw [View.writes_singleton]
  have e1 : (v.slice (Rect.whole S)).emb y = v.emb y := by
    rw [View.emb_slice]; show v.emb ((Rect.whole S).emb y) = _; rw [Rect.emb_whole_apply]
  rw [← e1, View.write_emb_of_mem _ _ (Finset.mem_univ y), e1]
  exact hX y

end Cert.KernelIdeal.Hand

end
-- ==== Proof.PayIdeal.lean ====
/-
  What the call of the gather kernel hands over and gets back. The TensorCore hands each SparseCore a read share
  of the index array, the table and the bias, and the rows of the two result arrays its tiles own; the SparseCore
  hands each tile a read share of the three inputs and the tile's own rows; back come the shares and the rows, each
  row now holding the table row (the bias entry) its index names.
-/
import proofs.«206728_g1443109012240_cont_week2b_750_35_alg».proof.Proof.GatherValueIdeal

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The read share of SparseCore `cn`, and of its tile `sn`. -/
abbrev qCore (cn : ℕ) : PosShare TreeShare := Transfers.shareTokN fullShare cn
abbrev qTile (cn sn : ℕ) : PosShare TreeShare := Transfers.shareTokN (qCore cn) sn

/-- What a tile is handed, -/
def tileGo (d : Dev nD) (cn sn : ℕ) : sProp 𝕄 :=
  iprop((iLoc d ↦{qTile cn sn} m (iLoc d)) ∗ (wLoc d ↦{qTile cn sn} m (wLoc d)) ∗ (bLoc d ↦{qTile cn sn} m (bLoc d))
    ∗ (woLoc d ↦[wRowsN cn sn]{fullShare} m (woLoc d)) ∗ (boLoc d ↦[bRowsN cn sn]{fullShare} m (boLoc d)))
/-- and what it hands back. -/
def tileTd (d : Dev nD) (cn sn : ℕ) : sProp 𝕄 :=
  iprop((iLoc d ↦{qTile cn sn} m (iLoc d)) ∗ (wLoc d ↦{qTile cn sn} m (wLoc d)) ∗ (bLoc d ↦{qTile cn sn} m (bLoc d))
    ∗ (woLoc d ↦[wRowsN cn sn]{fullShare} Wg m d) ∗ (boLoc d ↦[bRowsN cn sn]{fullShare} Bg m d))
/-- What a SparseCore is handed, -/
def coreSt (d : Dev nD) (cn : ℕ) : sProp 𝕄 :=
  iprop((iLoc d ↦{qCore cn} m (iLoc d)) ∗ (wLoc d ↦{qCore cn} m (wLoc d)) ∗ (bLoc d ↦{qCore cn} m (bLoc d))
    ∗ (woLoc d ↦[wCoreN cn]{fullShare} m (woLoc d)) ∗ (boLoc d ↦[bCoreN cn]{fullShare} m (boLoc d)))
/-- and what it hands back. -/
def coreDn (d : Dev nD) (cn : ℕ) : sProp 𝕄 :=
  iprop((iLoc d ↦{qCore cn} m (iLoc d)) ∗ (wLoc d ↦{qCore cn} m (wLoc d)) ∗ (bLoc d ↦{qCore cn} m (bLoc d))
    ∗ (woLoc d ↦[wCoreN cn]{fullShare} Wg m d) ∗ (boLoc d ↦[bCoreN cn]{fullShare} Bg m d))

def P : (K (F := F)).Pay (nD := nD) (Val := Elt F) (Name := ℕ) (U := UU) where
  st := fun _ d c => coreSt m d c.val
  dn := fun _ d c => coreDn m d c.val
  go := fun _ d c i => tileGo m d c.val i.val
  td := fun _ d c i => tileTd m d c.val i.val
  x := fun _ _ => iprop(emp)

instance P_storable : (P (F := F) m).IsStorable where
  st _ d c := by unfold P coreSt; infer_instance
  dn _ d c := by unfold P coreDn; infer_instance
  go _ d c i := by unfold P tileGo; infer_instance
  td _ d c i := by unfold P tileTd; infer_instance

/-! ## A SparseCore's operands split among its tiles -/

theorem go_eq (d : Dev nD) (cn : ℕ) :
    (bigSep Finset.univ fun i : Fin 16 => tileGo m d cn i.val)
      = iprop((bigSep Finset.univ fun i : Fin 16 => iLoc d ↦{qTile cn i.val} m (iLoc d))
          ∗ (bigSep Finset.univ fun i : Fin 16 => wLoc d ↦{qTile cn i.val} m (wLoc d))
          ∗ (bigSep Finset.univ fun i : Fin 16 => bLoc d ↦{qTile cn i.val} m (bLoc d))
          ∗ (woLoc d ↦[wCoreN cn]{fullShare} m (woLoc d)) ∗ (boLoc d ↦[bCoreN cn]{fullShare} m (boLoc d))) := by
  unfold tileGo wCoreN bCoreN
  rw [bigSep_sep', bigSep_sep', bigSep_sep', bigSep_sep', pointsTo_biUnion _ _ (wRows_disjoint cn), pointsTo_biUnion _ _ (bRows_disjoint cn)]
theorem td_eq (d : Dev nD) (cn : ℕ) :
    (bigSep Finset.univ fun i : Fin 16 => tileTd m d cn i.val)
      = iprop((bigSep Finset.univ fun i : Fin 16 => iLoc d ↦{qTile cn i.val} m (iLoc d))
          ∗ (bigSep Finset.univ fun i : Fin 16 => wLoc d ↦{qTile cn i.val} m (wLoc d))
          ∗ (bigSep Finset.univ fun i : Fin 16 => bLoc d ↦{qTile cn i.val} m (bLoc d))
          ∗ (woLoc d ↦[wCoreN cn]{fullShare} Wg m d) ∗ (boLoc d ↦[bCoreN cn]{fullShare} Bg m d)) := by
  unfold tileTd wCoreN bCoreN
  rw [bigSep_sep', bigSep_sep', bigSep_sep', bigSep_sep', pointsTo_biUnion _ _ (wRows_disjoint cn), pointsTo_biUnion _ _ (bRows_disjoint cn)]

theorem vecSplit : (K (F := F)).VecSplit' (P m) 0 := by
  intro d c
  show coreSt m d c.val ⊢ |={Set.univ}=> iprop((bigSep Finset.univ fun i : Fin 16 => tileGo m d c.val i.val)
      ∗ ((bigSep Finset.univ fun i : Fin 16 => tileTd m d c.val i.val) -∗ coreDn m d c.val))
  rw [go_eq, td_eq]
  unfold coreSt coreDn
  iintro ⟨Hi, Hw, Hb, Hwo, Hbo⟩
  ihave Hi2 := (Transfers.pointsTo_toks_split (qCore c.val) 16) $$ Hi
  icases Hi2 with ⟨Hir, Hit⟩
  ihave Hw2 := (Transfers.pointsTo_toks_split (qCore c.val) 16) $$ Hw
  icases Hw2 with ⟨Hwr, Hwt⟩
  ihave Hb2 := (Transfers.pointsTo_toks_split (qCore c.val) 16) $$ Hb
  icases Hb2 with ⟨Hbr, Hbt⟩
  imodintro
  isplitl [Hit Hwt Hbt Hwo Hbo]
  · isplitl [Hit]; · iexact Hit
    isplitl [Hwt]; · iexact Hwt
    isplitl [Hbt]; · iexact Hbt
    isplitl [Hwo]; · iexact Hwo
    iexact Hbo
  iintro ⟨Hit, Hwt, Hbt, Hwo, Hbo⟩
  isplitl [Hir Hit]
  · iapply (Transfers.pointsTo_toks_join (qCore c.val) 16); isplitl [Hir]; · iexact Hir
    iexact Hit
  isplitl [Hwr Hwt]
  · iapply (Transfers.pointsTo_toks_join (qCore c.val) 16); isplitl [Hwr]; · iexact Hwr
    iexact Hwt
  isplitl [Hbr Hbt]
  · iapply (Transfers.pointsTo_toks_join (qCore c.val) 16); isplitl [Hbr]; · iexact Hbr
    iexact Hbt
  isplitl [Hwo]; · iexact Hwo
  iexact Hbo

end Cert.KernelIdeal.Hand

end
-- ==== Proof.TileIdeal.lean ====
/-
  One tile's task, run. An active tile (chunk number below 25) copies its 40 indices into its own memory, starts
  the gather of the 40 table rows and the gather of the 40 bias entries they name, and copies each out to its rows
  of the result arrays once it has landed; the two gathers read the one index list at once, each through half of it.
  Every index word is in range under the precondition, so both gathers complete. An idle tile does nothing.
-/
import proofs.«206728_g1443109012240_cont_week2b_750_35_alg».proof.Proof.PayIdeal

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "wW" => (Memref.whole Cert.KernelIdeal.main_arg2_scv : Memref Cert.KernelIdeal.sig Kind.scVector Space.hbm Cert.KernelIdeal.S1000x128 EltTy.f32)
local notation "bW" => (Memref.whole Cert.KernelIdeal.main_arg3_scv : Memref Cert.KernelIdeal.sig Kind.scVector Space.hbm Cert.KernelIdeal.S1000 EltTy.f32)
local notation "iW" => (Memref.whole Cert.KernelIdeal.main_arg1_scv : Memref Cert.KernelIdeal.sig Kind.scVector Space.hbm Cert.KernelIdeal.S1000 EltTy.i32)
local notation "woW" => (Memref.whole Cert.KernelIdeal.main_v0_0_scv : Memref Cert.KernelIdeal.sig Kind.scVector Space.hbm Cert.KernelIdeal.S1000x128 EltTy.f32)
local notation "boW" => (Memref.whole Cert.KernelIdeal.main_v0_1_scv : Memref Cert.KernelIdeal.sig Kind.scVector Space.hbm Cert.KernelIdeal.S1000 EltTy.f32)
local notation "sI" => (Memref.whole Cert.KernelIdeal.cc0_scratch0 : Memref Cert.KernelIdeal.sig Kind.scVector Space.vmem Cert.KernelIdeal.S40 EltTy.i32)
local notation "sR" => (Memref.whole Cert.KernelIdeal.cc0_scratch1 : Memref Cert.KernelIdeal.sig Kind.scVector Space.vmem Cert.KernelIdeal.S40x128 EltTy.f32)
local notation "sB" => (Memref.whole Cert.KernelIdeal.cc0_scratch2 : Memref Cert.KernelIdeal.sig Kind.scVector Space.vmem Cert.KernelIdeal.S40 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- A tile's semaphore cell. -/
abbrev cellAt (sm : DmaSem sig) : GSem nD τ sig := (V d (cV L) (jV L), SemLoc.dma sm)

/-- The five semaphores the kernel's copies complete on. -/
def five : Finset (GSem nD τ sig) :=
  {cellAt d L cc0_scratch3.sem, cellAt d L cc0_scratch4.sem, cellAt d L cc0_scratch5.sem, cellAt d L cc0_scoped0.sem, cellAt d L cc0_scoped1.sem}

omit [FloatOps F] in
theorem five_sub : five d L ⊆ ownCells (V d (cV L) (jV L)) := by
  intro g hg
  simp only [five, Finset.mem_insert, Finset.mem_singleton] at hg
  rcases hg with rfl | rfl | rfl | rfl | rfl
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩

omit [FloatOps F] in
theorem bigSep_five (Φ : GSem nD τ sig → sProp 𝕄) :
    bigSep (five d L) Φ = iprop(Φ (cellAt d L cc0_scratch3.sem) ∗ Φ (cellAt d L cc0_scratch4.sem) ∗ Φ (cellAt d L cc0_scratch5.sem)
      ∗ Φ (cellAt d L cc0_scoped0.sem) ∗ Φ (cellAt d L cc0_scoped1.sem)) := by
  unfold five
  rw [SparseCore.bigSep_insert' (by simp [cellAt]; decide), SparseCore.bigSep_insert' (by simp [cellAt]; decide),
    SparseCore.bigSep_insert' (by simp [cellAt]; decide), SparseCore.bigSep_insert' (by simp [cellAt]; decide), bigSep_singleton]

omit [FloatOps F] in
theorem ownSems0_V :
    (ownSems0 (V d (cV L) (jV L)) : sProp 𝕄)
      = iprop((semVal (cellAt d L cc0_scratch3.sem) 0 ∗ semVal (cellAt d L cc0_scratch4.sem) 0 ∗ semVal (cellAt d L cc0_scratch5.sem) 0
          ∗ semVal (cellAt d L cc0_scoped0.sem) 0 ∗ semVal (cellAt d L cc0_scoped1.sem) 0)
          ∗ bigSep (ownCells (V d (cV L) (jV L)) \ five d L) fun g => semVal g 0) := by
  unfold SparseCore.Cfg.ownSems0
  rw [SparseCore.bigSep_sdiff_split' (five_sub d L), bigSep_five]

/-- The tile's three buffers. -/
def three : Finset (DevRef τ sig) :=
  {(Proc.scVector (cV L) (jV L)).devRef cc0_scratch0, (Proc.scVector (cV L) (jV L)).devRef cc0_scratch1, (Proc.scVector (cV L) (jV L)).devRef cc0_scratch2}

omit [FloatOps F] in
theorem three_sub : three L ⊆ ownRefs (τ := τ) (sig := sig) (.scVector (cV L) (jV L)) := by
  intro b hb
  simp only [three, Finset.mem_insert, Finset.mem_singleton] at hb
  rcases hb with rfl | rfl | rfl <;> exact SparseCore.Cfg.mem_ownRefs_of_owner rfl

omit [FloatOps F] in
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f))
          ∗ bigSep (ownRefs (τ := τ) (sig := sig) (.scVector (cV L) (jV L)) \ three L) fun b => iprop(∃ f, ((d, b) : Loc nD τ sig) ↦{fullShare} f)) := by
  unfold SparseCore.Cfg.ownBufs
  rw [SparseCore.bigSep_sdiff_split' (three_sub L)]
  unfold three
  rw [SparseCore.bigSep_insert' (by
        simp only [Finset.mem_insert, Finset.mem_singleton, not_or]
        exact ⟨fun e => absurd (Proc.devRef_injective _ e) (show (cc0_scratch0 : Ref sig .scVector) ≠ cc0_scratch1 by decide),
          fun e => absurd (Proc.devRef_injective _ e) (show (cc0_scratch0 : Ref sig .scVector) ≠ cc0_scratch2 by decide)⟩),
    SparseCore.bigSep_insert' (by
        simp only [Finset.mem_singleton]
        exact fun e => absurd (Proc.devRef_injective _ e) (show (cc0_scratch1 : Ref sig .scVector) ≠ cc0_scratch2 by decide)), bigSep_singleton]

omit [FloatOps F] in
/-- The arrays as the tile's memrefs address them are the TensorCore's arrays. -/
theorem pts_i (q : PosShare TreeShare) (f : Buf (Elt F) (iLoc d)) :
    ((iW).view.loc (V d (cV L) (jV L)) ↦{q} f : sProp 𝕄) = iLoc d ↦{q} f := by
  simp only [Memref.view_whole, View.set_whole]
omit [FloatOps F] in
theorem pts_w (q : PosShare TreeShare) (f : Buf (Elt F) (wLoc d)) :
    ((wW).view.loc (V d (cV L) (jV L)) ↦{q} f : sProp 𝕄) = wLoc d ↦{q} f := by
  simp only [Memref.view_whole, View.set_whole]
omit [FloatOps F] in
theorem pts_b (q : PosShare TreeShare) (f : Buf (Elt F) (bLoc d)) :
    ((bW).view.loc (V d (cV L) (jV L)) ↦{q} f : sProp 𝕄) = bLoc d ↦{q} f := by
  simp only [Memref.view_whole, View.set_whole]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] in
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl
omit [FloatOps F] in
theorem pts_wo (h : k0_cond1 L = 1#1) (f : Buf (Elt F) (woLoc d)) :
    ((woSl L h).view.loc (V d (cV L) (jV L)) ↦[(woSl L h).view.set]{fullShare} f : sProp 𝕄) = woLoc d ↦[wRowsN (L 0).val (L 1).val]{fullShare} f := by
  rw [woSl_set]
omit [FloatOps F] in
theorem pts_bo (h : k0_cond1 L = 1#1) (f : Buf (Elt F) (boLoc d)) :
    ((boSl L h).view.loc (V d (cV L) (jV L)) ↦[(boSl L h).view.set]{fullShare} f : sProp 𝕄) = boLoc d ↦[bRowsN (L 0).val (L 1).val]{fullShare} f := by
  rw [boSl_set]

set_option maxHeartbeats 1600000 in
/-- The task of an active tile. -/
theorem tile_active (hF : (K (F := F)).Facts) (hpre : PreOK m) (k0_h1 : k0_cond1 L = 1#1)
    (O : CellTallies nD τ sig (HIx 1)) (W : Waits sig (HIx 1)) (hO : ∀ g, O g none = 0) :
    (iprop(levAts (K (F := F)).L (K (F := F)).lev ∗ emp ∗ tileGo m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L wW (Memref.isWhole_whole _) bW (Memref.isWhole_whole _) iW (Memref.isWhole_whole _) woW (Memref.isWhole_whole _) boW (Memref.isWhole_whole _)
            sI (Memref.isWhole_whole _) sR (Memref.isWhole_whole _) sB (Memref.isWhole_whole _) cc0_scratch3 cc0_scratch4 cc0_scratch5 cc0_scoped0 cc0_scoped1)
          fun _ => iprop(tileTd m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_k_eq_skeleton]; unfold cc0_k_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Hi, Hw, Hb, Hwo, Hbo⟩, ⟨⟨⟨%fI, HsI⟩, ⟨%fR, HsR⟩, ⟨%fB, HsB⟩⟩, Hbufs⟩, ⟨⟨H3, H4, H5, H0, H1⟩, Hsems⟩, HO⟩
  ihave Hmw := ((K (F := F)).mayWaits_none (thr := V d (cV L) (jV L)) hO) $$ Hlv
  ihave Hi' := (Entails.of_eq (pts_i (F := F) d L _ _).symm) $$ Hi
  ihave Hw' := (Entails.of_eq (pts_w (F := F) d L _ _).symm) $$ Hw
  ihave Hb' := (Entails.of_eq (pts_b (F := F) d L _ _).symm) $$ Hb
  ihave HsI' := (Entails.of_eq (pts_sI (F := F) d L _).symm) $$ HsI
  ihave HsR' := (Entails.of_eq (pts_sR (F := F) d L _).symm) $$ HsR
  ihave HsB' := (Entails.of_eq (pts_sB (F := F) d L _).symm) $$ HsB
  ihave Hwo' := (Entails.of_eq (pts_wo (F := F) d L k0_h1 _).symm) $$ Hwo
  ihave Hbo' := (Entails.of_eq (pts_bo (F := F) d L k0_h1 _).symm) $$ Hbo
  -- the index fetch and its wait
  sl_exec
  -- every fetched word names a table row
  have hin : ∀ (x : cc0_scratch0.ty.shape.Idx),
        BitVec.toNat
            (View.read (Elt F) (Memref.whole cc0_scratch0).view
              (View.write (Elt F) (Memref.whole cc0_scratch0).view fI (tile_active.sl.dma0 m d L k0_h1) Finset.univ) x) <
          1000 := by
    intro x
    rw [View.read_write_univ]
    exact idxPay_lt m d L hpre k0_h1 x
  -- the two gathers read the list at once: half of it each
  ihave Hs2 := (pointsTo_share (PosShare.mem_left_op_right fullShare)).1 $$ HsI'
  icases Hs2 with ⟨HsIa, HsIb⟩
  sl_exec
  -- what the two copies out leave in the tile's rows
  have hW : ∀ i ∈ (woSl L k0_h1).view.set,
      (woSl L k0_h1).view.writes (Elt F) (m (woLoc d)) [⟨Rect.whole S40x128, tile_active.sl.dma0_1 m d L k0_h1 fI fR hin⟩] i = Wg m d i := by
    refine piece_congr (woSl L k0_h1).view (m (woLoc d)) (Wg m d) _ fun y => ?_
    refine (cast_eq _ _).trans ?_
    unfold tile_active.sl.dma0_1 tile_active.sl.gather0
    rw [ReadAs.apply_same, read_writes_whole']
    beta_reduce
    refine (gatherW_apply _ _ y).trans ?_
    rw [View.read_apply, wAll_emb]
    refine (cast_eq _ _).trans ?_
    exact payW_apply m d L hpre k0_h1 _ (by rw [View.read_write_univ]; rfl) rfl rfl _ (fun k => rows_val _ rfl hin k) y
  have hB : ∀ i ∈ (boSl L k0_h1).view.set,
      (boSl L k0_h1).view.writes (Elt F) (m (boLoc d)) [⟨Rect.whole S40, tile_active.sl.dma0_2 m d L k0_h1 fI fB hin⟩] i = Bg m d i := by
    refine piece_congr (boSl L k0_h1).view (m (boLoc d)) (Bg m d) _ fun y => ?_
    refine (cast_eq _ _).trans ?_
    unfold tile_active.sl.dma0_2 tile_active.sl.gather1
    rw [ReadAs.apply_same, read_writes_whole']
    beta_reduce
    refine (gatherB_apply _ _ y).trans ?_
    rw [View.read_apply, bAll_emb]
    refine (cast_eq _ _).trans ?_
    exact payB_apply m d L hpre k0_h1 _ (by rw [View.read_write_univ]; rfl) rfl rfl _ (fun k => rows_val _ rfl hin k) y
  sl_step
  ihave HsI2 := (pointsTo_share (PosShare.mem_left_op_right fullShare)).2 $$ [HsIa HsIb]
  · isplitl [HsIa]; · iexact HsIa
    iexact HsIb
  isplitl [Hi' Hw' Hb' Hwo' Hbo']
  · isplitl [Hi']; · iapply (Entails.of_eq (pts_i (F := F) d L _ _)); iexact Hi'
    isplitl [Hw']; · iapply (Entails.of_eq (pts_w (F := F) d L _ _)); iexact Hw'
    isplitl [Hb']; · iapply (Entails.of_eq (pts_b (F := F) d L _ _)); iexact Hb'
    isplitl [Hwo']
    · iapply (Entails.of_eq (pts_wo (F := F) d L k0_h1 _))
      iapply (Entails.of_eq (pointsTo_congr hW))
      iexact Hwo'
    · iapply (Entails.of_eq (pts_bo (F := F) d L k0_h1 _))
      iapply (Entails.of_eq (pointsTo_congr hB))
      iexact Hbo'
  isplitl [HsI2 HsR' HsB' Hbufs]
  · isplitl [HsI2 HsR' HsB']
    · isplitl [HsI2]; · iexists _; iexact HsI2
      isplitl [HsR']; · iexists _; iexact HsR'
      iexists _; iexact HsB'
    · iexact Hbufs
  isplitl [H3 H4 H5 H0 H1 Hsems]
  · isplitl [H3 H4 H5 H0 H1]
    · isplitl [H3]; · iexact H3
      isplitl [H4]; · iexact H4
      isplitl [H5]; · iexact H5
      isplitl [H0]; · iexact H0
      iexact H1
    · iexact Hsems
  iexists (insert (SemLoc.dma cc0_scratch5.sem, (default : HIx 1)) (insert (SemLoc.dma cc0_scoped1.sem, (default : HIx 1))
    (insert (SemLoc.dma cc0_scratch4.sem, (default : HIx 1)) (insert (SemLoc.dma cc0_scratch3.sem, (default : HIx 1))
    (insert (SemLoc.dma cc0_scoped0.sem, (default : HIx 1)) W))))); isplitr
  · ipureintro; intro p hp
    simp only [Finset.mem_insert] at hp
    rcases hp with h | h | h | h | h | h
    · exact .inr (by subst h; rfl)
    · exact .inr (by subst h; rfl)
    · exact .inr (by subst h; rfl)
    · exact .inr (by subst h; rfl)
    · exact .inr (by subst h; rfl)
    · exact .inl h
  · iexact HO

set_option maxHeartbeats 800000 in
/-- The task of an idle tile: nothing. -/
theorem tile_idle (k0_h1 : ¬ k0_cond1 L = 1#1)
    (O : CellTallies nD τ sig (HIx 1)) (W : Waits sig (HIx 1)) :
    (iprop(levAts (K (F := F)).L (K (F := F)).lev ∗ emp ∗ tileGo m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L wW (Memref.isWhole_whole _) bW (Memref.isWhole_whole _) iW (Memref.isWhole_whole _) woW (Memref.isWhole_whole _) boW (Memref.isWhole_whole _)
            sI (Memref.isWhole_whole _) sR (Memref.isWhole_whole _) sB (Memref.isWhole_whole _) cc0_scratch3 cc0_scratch4 cc0_scratch5 cc0_scoped0 cc0_scoped1)
          fun _ => iprop(tileTd m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  have hc : ¬ 2 * (L 1).val + (L 0).val < 25 := fun h => k0_h1 ((cond_iff L).mpr h)
  rw [cc0_k_eq_skeleton]; unfold cc0_k_skel
  unfold tileGo tileTd
  rw [wRows_inactive hc, bRows_inactive hc, pointsTo_empty, pointsTo_empty, pointsTo_empty, pointsTo_empty]
  iintro ⟨-, -, ⟨Hi, Hw, Hb, -, -⟩, Hsb, Hss, HO⟩
  sl_exec
  sl_step
  isplitl [Hi Hw Hb]
  · isplitl [Hi]; · iexact Hi
    isplitl [Hw]; · iexact Hw
    isplitl [Hb]; · iexact Hb
    isplitr <;> iempintro
  isplitl [Hsb]; · iexact Hsb
  isplitl [Hss]; · iexact Hss
  iexists W; isplitr
  · ipureintro; exact fun p hp => .inl hp
  · iexact HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          wW (Memref.isWhole_whole _) bW (Memref.isWhole_whole _) iW (Memref.isWhole_whole _) woW (Memref.isWhole_whole _) boW (Memref.isWhole_whole _)
          sI (Memref.isWhole_whole _) sR (Memref.isWhole_whole _) sB (Memref.isWhole_whole _) cc0_scratch3 cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  by_cases h1 : k0_cond1 (coordsV ⟨_, hc.1⟩ ⟨_, hc.2⟩) = 1#1
  · exact (tile_active m d (coordsV ⟨_, hc.1⟩ ⟨_, hc.2⟩) hF hpre h1 O W hO).trans (wp_mono frame _ _ fun _ => obl_post)
  · exact (tile_idle m d (coordsV ⟨_, hc.1⟩ ⟨_, hc.2⟩) h1 O W).trans (wp_mono frame _ _ fun _ => obl_post)

end Cert.KernelIdeal.Hand

end
-- ==== Proof.TcSideIdeal.lean ====
/-
  The TensorCore's side of the gather call, and the reshape after it.

  Before the call the TensorCore holds the index array, the table, the bias and the two result arrays whole. It keeps a
  read share of the three inputs and deals the rest out: each of the two SparseCores receives a read share of each input
  and the rows of the two result arrays its sixteen tiles own; the two SparseCores' rows are disjoint and together are
  all 1000 rows, so the two parts of a result array are the array. After the call the shares and the rows come back and
  are joined: the inputs whole at their launch contents, each result array whole with row r holding the table row (the
  bias entry) that index word r names.

  The TensorCore's arrays that outlive a kernel are the eight arrays of the program: the four arguments, the two gathered
  arrays, the gathered bias as a one-row matrix, and the result.

  The reshape between the two calls reads the gathered bias, 1000 entries, as a matrix of one row: entry (0, j) of the
  matrix is entry j of the vector.
-/
import proofs.«206728_g1443109012240_cont_week2b_750_35_alg».proof.Proof.PayIdeal

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ)

/-! ## The operands dealt to the two SparseCores, and joined back -/

/-- A result array whole is its two SparseCores' rows. -/
theorem wo_cores (d : Dev nD) (f : Buf (Elt F) (woLoc d)) :
    (woLoc d ↦{fullShare} f : sProp 𝕄) = bigSep Finset.univ fun c : Fin 2 => woLoc d ↦[wCoreN c.val]{fullShare} f :=
  (congrArg (fun I => (woLoc d ↦[I]{fullShare} f : sProp 𝕄)) wCore_cover.symm).trans
    (pointsTo_biUnion _ _ wCore_disjoint)
theorem bo_cores (d : Dev nD) (f : Buf (Elt F) (boLoc d)) :
    (boLoc d ↦{fullShare} f : sProp 𝕄) = bigSep Finset.univ fun c : Fin 2 => boLoc d ↦[bCoreN c.val]{fullShare} f :=
  (congrArg (fun I => (boLoc d ↦[I]{fullShare} f : sProp 𝕄)) bCore_cover.symm).trans
    (pointsTo_biUnion _ _ bCore_disjoint)

/-- What the two SparseCores are handed together: a read share of each input per SparseCore, and the two result arrays
    whole. -/
theorem st_eq (d : Dev nD) :
    (bigSep Finset.univ fun c : Fin 2 => coreSt m d c.val)
      = iprop((bigSep Finset.univ fun c : Fin 2 => iLoc d ↦{qCore c.val} m (iLoc d))
          ∗ (bigSep Finset.univ fun c : Fin 2 => wLoc d ↦{qCore c.val} m (wLoc d))
          ∗ (bigSep Finset.univ fun c : Fin 2 => bLoc d ↦{qCore c.val} m (bLoc d))
          ∗ (woLoc d ↦{fullShare} m (woLoc d)) ∗ (boLoc d ↦{fullShare} m (boLoc d))) := by
  unfold coreSt
  rw [bigSep_sep', bigSep_sep', bigSep_sep', bigSep_sep', wo_cores, bo_cores]
/-- What they hand back together. -/
theorem dn_eq (d : Dev nD) :
    (bigSep Finset.univ fun c : Fin 2 => coreDn m d c.val)
      = iprop((bigSep Finset.univ fun c : Fin 2 => iLoc d ↦{qCore c.val} m (iLoc d))
          ∗ (bigSep Finset.univ fun c : Fin 2 => wLoc d ↦{qCore c.val} m (wLoc d))
          ∗ (bigSep Finset.univ fun c : Fin 2 => bLoc d ↦{qCore c.val} m (bLoc d))
          ∗ (woLoc d ↦{fullShare} Wg m d) ∗ (boLoc d ↦{fullShare} Bg m d)) := by
  unfold coreDn
  rw [bigSep_sep', bigSep_sep', bigSep_sep', bigSep_sep', wo_cores, bo_cores]

/-- Before the call: the five arrays whole give the TensorCore's remaining read shares and what the two SparseCores
    are handed. -/
theorem tc_split (d : Dev nD) :
    iprop((iLoc d ↦{fullShare} m (iLoc d)) ∗ (wLoc d ↦{fullShare} m (wLoc d)) ∗ (bLoc d ↦{fullShare} m (bLoc d))
        ∗ (woLoc d ↦{fullShare} m (woLoc d)) ∗ (boLoc d ↦{fullShare} m (boLoc d)))
      ⊢ (iprop(((iLoc d ↦{Transfers.shareDrop fullShare 2} m (iLoc d)) ∗ (wLoc d ↦{Transfers.shareDrop fullShare 2} m (wLoc d))
            ∗ (bLoc d ↦{Transfers.shareDrop fullShare 2} m (bLoc d)))
          ∗ bigSep Finset.univ fun c : Fin ((K (F := F)).nCore 0) => (P m).st 0 d c) : sProp 𝕄) := by
  rw [show (bigSep Finset.univ fun c : Fin ((K (F := F)).nCore 0) => (P m).st 0 d c)
      = (bigSep Finset.univ fun c : Fin 2 => coreSt m d c.val) from rfl, st_eq]
  iintro ⟨Hi, Hw, Hb, Hwo, Hbo⟩
  ihave Hi2 := (Transfers.pointsTo_toks_split fullShare 2) $$ Hi
  icases Hi2 with ⟨Hir, Hit⟩
  ihave Hw2 := (Transfers.pointsTo_toks_split fullShare 2) $$ Hw
  icases Hw2 with ⟨Hwr, Hwt⟩
  ihave Hb2 := (Transfers.pointsTo_toks_split fullShare 2) $$ Hb
  icases Hb2 with ⟨Hbr, Hbt⟩
  isplitl [Hir Hwr Hbr]
  · isplitl [Hir]; · iexact Hir
    isplitl [Hwr]; · iexact Hwr
    iexact Hbr
  isplitl [Hit]; · iexact Hit
  isplitl [Hwt]; · iexact Hwt
  isplitl [Hbt]; · iexact Hbt
  isplitl [Hwo]; · iexact Hwo
  iexact Hbo

/-- After the call: the remaining read shares and what the two SparseCores hand back give the inputs whole at their
    launch contents and the two result arrays whole at the gathered rows. -/
theorem tc_join (d : Dev nD) :
    iprop(((iLoc d ↦{Transfers.shareDrop fullShare 2} m (iLoc d)) ∗ (wLoc d ↦{Transfers.shareDrop fullShare 2} m (wLoc d))
            ∗ (bLoc d ↦{Transfers.shareDrop fullShare 2} m (bLoc d)))
          ∗ bigSep Finset.univ fun c : Fin ((K (F := F)).nCore 0) => (P m).dn 0 d c)
      ⊢ (iprop((iLoc d ↦{fullShare} m (iLoc d)) ∗ (wLoc d ↦{fullShare} m (wLoc d)) ∗ (bLoc d ↦{fullShare} m (bLoc d))
          ∗ (woLoc d ↦{fullShare} Wg m d) ∗ (boLoc d ↦{fullShare} Bg m d)) : sProp 𝕄) := by
  rw [show (bigSep Finset.univ fun c : Fin ((K (F := F)).nCore 0) => (P m).dn 0 d c)
      = (bigSep Finset.univ fun c : Fin 2 => coreDn m d c.val) from rfl, dn_eq]
  iintro ⟨⟨Hir, Hwr, Hbr⟩, Hit, Hwt, Hbt, Hwo, Hbo⟩
  isplitl [Hir Hit]
  · iapply (Transfers.pointsTo_toks_join fullShare 2); isplitl [Hir]; · iexact Hir
    iexact Hit
  isplitl [Hwr Hwt]
  · iapply (Transfers.pointsTo_toks_join fullShare 2); isplitl [Hwr]; · iexact Hwr
    iexact Hwt
  isplitl [Hbr Hbt]
  · iapply (Transfers.pointsTo_toks_join fullShare 2); isplitl [Hbr]; · iexact Hbr
    iexact Hbt
  isplitl [Hwo]; · iexact Hwo
  iexact Hbo

/-! ## The TensorCore's arrays -/

/-- The TensorCore's buffers that outlive a kernel are the program's eight arrays. -/
theorem unscopedBufs_eq (d : Dev nD) (W : (b : Ref sig .tc) → Buf (Elt F) ((d.tc : Thread nD τ).loc b)) :
    (unscopedBufs d W : sProp 𝕄)
      = iprop((eLoc d ↦{fullShare} W main_arg0) ∗ (iLoc d ↦{fullShare} W main_arg1) ∗ (wLoc d ↦{fullShare} W main_arg2)
          ∗ (bLoc d ↦{fullShare} W main_arg3) ∗ (woLoc d ↦{fullShare} W main_v0_0) ∗ (boLoc d ↦{fullShare} W main_v0_1)
          ∗ ((SparseCore.T d).loc main_v1 ↦{fullShare} W main_v1) ∗ ((SparseCore.T d).loc main_v2 ↦{fullShare} W main_v2)) := by
  unfold unscopedBufs
  rw [show (Finset.univ.filter fun b : Ref sig .tc => ¬ b.isScoped)
      = {main_arg0, main_arg1, main_arg2, main_arg3, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The reshape -/

variable [FloatOps F]

/-- The gathered bias and the one-row matrix, as the TensorCore names them; the reshape; the two arrays it touches. -/
abbrev v1Loc (d : Dev nD) : Loc nD τ sig := (SparseCore.T d).loc main_v1
abbrev bo' : DevRef τ sig := Proc.devRef .tc (main_v0_1 : Ref sig .tc)
abbrev v1' : DevRef τ sig := Proc.devRef .tc (main_v1 : Ref sig .tc)
abbrev opR : HloOp τ sig (Elt F) := StableHlo.reshape main_v0_1 main_v1 rfl shapeCasts_S1000_S1x1000
abbrev S2 : Finset (DevRef τ sig) := {bo', v1'}

/-- A vector of 1000 entries read as a matrix of one row. -/
def bRow (d : Dev nD) (g : Buf (Elt F) (boLoc d)) : Buf (Elt F) (v1Loc d) :=
  fun i => shapeCast S1x1000 g shapeCasts_S1000_S1x1000 i

omit [FloatOps F] in
/-- Entry (0, j) of the matrix is entry j of the vector: both have row-major position j. -/
theorem bRow_apply (d : Dev nD) (g : Buf (Elt F) (boLoc d)) (j : Fin 1000) :
    bRow d g (ValueIdx.ix2 (0 : Fin 1) j) = g (ValueIdx.ix1 j) := by
  unfold bRow
  refine shapeCast_apply g shapeCasts_S1000_S1x1000 (ix2 (0 : Fin 1) j) (ix1 j) ?_
  show ((⟨1, ![1000]⟩ : Shape).rowMajor (ix1 j)).val = ((⟨2, ![1, 1000]⟩ : Shape).rowMajor (ix2 (0 : Fin 1) j)).val
  rw [Shape.rowMajor_val_one, Shape.rowMajor_val_two]
  show j.val = 0 * 1000 + j.val
  omega

omit [FloatOps F] in
theorem held_S2 (d : Dev nD) (W : Valuation τ sig (Elt F)) :
    (held (T d) S2 W : sProp 𝕄) = iprop((boLoc d ↦{fullShare} W bo') ∗ ((SparseCore.T d).loc main_v1 ↦{fullShare} W v1')) := by
  unfold held S2
  rw [SparseCore.bigSep_insert' (by decide), bigSep_singleton]

/-- A valuation holding the vector at `g` and the matrix at `f1`. -/
def VR [∀ e, Nonempty (Elt F e)] (d : Dev nD) (g : Buf (Elt F) (boLoc d)) (f1 : Buf (Elt F) (v1Loc d)) :
    Valuation τ sig (Elt F) :=
  Function.update (Function.update (fun _ _ => Classical.arbitrary _) v1' f1) bo' g

omit [FloatOps F] in
theorem VR_bo [∀ e, Nonempty (Elt F e)] (d : Dev nD) (g : Buf (Elt F) (boLoc d)) (f1 : Buf (Elt F) (v1Loc d)) :
    VR d g f1 bo' = g := Function.update_self _ _ _
omit [FloatOps F] in
theorem VR_v1 [∀ e, Nonempty (Elt F e)] (d : Dev nD) (g : Buf (Elt F) (boLoc d)) (f1 : Buf (Elt F) (v1Loc d)) :
    VR d g f1 v1' = f1 := by
  unfold VR
  rw [Function.update_of_ne (show v1' ≠ bo' by decide), Function.update_self]

omit [FloatOps F] in
/-- After the reshape the vector is what it was and the matrix is the vector read as one row. -/
theorem held_res [∀ e, Nonempty (Elt F e)] (d : Dev nD) (g : Buf (Elt F) (boLoc d)) (f1 : Buf (Elt F) (v1Loc d)) :
    (held (T d) S2 ((opR (F := F)).result (VR d g f1)) : sProp 𝕄)
      = iprop((boLoc d ↦{fullShare} g) ∗ ((SparseCore.T d).loc main_v1 ↦{fullShare} bRow d g)) := by
  rw [held_S2, (opR (F := F)).result_of_not_mem (VR d g f1) (b := bo') (show bo' ∉ ({v1'} : Finset (DevRef τ sig)) by decide), VR_bo]
  have hv : (opR (F := F)).result (VR d g f1) v1' = bRow d g := by
    refine (StableHlo.reshape_result main_v0_1 main_v1 rfl shapeCasts_S1000_S1x1000 _ _ (VR d g f1)).trans ?_
    funext i
    show shapeCast S1x1000 (VR d g f1 bo') shapeCasts_S1000_S1x1000 i = shapeCast S1x1000 g shapeCasts_S1000_S1x1000 i
    rw [VR_bo]
  rw [hv]

omit [FloatOps F] in
theorem hR : (opR (F := F)).bufs ⊆ S2 := show ({bo', v1'} : Finset (DevRef τ sig)) ⊆ S2 by decide

/-- The reshape as one step of @main: holding the region boundary, the gathered bias and the matrix's buffer whole, the
    rest of the program runs with the matrix holding the bias as one row. -/
theorem reshape_wp [∀ e, Nonempty (Elt F e)] (d : Dev nD) (g : Buf (Elt F) (boLoc d)) (f1 : Buf (Elt F) (v1Loc d))
    {α : Type} (p : Prog (TpuEff nD τ sig (Elt F) (SparseCore.Sig (ΛP (F := F)) 1) .tc) α) (Q : α → sProp 𝕄) :
    iprop(boundary (SparseCore.T d) ∗ (boLoc d ↦{fullShare} g) ∗ ((SparseCore.T d).loc main_v1 ↦{fullShare} f1)
        ∗ (iprop(boundary (SparseCore.T d) ∗ (boLoc d ↦{fullShare} g) ∗ ((SparseCore.T d).loc main_v1 ↦{fullShare} bRow d g))
            -∗ wp frame (wpE ((K (F := F)).defs (D (F := F))) 𝒱 (SparseCore.T d) none) Set.univ p Q))
      ⊢ wp frame (wpE ((K (F := F)).defs (D (F := F))) 𝒱 (SparseCore.T d) none) Set.univ
          (hlo rfl (StableHlo.reshape main_v0_1 main_v1 rfl shapeCasts_S1000_S1x1000) (fun _ => p)) Q := by
  iintro ⟨Hb, Hg, Hf, Hk⟩
  iapply (wp_hlo_within 𝒱 (SparseCore.T d) none Set.univ (op := opR) (S := S2) hR (V := VR d g f1)) $$ [Hb Hg Hf]
  · isplitl [Hb]; · iexact Hb
    rw [held_S2, VR_bo, VR_v1]
    isplitl [Hg]; · iexact Hg
    iexact Hf
  iintro ⟨Hb, Hheld⟩
  ihave Hh := (Entails.of_eq (held_res (F := F) d g f1)) $$ Hheld
  icases Hh with ⟨Hg, Hf⟩
  iapply Hk
  isplitl [Hb]; · iexact Hb
  isplitl [Hg]; · iexact Hg
  iexact Hf

end Cert.KernelIdeal.Hand

end
-- ==== Proof.RegionDataIdeal.lean ====
/-
  The pipelined call's proof data on one core: the four windowed arrays as the region finds them, each window's
  block at a grid point, what the body leaves in each staging buffer, and the body's triple at every point.

  The body reads the block of the first operand at the point (32 rows), the whole gathered weights and the whole
  gathered bias row, and overwrites the whole output block with one payload of the three; what the output block held
  before is read once and never used.
-/
import proofs.«206728_g1443109012240_cont_week2b_750_35_alg».proof.Proof.SetupIdeal
import proofs.«206728_g1443109012240_cont_week2b_750_35_alg».proof.Proof.LibWholeStore
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays and their blocks -/

/-- The four windowed arrays on core `c`, in window order: the gathered weights, the gathered bias row, the first
    operand, the result as the region finds it. -/
def arrs (c : Dev nD) (wg : Vec F S1000x128 .f32) (bg : Vec F S1x1000 .f32) (e : Vec F S512x1000x128 .f32) (o0 : Vec F S512x1000 .f32) :
    (w : Fin cfg1.W) → Buf (Elt F) ((cfg1.win w).arr.view.loc (c : Thread nD τ))
  | ⟨0, _⟩ => wg
  | ⟨1, _⟩ => bg
  | ⟨2, _⟩ => e
  | ⟨3, _⟩ => o0

variable (c : Dev nD) (wg : Vec F S1000x128 .f32) (bg : Vec F S1x1000 .f32) (e : Vec F S512x1000x128 .f32) (o0 : Vec F S512x1000 .f32)

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (arrs c wg bg e o0 w)

/-- An input window's current staging buffer holds its block at every point, fetched there or not, for any proof data
    whose array is the region's and whose body leaves the block in place: where the window is not fetched its block
    index has not moved, and the buffer still holds the block of the point before. -/
theorem before1_0_of (dat : Dat τ (Elt F) (HIx 1) ℕ UU ℕ cfg1 c) (hA : dat.A 0 = arrs c wg bg e o0 0)
    (hafter : ∀ t, dat.after 0 t = iblk c wg bg e o0 0 t) (t : Fin cfg1.N) (d) : dat.before 0 t d = iblk c wg bg e o0 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of (dat : Dat τ (Elt F) (HIx 1) ℕ UU ℕ cfg1 c) (hA : dat.A 1 = arrs c wg bg e o0 1)
    (hafter : ∀ t, dat.after 1 t = iblk c wg bg e o0 1 t) (t : Fin cfg1.N) (d) : dat.before 1 t d = iblk c wg bg e o0 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of (dat : Dat τ (Elt F) (HIx 1) ℕ UU ℕ cfg1 c) (hA : dat.A 2 = arrs c wg bg e o0 2)
    (hafter : ∀ t, dat.after 2 t = iblk c wg bg e o0 2 t) (t : Fin cfg1.N) (d) : dat.before 2 t d = iblk c wg bg e o0 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rE : Rect S32x1000x128 := Rect.unit (s := S32x1000x128) ![0, 0, 0] S32x1000x128.size inb_S32x1000x128_S32x1000x128_0_0_0
abbrev rW : Rect S1000x128 := Rect.unit (s := S1000x128) ![0, 0] S1000x128.size inb_S1000x128_S1000x128_0_0
abbrev rB : Rect S1x1000 := Rect.unit (s := S1x1000) ![0, 0] S1x1000.size inb_S1x1000_S1x1000_0_0
abbrev rO : Rect S32x1000 := Rect.unit (s := S32x1000) ![0, 0] S32x1000.size inb_S32x1000_S32x1000_0_0

/-! ## What the body leaves in the output window's buffer -/

/-- The output window's staging buffer after the body, from the input windows' blocks: its one store, through the whole
    block, of the payload of the three loaded values. -/
def out1_3 (x0 : Vec F S1000x128 .f32) (x1 : Vec F S1x1000 .f32) (x2 : Vec F S32x1000x128 .f32) : Vec F S32x1000 .f32 :=
  View.canon [⟨rO, k1_pay1 (View.ld x2 rE) (View.ld x0 rW) (View.ld x1 rB)⟩]

/-- The store is through the whole block, so it covers it. -/
theorem cover1_3 (p0 : Vec F S32x1000 .f32) (y : S32x1000.Idx) :
    ∃ pc ∈ ([⟨rO, p0⟩] : List (View.Piece (Elt F) S32x1000 .f32)), y ∈ pc.1.set :=
  ⟨_, List.mem_singleton_self _, View.mem_set_unit_zero Cert.LibWholeStore.hz2 inb_S32x1000_S32x1000_0_0 y⟩

/-! ## The body's triple -/

set_option maxHeartbeats 1000000 in
/-- The kernel body on whole staging memrefs, the inputs' at read contents `x0`, `x1`, `x2` and the output's at anything,
    runs to the continuation holding the inputs' as they were and the output's at `out1_3` of the inputs': the four loads
    read what the memrefs hold, the load of the output block is of a value nothing uses, and the one store covers the block. -/
theorem sound_kernel (E : Set ℕ) (i : grid1.Coords) (arg1 : Memref sig .tc .vmem S1000x128 .f32) (harg1 : arg1.IsWhole)
    (arg2 : Memref sig .tc .vmem S1x1000 .f32) (harg2 : arg2.IsWhole) (arg3 : Memref sig .tc .vmem S32x1000x128 .f32) (harg3 : arg3.IsWhole)
    (arg4 : Memref sig .tc .vmem S32x1000 .f32) (harg4 : arg4.IsWhole)
    (x0 : Vec F S1000x128 .f32) (x1 : Vec F S1x1000 .f32) (x2 : Vec F S32x1000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none (c : Thread nD τ) none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipelined call on core `c`: the arrays as the region finds them; after the body at point `t`
    each input's buffer at its block and the output's at `out1_3` of the input blocks; no invariant of the body's own
    (it names nothing but the four staging buffers); nothing owed; full shares. -/
def dat1 : Dat τ (Elt F) (HIx 1) ℕ UU ℕ cfg1 c where
  A w := arrs c wg bg e o0 w
  after w t := match w with
    | ⟨0, _⟩ => iblk c wg bg e o0 0 t
    | ⟨1, _⟩ => iblk c wg bg e o0 1 t
    | ⟨2, _⟩ => iblk c wg bg e o0 2 t
    | ⟨3, _⟩ => out1_3 (iblk c wg bg e o0 0 t) (iblk c wg bg e o0 1 t) (iblk c wg bg e o0 2 t)
  Φ _ := iprop(emp)
  q _ := fullShare
  owed _ := 0

/-- The proof data's arrays are the region-entry contents. -/
theorem A_eq (w : Fin cfg1.W) : (dat1 c wg bg e o0).A w = arrs c wg bg e o0 w := by
  dsimp only [dat1]

/-- What the body leaves, window by window. -/
theorem after1_0 (t : Fin cfg1.N) : (dat1 c wg bg e o0).after 0 t = iblk c wg bg e o0 0 t := by dsimp only [dat1]
theorem after1_1 (t : Fin cfg1.N) : (dat1 c wg bg e o0).after 1 t = iblk c wg bg e o0 1 t := by dsimp only [dat1]
theorem after1_2 (t : Fin cfg1.N) : (dat1 c wg bg e o0).after 2 t = iblk c wg bg e o0 2 t := by dsimp only [dat1]
theorem after1_3 (t : Fin cfg1.N) : (dat1 c wg bg e o0).after 3 t
    = out1_3 (iblk c wg bg e o0 0 t) (iblk c wg bg e o0 1 t) (iblk c wg bg e o0 2 t) := by dsimp only [dat1]

/-- Each input's current staging buffer holds its block at every point, fetched there or not. -/
theorem before1_0 (t : Fin cfg1.N) (d) : (dat1 c wg bg e o0).before 0 t d = iblk c wg bg e o0 0 t :=
  before1_0_of c wg bg e o0 (dat1 c wg bg e o0) (A_eq c wg bg e o0 0) (after1_0 c wg bg e o0) t d
theorem before1_1 (t : Fin cfg1.N) (d) : (dat1 c wg bg e o0).before 1 t d = iblk c wg bg e o0 1 t :=
  before1_1_of c wg bg e o0 (dat1 c wg bg e o0) (A_eq c wg bg e o0 1) (after1_1 c wg bg e o0) t d
theorem before1_2 (t : Fin cfg1.N) (d) : (dat1 c wg bg e o0).before 2 t d = iblk c wg bg e o0 2 t :=
  before1_2_of c wg bg e o0 (dat1 c wg bg e o0) (A_eq c wg bg e o0 2) (after1_2 c wg bg e o0) t d

/-! ## The body obligation, at a generic point -/

/-- What the body is called with at point `t`, the windows one by one, -/
def bodyPre (t : Fin cfg1.N) : sProp 𝕄 :=
  iprop((dat1 c wg bg e o0).Φ t.castSucc ∗ (dat1 c wg bg e o0).owesAt none t.castSucc
    ∗ (∃ d, owns (c : Thread nD τ) (st1_0 t) fullShare ((dat1 c wg bg e o0).before 0 t d))
    ∗ (∃ d, owns (c : Thread nD τ) (st1_1 t) fullShare ((dat1 c wg bg e o0).before 1 t d))
    ∗ (∃ d, owns (c : Thread nD τ) (st1_2 t) fullShare ((dat1 c wg bg e o0).before 2 t d))
    ∗ (∃ d, owns (c : Thread nD τ) (st1_3 t) fullShare ((dat1 c wg bg e o0).before 3 t d)))

/-- and what it returns. -/
def bodyPost (t : Fin cfg1.N) : sProp 𝕄 :=
  iprop((dat1 c wg bg e o0).Φ t.succ ∗ (dat1 c wg bg e o0).owesAt none t.succ
    ∗ owns (c : Thread nD τ) (st1_0 t) fullShare ((dat1 c wg bg e o0).after 0 t)
    ∗ owns (c : Thread nD τ) (st1_1 t) fullShare ((dat1 c wg bg e o0).after 1 t)
    ∗ owns (c : Thread nD τ) (st1_2 t) fullShare ((dat1 c wg bg e o0).after 2 t)
    ∗ owns (c : Thread nD τ) (st1_3 t) fullShare ((dat1 c wg bg e o0).after 3 t))

/-- The body at any point: the inputs' memrefs hold their blocks, so the body's triple applies; the invariant and the
    core's debts pass through unread. -/
theorem sound_body (t : Fin cfg1.N) :
    bodyPre c wg bg e o0 t ⊢ wp frame (wpE (defs₀ (F := F)) Variants.none (c : Thread nD τ) none) Set.univ (bodyAt1 t) (fun _ => bodyPost c wg bg e o0 t) := by
  unfold bodyPre bodyPost bodyAt1
  simp only [before1_0, before1_1, before1_2]
  rw [show (dat1 c wg bg e o0).Φ t.succ = (dat1 c wg bg e o0).Φ t.castSucc from rfl,
    show (dat1 c wg bg e o0).owesAt none t.succ = (dat1 c wg bg e o0).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk c wg bg e o0 0 t) (iblk c wg bg e o0 1 t) (iblk c wg bg e o0 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation : BodyObligation (dat1 (F := F) c wg bg e o0) (defs₀ (F := F)) Variants.none none Set.univ := fun t => by
  rw [bigSep_W1, bigSep_W1]
  exact sound_body c wg bg e o0 t

end Cert.KernelIdeal.Hand

end
-- ==== Proof.RegionIdeal.lean ====
/-
  The pipelined call as ONE step of the program on a core: entered holding the four windowed arrays whole and the core
  owing nothing, it returns holding the three operands as they were and the result array at what the sixteen
  write-backs leave in it.
-/
import proofs.«206728_g1443109012240_cont_week2b_750_35_alg».proof.Proof.RegionDataIdeal
import Idealize.ShloMosaic.Lib.Pipeline.Regions
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data of the program's one pipeline, and what it leaves in the result array -/

/-- The proof data, for the launch's family of pipelines (one) on every core. -/
def pdats (wg : Vec F S1000x128 .f32) (bg : Vec F S1x1000 .f32) (e : Vec F S512x1000x128 .f32) (o0 : Vec F S512x1000 .f32) :
    (p : Fin 1) → (c : Dev nD) → Dat τ (Elt F) (HIx 1) ℕ UU ℕ (Pipeline.pin (pcfgs (F := F)) adm p) c :=
  fun _ c => dat1 c wg bg e o0

/-- What the region leaves in the result array: its contents after the write-backs of all sixteen points. -/
def regionOut (d : Dev nD) (wg : Vec F S1000x128 .f32) (bg : Vec F S1x1000 .f32) (e : Vec F S512x1000x128 .f32) (o0 : Vec F S512x1000 .f32) :
    Vec F S512x1000 .f32 :=
  (dat1 d wg bg e o0).arrAt 3 cfg1.N

variable (wg : Vec F S1000x128 .f32) (bg : Vec F S1x1000 .f32) (e : Vec F S512x1000x128 .f32) (o0 : Vec F S512x1000 .f32)

/-- A conjunction over no index is empty. -/
theorem bigSep_none {M : Type} [URA M] (Φ : Fin 0 → sProp M) : bigSep Finset.univ Φ = (BI.emp : sProp M) :=
  bigSep_univ_eq_bigSepL [] (by decide) (by decide) Φ

/-- The pipeline has no prefetched table, -/
theorem prefHeld1 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _
/-- and the core no scoped buffer besides its staging buffers. -/
theorem scopedRest1 (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

/-- The core's debts as a pipeline point's, for a proof data that owes nothing and bounds its recorded pairs by
    nothing; and back. -/
theorem owesAt_intro {cfg : Pipeline.Cfg sig Λ₀} {c : Dev nD} (dat : Pipeline.Dat τ (Elt F) (HIx 1) ℕ UU ℕ cfg c) (t : Fin (cfg.N + 1))
    (h0 : dat.owed t = 0) (hr : dat.recorded t = Set.univ) :
    iprop(∃ W, owes (c : Thread nD τ) (0 : CellTallies nD τ sig (HIx 1)) W) ⊢ (dat.owesAt none t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Pipeline.Cfg sig Λ₀} {c : Dev nD} (dat : Pipeline.Dat τ (Elt F) (HIx 1) ℕ UU ℕ cfg c) (t : Fin (cfg.N + 1))
    (h0 : dat.owed t = 0) :
    (dat.owesAt none t : sProp 𝕄) ⊢ iprop(∃ W, owes (c : Thread nD τ) (0 : CellTallies nD τ sig (HIx 1)) W) := by
  unfold Pipeline.Dat.owesAt Pipeline.owesWithin; rw [h0]
  iintro ⟨%W, -, HO⟩; iexists W; iexact HO

/-- The four arrays of the pipeline, at any contents, one by one. -/
theorem arrays1_eq (c : Dev nD) (Fa : (w : Fin cfg1.W) → Buf (Elt F) ((cfg1.win w).arr.view.loc (c : Thread nD τ))) :
    ((pdats wg bg e o0 0 c).arrays Fa : sProp 𝕄)
      = iprop(((SparseCore.T c : Thread nD τ).loc main_v0_0 ↦{fullShare} Fa 0) ∗ ((SparseCore.T c : Thread nD τ).loc main_v1 ↦{fullShare} Fa 1) ∗ ((SparseCore.T c : Thread nD τ).loc main_arg0 ↦{fullShare} Fa 2)
          ∗ ((SparseCore.T c : Thread nD τ).loc main_v2 ↦{fullShare} Fa 3)) := by
  rw [Pipeline.arrays_eq (Pipeline.pin (pcfgs (F := F)) adm) (pdats wg bg e o0) 0 c arr_whole1
    (fun w => (dat1 c wg bg e o0).share_full (fun _ => rfl) w), bigSep_W1]

/-! ## The region -/

variable (L : GSem nD τ sig → Finset (HIx 1)) (lv : GSem nD τ sig → HIx 1 → ℕ)

/-- The region: entered from the four arrays whole and the core owing nothing; nothing enters the body's invariant and
    nothing bypasses the region; it leaves the operands as they were and the result at `regionOut`. -/
def reg1 : Pipeline.RegionSeg (pcfgs (F := F)) adm (pdats wg bg e o0) (none : HIx 1) defs₀ 𝒱₀ L lv 0 where
  win := winFacts1.to₀
  block_pos := block_pos1
  stage_whole := stage_whole1
  K := PEmpty
  osem k := k.elim
  ho := Pipeline.OwnSemFacts.none _
  hbody c := (body_obligation c wg bg e o0).loose
  hwaits := Pipeline.hwaits_of_owed_zero (pcfgs (F := F)) adm (pdats wg bg e o0) (none : HIx 1) L lv 0 fun _ _ => rfl
  pre c := iprop(((SparseCore.T c : Thread nD τ).loc main_v0_0 ↦{fullShare} wg) ∗ ((SparseCore.T c : Thread nD τ).loc main_v1 ↦{fullShare} bg) ∗ ((SparseCore.T c : Thread nD τ).loc main_arg0 ↦{fullShare} e)
    ∗ ((SparseCore.T c : Thread nD τ).loc main_v2 ↦{fullShare} o0) ∗ ∃ W, owes (SparseCore.T c : Thread nD τ) (0 : CellTallies nD τ sig (HIx 1)) W)
  post c := iprop(((SparseCore.T c : Thread nD τ).loc main_v0_0 ↦{fullShare} wg) ∗ ((SparseCore.T c : Thread nD τ).loc main_v1 ↦{fullShare} bg) ∗ ((SparseCore.T c : Thread nD τ).loc main_arg0 ↦{fullShare} e)
    ∗ ((SparseCore.T c : Thread nD τ).loc main_v2 ↦{fullShare} regionOut c wg bg e o0) ∗ ∃ W, owes (SparseCore.T c : Thread nD τ) (0 : CellTallies nD τ sig (HIx 1)) W)
  X _ := iprop(emp)
  Y _ := iprop(emp)
  Z _ := iprop(emp)
  hentry c := by
    rw [Pipeline.ownSems0_none, arrays1_eq, prefHeld1]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · iempintro
    isplitl [HO]; · iapply (owesAt_intro (pdats wg bg e o0 0 c) 0 rfl rfl); iexact HO
    isplitr <;> iempintro
  hin c := by
    rw [show (pdats wg bg e o0 0 c).Φ 0 = iprop(emp) from rfl]
    iintro -; iempintro
  hout c := by
    rw [show (pdats wg bg e o0 0 c).Φ (Fin.last _) = iprop(emp) from rfl, Pipeline.ownSems0_none, scopedRest1]
    iintro -
    isplitr; · iempintro
    isplitr <;> iempintro
  hexit c := by
    rw [arrays1_eq]
    iintro ⟨⟨H0, H1, H2, H3⟩, HO, -, -⟩
    imodintro
    isplitl [H0]; · iexact H0
    isplitl [H1]; · iexact H1
    isplitl [H2]; · iexact H2
    isplitl [H3]; · iexact H3
    iapply (owesAt_elim (pdats wg bg e o0 0 c) _ rfl); iexact HO

/-- The thread states the region is entered from and leaves, spelt out. -/
theorem reg1_pre (c : Dev nD) : (reg1 wg bg e o0 L lv).pre c
    = iprop(((SparseCore.T c : Thread nD τ).loc main_v0_0 ↦{fullShare} wg) ∗ ((SparseCore.T c : Thread nD τ).loc main_v1 ↦{fullShare} bg)
        ∗ ((SparseCore.T c : Thread nD τ).loc main_arg0 ↦{fullShare} e) ∗ ((SparseCore.T c : Thread nD τ).loc main_v2 ↦{fullShare} o0)
        ∗ ∃ W, owes (SparseCore.T c : Thread nD τ) (0 : CellTallies nD τ sig (HIx 1)) W) := rfl
theorem reg1_post (c : Dev nD) : (reg1 wg bg e o0 L lv).post c
    = iprop(((SparseCore.T c : Thread nD τ).loc main_v0_0 ↦{fullShare} wg) ∗ ((SparseCore.T c : Thread nD τ).loc main_v1 ↦{fullShare} bg)
        ∗ ((SparseCore.T c : Thread nD τ).loc main_arg0 ↦{fullShare} e) ∗ ((SparseCore.T c : Thread nD τ).loc main_v2 ↦{fullShare} regionOut c wg bg e o0)
        ∗ ∃ W, owes (SparseCore.T c : Thread nD τ) (0 : CellTallies nD τ sig (HIx 1)) W) := rfl

/-! ## The region as one step of the program -/

/-- ONE STEP: on device `d`'s TensorCore, from the boundary, the four arrays held whole at `wg`, `bg`, `e`, `o0`, the core
    owing nothing, the level facts and the pipeline's ghost state, the call of the pipeline's entry runs to the boundary,
    the three operands as they were, the result array at `regionOut` and the core owing nothing, for the continuation. -/
theorem region_wp [∀ e, Nonempty (Elt F e)] (d : Dev nD) (wg : Buf (Elt F) ((SparseCore.T d : Thread nD τ).loc main_v0_0))
    (bg : Buf (Elt F) ((SparseCore.T d : Thread nD τ).loc main_v1)) (e : Buf (Elt F) ((SparseCore.T d : Thread nD τ).loc main_arg0))
    (o0 : Buf (Elt F) ((SparseCore.T d : Thread nD τ).loc main_v2))
    {α : Type} (k : PUnit → Prog (TpuEff nD τ sig (Elt F) (ΛP (F := F)) .tc) α) (Q : α → sProp 𝕄) :
    iprop((iprop(boundary (SparseCore.T d : Thread nD τ) ∗ ((SparseCore.T d : Thread nD τ).loc main_v0_0 ↦{fullShare} wg)
            ∗ ((SparseCore.T d : Thread nD τ).loc main_v1 ↦{fullShare} bg) ∗ ((SparseCore.T d : Thread nD τ).loc main_arg0 ↦{fullShare} e)
            ∗ ((SparseCore.T d : Thread nD τ).loc main_v2 ↦{fullShare} regionOut d wg bg e o0)
            ∗ ∃ W, owes (SparseCore.T d : Thread nD τ) (0 : CellTallies nD τ sig (HIx 1)) W)
          -∗ wp frame (wpE (D (F := F)) 𝒱 (SparseCore.T d : Thread nD τ) none) Set.univ (k ⟨⟩) Q)
        ∗ boundary (SparseCore.T d : Thread nD τ) ∗ ((SparseCore.T d : Thread nD τ).loc main_v0_0 ↦{fullShare} wg)
        ∗ ((SparseCore.T d : Thread nD τ).loc main_v1 ↦{fullShare} bg) ∗ ((SparseCore.T d : Thread nD τ).loc main_arg0 ↦{fullShare} e)
        ∗ ((SparseCore.T d : Thread nD τ).loc main_v2 ↦{fullShare} o0)
        ∗ (∃ W, owes (SparseCore.T d : Thread nD τ) (0 : CellTallies nD τ sig (HIx 1)) W)
        ∗ levAts L lv ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d : Thread nD τ) none) Set.univ (.op (.customCall (Pipeline.entry 0) ()) k) Q := by
  have h := Pipeline.RegionSeg.wp (pcfgs (F := F)) adm (pdats wg bg e o0) (none : HIx 1) cellOf_inj EP defs₀ 𝒱₀ L lv (reg1 wg bg e o0 L lv) d none
    (fun _ hu => by cases hu) k Q
  rw [reg1_pre, reg1_post] at h
  iintro ⟨Hk, Hb, H0, H1, H2, H3, HO, HL, HG, HT⟩
  iapply h
  isplitl [Hk]; · iexact Hk
  isplitl [Hb]; · iexact Hb
  isplitl [H0 H1 H2 H3 HO]
  · isplitl [H0]; · iexact H0
    isplitl [H1]; · iexact H1
    isplitl [H2]; · iexact H2
    isplitl [H3]; · iexact H3
    iexact HO
  isplitl [HL]; · iexact HL
  isplitl [HG]; · iexact HG
  iexact HT

end Cert.KernelIdeal.Hand

end
-- ==== Proof.MainIdeal.lean ====
/-
  The whole program's run. @main on the TensorCore hands the index array, the table, the bias and the two result
  arrays to the SparseCores and gets them back with the rows gathered; views the gathered bias as a row; and runs the
  pipelined call that contracts every cell's embeddings against the gathered weights and adds the gathered bias.
  Every weakly fair execution terminates with the four inputs unchanged and the result holding, block by block,
  what the pipelined call computes from the gathered arrays.
-/
import proofs.«206728_g1443109012240_cont_week2b_750_35_alg».proof.Proof.TileIdeal
import proofs.«206728_g1443109012240_cont_week2b_750_35_alg».proof.Proof.TcSideIdeal
import proofs.«206728_g1443109012240_cont_week2b_750_35_alg».proof.Proof.RegionIdeal

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev v2Loc (d : Dev nD) : Loc nD τ sig := (SparseCore.T d).loc main_v2

variable [FloatOps F]

/-- What the result array holds at the end: the pipelined call's value at the gathered weights, the gathered bias
    as a row, and the embeddings. -/
abbrev outK (d : Dev nD) : Buf (Elt F) (v2Loc d) :=
  regionOut d (Wg m d) (bRow d (Bg m d)) (m (eLoc d)) (m (v2Loc d))

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What @main starts from beside its arrays: the staging cells' ghost state of the pipelined call. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem ownU_split (a : UH) (b : UP × Counters) :
    (ownU (a, b) : sProp 𝕄) ⊢ iprop(BI.own (EH a)
      ∗ BI.own (((Emb.inr : Emb (UP × Counters) UU).trans (uEmb (nD := nD) (sig := sig) (Ix := HIx 1) (Val := Elt F) (Name := ℕ) (U := UU) (Lvl := ℕ)).toEmb) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  unfold u₀
  iintro Hu
  ihave H := (ownU_split _ _) $$ Hu
  icases H with ⟨HH, HR⟩
  ihave H2 := (own_pair_emb _ _ _) $$ HR
  icases H2 with ⟨HP, -⟩
  ihave HP' := (show BI.own ((((Emb.inl : Emb UP (UP × Counters)).trans ((Emb.inr : Emb (UP × Counters) UU).trans (uEmb (nD := nD) (sig := sig) (Ix := HIx 1) (Val := Elt F) (Name := ℕ) (U := UU) (Lvl := ℕ)).toEmb)))
      (initOf (Pipeline.cells (Pipeline.pin (pcfgs (F := F)) adm) cellOf_inj) (Pipeline.launchToks (Pipeline.pin (pcfgs (F := F)) adm) cellOf_inj)))
      ⊢ (BI.own (EP (initOf (Pipeline.cells (Pipeline.pin (pcfgs (F := F)) adm) cellOf_inj) (Pipeline.launchToks (Pipeline.pin (pcfgs (F := F)) adm) cellOf_inj))) : sProp 𝕄)
      from BI.Entails.refl _) $$ HP
  imod (Pipeline.fund_ghost (Pipeline.pin (pcfgs (F := F)) adm) EP cellOf_inj) $$ HP' with ⟨Hcg, Htk⟩
  imodintro
  isplitl [HH]; · iexact HH
  isplitl [Hcg Htk]
  · unfold Gh
    rw [bigSep_sep']
    isplitl [Hcg]
    · iapply (Entails.of_eq (bigSep_congr fun (c : Dev nD) _ => bigSep_univ_of_subsingleton (Φ := fun p : Fin 1 => Pipeline.cellsGhost (Pipeline.pin (pcfgs (F := F)) adm) EP p c) (0 : Fin 1))); iexact Hcg
    · iapply (Entails.of_eq (bigSep_congr fun (c : Dev nD) _ => bigSep_univ_of_subsingleton (Φ := fun p : Fin 1 => Pipeline.toksInit (Pipeline.pin (pcfgs (F := F)) adm) EP p c) (0 : Fin 1))); iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- With one SparseCore call every level is at most 7: the bound on the TensorCore's recorded waits is vacuous. -/
theorem wbelow_any (d : Dev nD) (W : Waits sig (HIx 1)) : (K (F := F)).WBelow (SparseCore.T d) W (8 * 1) := by
  intro p _
  rcases hp : p.2 with _ | q
  · rw [(K (F := F)).lev_none]; omega
  · have := (K (F := F)).lev_some_le (SparseCore.T d, p.1) q
    have hq : q.val = 0 := by omega
    omega

/-- The TensorCore's state after the call, with what it owes (nothing) taken out and put back. -/
theorem tcSt_owes (d : Dev nD) :
    ((K (F := F)).tcSt EH d 1 : sProp 𝕄)
      ⊢ iprop((∃ W, owes (SparseCore.T d) (0 : CellTallies nD τ sig (HIx 1)) W)
          ∗ ((∃ W, owes (SparseCore.T d) (0 : CellTallies nD τ sig (HIx 1)) W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr
    · ipureintro; exact wbelow_any d W'
    · iexact HO
  · iexact Hrest

/-- What @main leaves the claim. -/
abbrev FIN (d : Dev nD) : sProp 𝕄 :=
  iprop((eLoc d ↦{fullShare} m (eLoc d)) ∗ (iLoc d ↦{fullShare} m (iLoc d)) ∗ (wLoc d ↦{fullShare} m (wLoc d)) ∗ (bLoc d ↦{fullShare} m (bLoc d))
    ∗ (v2Loc d ↦{fullShare} outK m d))

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hbd, ⟨He, Hi, Hw, Hb, Hwo, Hbo, Hv1, Hv2⟩, -, -⟩, ⟨Hcg, Htk⟩⟩
  ihave Hlv := (SparseCore.Cfg.ctx_levAts κ) $$ Hctx
  ihave Hs := (tc_split m d) $$ [Hi Hw Hb Hwo Hbo]
  · isplitl [Hi]; · iexact Hi
    isplitl [Hw]; · iexact Hw
    isplitl [Hb]; · iexact Hb
    isplitl [Hwo]; · iexact Hwo
    iexact Hbo
  icases Hs with ⟨Hrem, Hsts⟩
  -- the gather on the SparseCores
  iapply ((K (F := F)).wp_run (D (F := F)) 𝒱 (EH := EH) (P := P m) κ d 0) $$ [Hst Hsts Hrem Hbd He Hv1 Hv2 Hcg Htk Hlv]
  isplitr; · iexact Hctx
  isplitl [Hst]; · iexact Hst
  isplitl [Hsts]; · iexact Hsts
  iintro ⟨Hst, Hdn⟩
  ihave Hj := (tc_join m d) $$ [Hrem Hdn]
  · isplitl [Hrem]; · iexact Hrem
    iexact Hdn
  icases Hj with ⟨Hi, Hw, Hb, Hwo, Hbo⟩
  -- the gathered bias viewed as a row
  iapply (reshape_wp d (Bg m d) _ (Prog.ret PUnit.unit) _) $$ [Hbd Hbo Hv1 Hst Hi Hw Hb Hwo He Hv2 Hcg Htk Hlv]
  isplitl [Hbd]; · iexact Hbd
  isplitl [Hbo]; · iexact Hbo
  isplitl [Hv1]; · iexact Hv1
  iintro ⟨Hbd, Hbo, Hv1⟩
  rw [wp_ret]; imodintro
  -- the pipelined call
  ihave Hst1 := (show ((K (F := F)).tcSt EH d ((0 : Fin 1).val + 1) : sProp 𝕄) ⊢ (K (F := F)).tcSt EH d 1 from BI.Entails.refl _) $$ Hst
  ihave Hso := (tcSt_owes d) $$ Hst1
  icases Hso with ⟨HO, Hback⟩
  iapply ((K (F := F)).wp_liftProg (D (F := F)) 𝒱 (SparseCore.T d) Set.univ none
    (Prog.op (TpuEff.customCall (Pipeline.entry (0 : Fin 1)) ()) fun _ => Prog.ret PUnit.unit) _)
  iapply (region_wp (K (F := F)).L (K (F := F)).lev d (Wg m d) (bRow d (Bg m d)) (m (eLoc d)) (m (v2Loc d)) (fun _ => Prog.ret PUnit.unit) _)
  isplitr [Hbd Hwo Hv1 He Hv2 HO Hlv Hcg Htk]
  · iintro ⟨Hbd, Hwo, Hv1, He, Hv2, HO⟩
    rw [wp_ret]; imodintro; imodintro
    isplitl [Hback HO]; · iapply Hback; iexact HO
    isplitl [He]; · iexact He
    isplitl [Hi]; · iexact Hi
    isplitl [Hw]; · iexact Hw
    isplitl [Hb]; · iexact Hb
    iexact Hv2
  isplitl [Hbd]; · iexact Hbd
  isplitl [Hwo]; · iexact Hwo
  isplitl [Hv1]; · iexact Hv1
  isplitl [He]; · iexact He
  isplitl [Hv2]; · iexact Hv2
  isplitl [HO]; · iexact HO
  isplitl [Hlv]; · iexact Hlv
  isplitl [Hcg]; · iexact Hcg
  iexact Htk

/-! ## The claim read off the final memory -/

def fq (d : Dev nD) (s' : Phys nD τ sig (Elt F)) : Prop :=
  s'.mem.mem (eLoc d) = m (eLoc d) ∧ s'.mem.mem (iLoc d) = m (iLoc d) ∧ s'.mem.mem (wLoc d) = m (wLoc d) ∧ s'.mem.mem (bLoc d) = m (bLoc d)
    ∧ s'.mem.mem (v2Loc d) = outK m d

theorem hfin (d : Dev nD) (s' : Phys nD τ sig (Elt F)) : iprop(FIN m d ∗ SI s') ⊢ (⌜fq m d s'⌝ : sProp 𝕄) := by
  iintro ⟨⟨He, Hi, Hw, Hb, Hv2⟩, HSI⟩
  icombine HSI He gives %he
  icombine HSI Hi gives %hi
  icombine HSI Hw gives %hw
  icombine HSI Hb gives %hb
  icombine HSI Hv2 gives %hv
  ipureintro
  exact ⟨Buf.eq_of_forall_mem_univ he, Buf.eq_of_forall_mem_univ hi, Buf.eq_of_forall_mem_univ hw, Buf.eq_of_forall_mem_univ hb, Buf.eq_of_forall_mem_univ hv⟩

/-! ## The run -/

def QC : PUnit × MemSt nD τ sig (Elt F) → Prop := fun r => ∀ c : Dev nD,
  r.2.mem (eLoc c) = m (eLoc c) ∧ r.2.mem (iLoc c) = m (iLoc c) ∧ r.2.mem (wLoc c) = m (wLoc c) ∧ r.2.mem (bLoc c) = m (bLoc c)
    ∧ r.2.mem (v2Loc c) = outK m c

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (Gh (F := F)) (FIN m) (u₀ (F := F)) (sep_elim_left.trans (hu₀ m)) (hmain m ρ) (fq m) (hfin m) (QC m) (fun _ h => h)

end Cert.KernelIdeal.Hand

end
-- ==== Proof.RegionValueIdeal.lean ====
/-
  What the pipelined call leaves in the result array, at the ideal values, index by index:
  row `n`, column `g` holds  Σ_k e[n, g, k] · w[g, k]  +  b[0, g].

  The body's payload at an index of its 32-row block is that expression of the block of `e` at the grid point, the
  whole weights and the whole bias row: the broadcasts read the weights and the bias at the trailing coordinates, the
  transpose exchanges the two trailing axes, and the reduction over the middle axis of the transposed product is the
  sum over the 128 lanes (the accumulator is the sum's neutral element). Grid point `t` writes rows 32·t … 32·t+31,
  so the sixteen blocks tile the array and row `n` is written by point `n / 32`.
-/
import proofs.«206728_g1443109012240_cont_week2b_750_35_alg».proof.Proof.RegionIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.SparseCore.Cfg (HIx)
open Idealize.ShloMosaic.Pipeline (Dat)

/-! ## The payload at an index -/

theorem hz3 : (![0, 0, 0] : Fin 3 → Nat) = fun _ => 0 := by
  funext a; match a with | ⟨0, _⟩ => rfl | ⟨1, _⟩ => rfl | ⟨2, _⟩ => rfl

/-- The reduction over the middle axis, with the sum's neutral element as accumulator, read at an index: the sum over
    that axis's 128 coordinates. -/
theorem lane_sum (src : FVec Ideal S32x128x1000 .f32) (hφ : FKind.Formats .f32)
    (hacc : (0x00000000#32 : BitVec 32) = FKind.add.neutral .f32 hφ) (j : S32x1000.Idx) :
    multiReduction .add [1] S32x1000 src 0x00000000#32 reduces_S32x128x1000_S32x1000 hφ hacc j
      = ∑ k : Fin 128, src (ix3 (n0 := 32) (n1 := 128) (n2 := 1000) (j 0) k (j 1)) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

/-- The body's payload at row `a`, column `b` of the block: the lane sum of the products, plus the bias. -/
theorem k1_pay1_apply (v0 : Vec Ideal S32x1000x128 .f32) (v1 : Vec Ideal S1000x128 .f32) (v8 : Vec Ideal S1x1000 .f32)
    (a : Fin 32) (b : Fin 1000) :
    k1_pay1 v0 v1 v8 (ix2 a b) = (∑ k : Fin 128, v0 (ix3 a b k) * v1 (ix2 b k)) + v8 (ix2 (0 : Fin 1) b) := by
  unfold k1_pay1
  rw [addf_apply]
  refine congrArg₂ (· + ·) ?_ ?_
  · refine (lane_sum _ _ _ (ix2 a b)).trans ?_
    refine Finset.sum_congr rfl fun k _ => ?_
    rw [transpose_apply [0, 2, 1] _ _ _ (ix3 a b k) (fun c => by match c with | ⟨0, _⟩ => rfl | ⟨1, _⟩ => rfl | ⟨2, _⟩ => rfl)]
    rw [mulf_apply]
    congr 1
    rw [broadcastTo_apply _ _ (ix3 a b k) (ix3 (0 : Fin 1) b k) (fun c => by match c with | ⟨0, _⟩ => rfl | ⟨1, _⟩ => rfl | ⟨2, _⟩ => rfl)]
    rw [shapeCast_addUnit_apply ![1000, 128], shapeCast_self]
    exact congrArg v1 (funext fun c => by match c with | ⟨0, _⟩ => rfl | ⟨1, _⟩ => rfl)
  · rw [broadcastTo_apply _ _ (ix2 a b) (ix2 (0 : Fin 1) b) (fun c => by match c with | ⟨0, _⟩ => rfl | ⟨1, _⟩ => rfl), shapeCast_self]

/-! ## From blocks to the array -/

variable (d : Dev nD) (wg : Vec Ideal S1000x128 .f32) (bg : Vec Ideal S1x1000 .f32) (e : Vec Ideal S512x1000x128 .f32) (o0 : Vec Ideal S512x1000 .f32)

/-- What the result array ends holding, index by index. -/
def G : Vec Ideal S512x1000 .f32 := fun i =>
  (∑ k : Fin 128, e (ix3 (n0 := 512) (n1 := 1000) (i 0) (i 1) k) * wg (ix2 (n0 := 1000) (i 1) k)) + bg (ix2 (0 : Fin 1) (n1 := 1000) (i 1))

/-- The printed index maps, decided over the grid: the first operand's and the result's blocks move with the grid point
    along the leading axis, the weights' and the bias's stay. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- WHAT POINT `t` WRITES BACK is block `t` of `G`. -/
theorem flushed3_eq (t : Fin cfg1.N) :
    (dat1 (F := Ideal) d wg bg e o0).flushed 3 t = ((cfg1.win 3).blk t).view.read (Elt Ideal) (G wg bg e) := by
  show (cfg1.win 3).cut (grid1.coords t) ((dat1 d wg bg e o0).after 3 t) = _
  rw [after1_3]
  unfold out1_3
  rw [View.canon_unit_zero Cert.LibWholeStore.hz2]
  simp only [View.ld_unit_zero (S := S1000x128) Cert.LibWholeStore.hz2, View.ld_unit_zero (S := S1x1000) Cert.LibWholeStore.hz2,
    View.ld_unit_zero (S := S32x1000x128) hz3]
  obtain ⟨e00, e01, e10, e11, e20, e21, e22, e30, e31⟩ := idx_facts t
  refine funext fun (j : S32x1000.Idx) => ?_
  obtain ⟨a, b, rfl⟩ : ∃ (a : Fin 32) (b : Fin 1000), j = ix2 a b := ⟨j 0, j 1, eq_ix2 j⟩
  show k1_pay1 (iblk d wg bg e o0 2 t) (iblk d wg bg e o0 0 t) (iblk d wg bg e o0 1 t) (ix2 a b)
    = G wg bg e (((cfg1.win 3).blk t).view.emb (ix2 a b))
  rw [k1_pay1_apply]
  unfold G
  have h3a : ((((cfg1.win 3).blk t).view.emb (ix2 a b)) 0).val = t.val * 32 + a.val := by
    show win1_3.index t (0 : Fin 2) * 32 + 1 * a.val = _; omega
  have h3b : ((((cfg1.win 3).blk t).view.emb (ix2 a b)) 1).val = b.val := by
    show win1_3.index t (1 : Fin 2) * 1000 + 1 * b.val = _; omega
  congr 1
  · refine Finset.sum_congr rfl fun k _ => ?_
    congr 1
    · show e (((cfg1.win 2).blk t).view.emb (ix3 a b k)) = _
      refine congrArg e (funext fun c => Fin.ext ?_)
      match c with
      | ⟨0, _⟩ => show win1_2.index t (0 : Fin 3) * 32 + 1 * a.val = _; rw [h3a]; omega
      | ⟨1, _⟩ => show win1_2.index t (1 : Fin 3) * 1000 + 1 * b.val = _; rw [h3b]; omega
      | ⟨2, _⟩ => show win1_2.index t (2 : Fin 3) * 128 + 1 * k.val = k.val; omega
    · show wg (((cfg1.win 0).blk t).view.emb (ix2 b k)) = _
      refine congrArg wg (funext fun c => Fin.ext ?_)
      match c with
      | ⟨0, _⟩ => show win1_0.index t (0 : Fin 2) * 1000 + 1 * b.val = _; rw [h3b]; omega
      | ⟨1, _⟩ => show win1_0.index t (1 : Fin 2) * 128 + 1 * k.val = k.val; omega
  · show bg (((cfg1.win 1).blk t).view.emb (ix2 (0 : Fin 1) b)) = _
    refine congrArg bg (funext fun c => Fin.ext ?_)
    match c with
    | ⟨0, _⟩ => show win1_1.index t (0 : Fin 2) * 1 + 1 * 0 = 0; omega
    | ⟨1, _⟩ => show win1_1.index t (1 : Fin 2) * 1000 + 1 * b.val = _; rw [h3b]; omega

/-- An index of the array is in point `t`'s block iff each coordinate is in the block's range on its axis. -/
theorem mem_blk3 (t : Fin cfg1.N) (i : S512x1000.Idx) :
    i ∈ ((cfg1.win 3).blk t).view.set ↔ ∀ a : Fin 2, win1_3.index t a * S32x1000.size a ≤ (i a).val ∧ (i a).val < win1_3.index t a * S32x1000.size a + S32x1000.size a := by
  show i ∈ ((View.whole main_v2).slice (win1_3.rect t)).set ↔ _
  rw [View.set_slice_whole, Rect.mem_set_unit]
  exact Iff.rfl

/-- Every index is in SOME point's block: row `n` in that of point `n / 32`. -/
theorem covered3 (i : S512x1000.Idx) : ∃ t : Fin cfg1.N, (cfg1.win 3).flush t = true ∧ i ∈ ((cfg1.win 3).blk t).view.set := by
  have hi0 : (i 0).val < 512 := (i 0).isLt
  have hi1 : (i 1).val < 1000 := (i 1).isLt
  refine ⟨⟨(i 0).val / 32, by rw [show cfg1.N = 16 from N_1]; omega⟩, flush1_3 _, ?_⟩
  rw [mem_blk3]
  obtain ⟨-, -, -, -, -, -, -, e30, e31⟩ := idx_facts ⟨(i 0).val / 32, by rw [show cfg1.N = 16 from N_1]; omega⟩
  intro a
  match a with
  | ⟨0, _⟩ => show win1_3.index _ (0 : Fin 2) * 32 ≤ (i 0).val ∧ (i 0).val < win1_3.index _ (0 : Fin 2) * 32 + 32; rw [e30]; show (i 0).val / 32 * 32 ≤ _ ∧ _ < (i 0).val / 32 * 32 + 32; omega
  | ⟨1, _⟩ => show win1_3.index _ (1 : Fin 2) * 1000 ≤ (i 1).val ∧ (i 1).val < win1_3.index _ (1 : Fin 2) * 1000 + 1000; rw [e31]; omega

/-- THE ARRAY after the region: `G` everywhere. -/
theorem regionOut_eq : regionOut (F := Ideal) d wg bg e o0 = G wg bg e := by
  unfold regionOut
  exact (dat1 d wg bg e o0).arrAt_eq_of_cover 3 (G wg bg e) (fun t _ => flushed3_eq d wg bg e o0 t) covered3

/-- Row `n`, column `g` of the result: the lane sum of the products of the first operand's row with the gathered
    weights' row, plus the gathered bias. -/
theorem regionOut_ideal (n : Fin 512) (g : Fin 1000) :
    regionOut (F := Ideal) d wg bg e o0 (ValueIdx.ix2 n g)
      = (∑ k : Fin 128, e (ValueIdx.ix3 n g k) * wg (ValueIdx.ix2 g k)) + bg (ValueIdx.ix2 (0 : Fin 1) g) := by
  rw [regionOut_eq]
  rfl

end Cert.KernelIdeal.Hand

end
-- ==== Proof.ValueIdeal.lean ====
/-
  At the ideal instance the pipelined call's value at the gathered arrays is the specification: entry (n, g) is the
  sum over d of e[n, g, d] · w[ix g, d], plus b[ix g] — row g of the gathered weights being the table's row ix g and
  entry g of the gathered bias the bias at ix g.
-/
import proofs.«206728_g1443109012240_cont_week2b_750_35_alg».proof.Proof.MainIdeal
import proofs.«206728_g1443109012240_cont_week2b_750_35_alg».proof.Proof.RegionValueIdeal

noncomputable section

namespace Cert.KernelIdeal.Hand

open Cert.KernelIdeal Cert.KernelIdeal.Gen
open Idealize.ShloMosaic Idealize.ShloMosaic.ValueIdx
open Idealize.ShloMosaic.SparseCore (S V T)
open Idealize.SL Idealize.SL.Sem

variable (m : (ℓ : Loc nD τ sig) → Buf (Elt Ideal) ℓ)

theorem outK_eq (d : Dev nD) :
    outK (F := Ideal) m d = Cert.Lookup.out (m (eLoc d)) (m (iLoc d)) (m (wLoc d)) (m (bLoc d)) := by
  funext j
  obtain ⟨n, g, rfl⟩ : ∃ (n : Fin 512) (g : Fin 1000), j = ix2 n g := ⟨j 0, j 1, eq_ix2 j⟩
  rw [Cert.Lookup.out_ix2]
  unfold outK Cert.Lookup.outAt
  rw [regionOut_ideal, bRow_apply]
  rfl

end Cert.KernelIdeal.Hand

end
-- ==== Proof.lean ====
/-
  The certificate. Both printed programs look rows of a 1000-row table and of a bias up at 1000 indices and contract
  every cell's embeddings against the looked-up weights: out[n, g] = Σ_d e[n, g, d] · w[ix g, d] + b[ix g]. The kernel
  gathers the rows on the SparseCores' tiles (25 chunks of 40 indices, one chunk a tile) and contracts block by block
  on the TensorCore; the reference gathers and contracts whole arrays. Under the precondition every index lies in
  [0, 999], so every gather reads the row its index names and the reference's masking of out-of-range indices never
  fires; the two sums run over the same 128 terms. The frames are the runs with the values dropped.
-/
import proofs.«206728_g1443109012240_cont_week2b_750_35_alg».proof.Defs
import proofs.«206728_g1443109012240_cont_week2b_750_35_alg».proof.Proof.Gen.Kernel
import proofs.«206728_g1443109012240_cont_week2b_750_35_alg».proof.Proof.Gen.KernelIdeal
import proofs.«206728_g1443109012240_cont_week2b_750_35_alg».proof.Proof.Gen.ReferenceIdeal
import proofs.«206728_g1443109012240_cont_week2b_750_35_alg».proof.Proof.Gen.Pre_input_domain
import proofs.«206728_g1443109012240_cont_week2b_750_35_alg».proof.Proof.PreFacts
import proofs.«206728_g1443109012240_cont_week2b_750_35_alg».proof.Proof.RefRun
import proofs.«206728_g1443109012240_cont_week2b_750_35_alg».proof.Proof.MainBits
import proofs.«206728_g1443109012240_cont_week2b_750_35_alg».proof.Proof.ValueIdeal
import Idealize.ShloMosaic.Adequacy
import Idealize.ShloMosaic.Init

noncomputable section

namespace Cert.Proof

open Idealize.ShloMosaic Idealize.SL.Sem

/-- The precondition puts every index word in [0, 999]. -/
theorem preOK_bits (m : (ℓ : Loc Cert.Kernel.nD Cert.Kernel.τ Cert.Kernel.sig) → Buf (Elt Bits) ℓ) (h : Cert.Pre_Kernel m) :
    Cert.Kernel.Hand.PreOK (F := Bits) m := fun d x => Cert.PreFacts.idx_range _ _ _ _ (h d) x
theorem preOK_ideal (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m := fun d x => Cert.PreFacts.idx_range _ _ _ _ (h d) x

theorem frame_p : Cert.frame_Kernel := fun m g hpre =>
  (θ_run Cert.Kernel.defs _ _).mono (fun _ h c => ⟨(h c).1, (h c).2.1, (h c).2.2.1, (h c).2.2.2.1⟩)
    (Cert.Kernel.Hand.run_main (F := Bits) m g (preOK_bits m hpre))

theorem frame_pi : Cert.frame_KernelIdeal := fun m g hpre =>
  (θ_run Cert.KernelIdeal.defs _ _).mono (fun _ h c => ⟨(h c).1, (h c).2.1, (h c).2.2.1, (h c).2.2.2.1⟩)
    (Cert.KernelIdeal.Hand.run_main (F := Ideal) m g (preOK_ideal m hpre))

theorem frame_ri : Cert.frame_ReferenceIdeal := fun m g hpre =>
  (θ_run Cert.ReferenceIdeal.defs _ _).mono (fun _ h c => (h c).2) (Cert.ReferenceIdeal.RefValue.run m g hpre)

/-- Both runs end with the result array at the specification of the (agreeing) arguments. -/
theorem algebraic : Cert.algebraic_KernelIdeal_ReferenceIdeal := by
  intro m g m' g' hpre hagree
  have hpre' : Cert.Pre_ReferenceIdeal m' := fun c => by
    have h := hpre c
    rw [← (hagree c).1, ← (hagree c).2.1, ← (hagree c).2.2.1, ← (hagree c).2.2.2] at h
    exact h
  refine ⟨fun c => Cert.KernelIdeal.Hand.outK (F := Ideal) m c, ?_, ?_⟩
  · exact (θ_run Cert.KernelIdeal.defs _ _).mono (fun _ h c => ⟨(h c).2.2.2.2, (h c).1, (h c).2.1, (h c).2.2.1, (h c).2.2.2.1⟩)
      (Cert.KernelIdeal.Hand.run_main (F := Ideal) m g (preOK_ideal m hpre))
  · refine (θ_run Cert.ReferenceIdeal.defs _ _).mono (fun _ h c => ⟨(h c).1.trans ?_, (h c).2⟩)
      (Cert.ReferenceIdeal.RefValue.run m' g' hpre')
    show _ = Cert.KernelIdeal.Hand.outK (F := Ideal) m c
    rw [Cert.KernelIdeal.Hand.outK_eq m c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
